-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8x2x100000 : Shape := ⟨3, ![8, 2, 100000]⟩
abbrev S8x100000 : Shape := ⟨2, ![8, 100000]⟩
abbrev S8x128x128 : Shape := ⟨3, ![8, 128, 128]⟩
abbrev S128x128 : Shape := ⟨2, ![128, 128]⟩
abbrev S8x128 : Shape := ⟨2, ![8, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x100000 : S_.BroadcastsInDim S8x100000 (![] : Fin 0 → Fin S8x100000.rank)
  reducesTo_S8x100000_S_d0_1 : S8x100000.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_arg8 : FVec F S8x128 .f32) (main_v33 : IVec S_ 1) : IVec S_ 1 :=
  let main_v34 : FVec F S8x128 .f32 := Host.absf main_arg8
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  main_v38

def fn_part1 {F : FTy → Type} [FloatOps F] (main_arg5 : FVec F S8x128 .f32) (main_arg6 : FVec F S8x128x128 .f32) (main_arg7 : FVec F S128x128 .f32) (main_arg8 : FVec F S8x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S8x128 .f32 := Host.absf main_arg5
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8x128x128 .f32 := Host.absf main_arg6
  let main_cst_8 : FVec F S_ .f32 := constant S_ .f32 0x7F800000#32
  let main_v25 : FVec F S8x128x128 .f32 := broadcastInDim S8x128x128 ![] bcast_S_S8x128x128 main_cst_8
  let main_v26 : IVec S8x128x128 1 := cmpf .olt main_v24 main_v25
  let main_c_9 : IVec S_ 1 := constantI S_ 1 1#1
  let main_v27 : IVec S_ 1 := (fun x v => Host.reduce IntOp.andi x v reducesTo_S8x128x128_S_d0_1_2 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S8x2x100000 32) (main_arg2 : FVec F S8x100000 .f32) (main_arg3 : FVec F S8x128x128 .f32) (main_arg4 : FVec F S128x128 .f32) (main_arg5 : FVec F S8x128 .f32) (main_arg6 : FVec F S8x128x128 .f32) (main_arg7 : FVec F S128x128 .f32) (main_arg8 : FVec F S8x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x100000 .f32 := Host.absf main_arg2
  let main_cst_0 : FVec F S_ .f32 := constant S_ .f32 0x7F800000#32
  let main_v5 : FVec F S8x100000 .f32 := broadcastInDim S8x100000 ![] bcast_S_S8x100000 main_cst_0
  let main_v6 : IVec S8x100000 1 := cmpf .olt main_v4 main_v5
  let main_c_1 : IVec S_ 1 := constantI S_ 1 1#1
  let main_v7 : IVec S_ 1 := (fun x v => Host.reduce IntOp.andi x v reducesTo_S8x100000_S_d0_1 h_S_) main_v6 main_c_1
  let main_v8 : IVec S_ 1 := andi main_v3 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S8x2x100000 : Shape := ⟨3, ![8, 2, 100000]⟩
abbrev S8x100000 : Shape := ⟨2, ![8, 100000]⟩
abbrev S8x128x128 : Shape := ⟨3, ![8, 128, 128]⟩
abbrev S128x128 : Shape := ⟨2, ![128, 128]⟩
abbrev S8x128 : Shape := ⟨2, ![8, 128]⟩
abbrev S8x1x100000 : Shape := ⟨3, ![8, 1, 100000]⟩
abbrev S_ : Shape := ⟨0, ![]⟩
abbrev S8x100000x1 : Shape := ⟨3, ![8, 100000, 1]⟩
abbrev S8x100000x128 : Shape := ⟨3, ![8, 100000, 128]⟩
abbrev S1x5000x128 : Shape := ⟨3, ![1, 5000, 128]⟩
abbrev S1x128x128 : Shape := ⟨3, ![1, 128, 128]⟩
abbrev S1x5000x1 : Shape := ⟨3, ![1, 5000, 1]⟩
abbrev S5000x128 : Shape := ⟨2, ![5000, 128]⟩
abbrev S5000x1 : Shape := ⟨2, ![5000, 1]⟩
abbrev S800000x128 : Shape := ⟨2, ![800000, 128]⟩
abbrev S800000 : Shape := ⟨1, ![800000]⟩
abbrev S800000x1 : Shape := ⟨2, ![800000, 1]⟩
abbrev S8 : Shape := ⟨1, ![8]⟩
abbrev S100000x8 : Shape := ⟨2, ![100000, 8]⟩
abbrev S800000x2 : Shape := ⟨2, ![800000, 2]⟩
abbrev S5000x8 : Shape := ⟨2, ![5000, 8]⟩

abbrev nBuf : Space → Nat
  | .hbm => 110
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S8x2x100000, .i32⟩
  | .hbm, ⟨2, _⟩ => ⟨S8x100000, .f32⟩
  | .hbm, ⟨3, _⟩ => ⟨S8x128x128, .f32⟩
  | .hbm, ⟨4, _⟩ => ⟨S128x128, .f32⟩
  | .hbm, ⟨5, _⟩ => ⟨S8x128, .f32⟩
  | .hbm, ⟨6, _⟩ => ⟨S8x128x128, .f32⟩
  | .hbm, ⟨7, _⟩ => ⟨S128x128, .f32⟩
  | .hbm, ⟨8, _⟩ => ⟨S8x128, .f32⟩
  | .hbm, ⟨9, _⟩ => ⟨S8x1x100000, .i32⟩
  | .hbm, ⟨10, _⟩ => ⟨S8x100000, .i32⟩
  | .hbm, ⟨11, _⟩ => ⟨S8x1x100000, .i32⟩
  | .hbm, ⟨12, _⟩ => ⟨S8x100000, .i32⟩
  | .hbm, ⟨13, _⟩ => ⟨S_, .i32⟩
  | .hbm, ⟨14, _⟩ => ⟨S8x100000, .i32⟩
  | .hbm, ⟨15, _⟩ => ⟨S8x100000, .i1⟩
  | .hbm, ⟨16, _⟩ => ⟨S_, .i32⟩
  | .hbm, ⟨17, _⟩ => ⟨S8x100000, .i32⟩
  | .hbm, ⟨18, _⟩ => ⟨S8x100000, .i32⟩
  | .hbm, ⟨19, _⟩ => ⟨S8x100000, .i32⟩
  | .hbm, ⟨20, _⟩ => ⟨S8x100000x1, .i32⟩
  | .hbm, ⟨21, _⟩ => ⟨S8x100000x128, .f32⟩
  | .hbm, ⟨22, _⟩ => ⟨S8x100000x1, .f32⟩
  | .hbm, ⟨23, _⟩ => ⟨S8x100000x128, .f32⟩
  | .hbm, ⟨24, _⟩ => ⟨S800000x128, .f32⟩
  | .hbm, ⟨25, _⟩ => ⟨S800000, .i32⟩
  | .hbm, ⟨26, _⟩ => ⟨S_, .f32⟩
  | .hbm, ⟨27, _⟩ => ⟨S100000x128, .f32⟩
  | .hbm, ⟨28, _⟩ => ⟨S800000x1, .i32⟩
  | .hbm, ⟨29, _⟩ => ⟨S100000x128, .f32⟩
  | .hbm, ⟨30, _⟩ => ⟨S8, .i32⟩
  | .hbm, ⟨31, _⟩ => ⟨S8x100000, .i32⟩
  | .hbm, ⟨32, _⟩ => ⟨S800000, .i32⟩
  | .hbm, ⟨33, _⟩ => ⟨S_, .f32⟩
  | .hbm, ⟨34, _⟩ => ⟨S100000x8, .f32⟩
  | .hbm, ⟨35, _⟩ => ⟨S800000, .i32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x1, .i32⟩
  | .hbm, ⟨52, _⟩ => ⟨S800000x2, .i32⟩
  | .hbm, ⟨53, _⟩ => ⟨S_, .f32⟩
  | .hbm, ⟨54, _⟩ => ⟨S800000, .f32⟩
  | .hbm, ⟨55, _⟩ => ⟨S100000x8, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S8x1x100000, .i32⟩
  | .hbm, ⟨62, _⟩ => ⟨S8x100000, .i32⟩
  | .hbm, ⟨63, _⟩ => ⟨S8x1x100000, .i32⟩
  | .hbm, ⟨64, _⟩ => ⟨S8x100000, .i32⟩
  | .hbm, ⟨65, _⟩ => ⟨S_, .i32⟩
  | .hbm, ⟨66, _⟩ => ⟨S8x100000, .i32⟩
  | .hbm, ⟨67, _⟩ => ⟨S8x100000, .i1⟩
  | .hbm, ⟨68, _⟩ => ⟨S_, .i32⟩
  | .hbm, ⟨69, _⟩ => ⟨S8x100000, .i32⟩
  | .hbm, ⟨70, _⟩ => ⟨S8x100000, .i32⟩
  | .hbm, ⟨71, _⟩ => ⟨S8x100000, .i32⟩
  | .hbm, ⟨72, _⟩ => ⟨S8x100000x1, .i32⟩
  | .hbm, ⟨73, _⟩ => ⟨S8x100000x128, .f32⟩
  | .hbm, ⟨74, _⟩ => ⟨S8x100000x1, .f32⟩
  | .hbm, ⟨75, _⟩ => ⟨S8x100000x128, .f32⟩
  | .hbm, ⟨76, _⟩ => ⟨S800000x128, .f32⟩
  | .hbm, ⟨77, _⟩ => ⟨S800000, .i32⟩
  | .hbm, ⟨78, _⟩ => ⟨S_, .f32⟩
  | .hbm, ⟨79, _⟩ => ⟨S100000x128, .f32⟩
  | .hbm, ⟨80, _⟩ => ⟨S800000x1, .i32⟩
  | .hbm, ⟨81, _⟩ => ⟨S100000x128, .f32⟩
  | .hbm, ⟨82, _⟩ => ⟨S8, .i32⟩
  | .hbm, ⟨83, _⟩ => ⟨S8x100000, .i32⟩
  | .hbm, ⟨84, _⟩ => ⟨S800000, .i32⟩
  | .hbm, ⟨85, _⟩ => ⟨S_, .f32⟩
  | .hbm, ⟨86, _⟩ => ⟨S100000x8, .f32⟩
  | .hbm, ⟨87, _⟩ => ⟨S800000, .i32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000x1, .i32⟩
  | .hbm, ⟨104, _⟩ => ⟨S800000x2, .i32⟩
  | .hbm, ⟨105, _⟩ => ⟨S_, .f32⟩
  | .hbm, ⟨106, _⟩ => ⟨S800000, .f32⟩
  | .hbm, ⟨107, _⟩ => ⟨S100000x8, .f32⟩
  | .hbm, ⟨108, _⟩ => ⟨S100000x128, .f32⟩
  | .hbm, ⟨109, _⟩ => ⟨S100000x128, .f32⟩
  | .local _ .vmem, ⟨0, _⟩ => ⟨S1x5000x128, .f32⟩
  | .local _ .vmem, ⟨1, _⟩ => ⟨S1x5000x128, .f32⟩
  | .local _ .vmem, ⟨2, _⟩ => ⟨S1x128x128, .f32⟩
  | .local _ .vmem, ⟨3, _⟩ => ⟨S1x128x128, .f32⟩
  | .local _ .vmem, ⟨4, _⟩ => ⟨S1x5000x1, .f32⟩
  | .local _ .vmem, ⟨5, _⟩ => ⟨S1x5000x1, .f32⟩
  | .local _ .vmem, ⟨6, _⟩ => ⟨S1x5000x128, .f32⟩
  | .local _ .vmem, ⟨7, _⟩ => ⟨S1x5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x8, .f32⟩
  | .local _ .vmem, ⟨12, _⟩ => ⟨S5000x8, .f32⟩
  | .local _ .vmem, ⟨13, _⟩ => ⟨S8x128, .f32⟩
  | .local _ .vmem, ⟨14, _⟩ => ⟨S5000x128, .f32⟩
  | .local _ .vmem, ⟨15, _⟩ => ⟨S5000x128, .f32⟩
  | .local _ .vmem, ⟨16, _⟩ => ⟨S1x5000x128, .f32⟩
  | .local _ .vmem, ⟨17, _⟩ => ⟨S1x5000x128, .f32⟩
  | .local _ .vmem, ⟨18, _⟩ => ⟨S1x128x128, .f32⟩
  | .local _ .vmem, ⟨19, _⟩ => ⟨S1x128x128, .f32⟩
  | .local _ .vmem, ⟨20, _⟩ => ⟨S1x5000x1, .f32⟩
  | .local _ .vmem, ⟨21, _⟩ => ⟨S1x5000x1, .f32⟩
  | .local _ .vmem, ⟨22, _⟩ => ⟨S1x5000x128, .f32⟩
  | .local _ .vmem, ⟨23, _⟩ => ⟨S1x5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x8, .f32⟩
  | .local _ .vmem, ⟨28, _⟩ => ⟨S5000x8, .f32⟩
  | .local _ .vmem, ⟨29, _⟩ => ⟨S8x128, .f32⟩
  | .local _ .vmem, ⟨30, _⟩ => ⟨S5000x128, .f32⟩
  | .local _ .vmem, ⟨31, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨2, ![8, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 20], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S8x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S8x2x100000_S8x1x100000_0_0_0 : S8x2x100000.Slices ![0, 0, 0] S8x1x100000
  shapeCasts_S8x1x100000_S8x100000 : S8x1x100000.ShapeCasts S8x100000
  slices_S8x2x100000_S8x1x100000_0_1_0 : S8x2x100000.Slices ![0, 1, 0] S8x1x100000
  bcast_S_S8x100000 : S_.BroadcastsInDim S8x100000 (![] : Fin 0 → Fin S8x100000.rank)
  bcast_S8x100000_S8x100000x1_0_1 : S8x100000.BroadcastsInDim S8x100000x1 (![0, 1] : Fin 2 → Fin S8x100000x1.rank)
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  bitsLt_bf16_f32 : FTy.bits .bf16 < FTy.bits .f32
  broadcasts_S5000x1_S5000x128 : S5000x1.Broadcasts S5000x128
  shapeCasts_S5000x128_S1x5000x128 : S5000x128.ShapeCasts S1x5000x128
  shapeCasts_S8x100000x128_S800000x128 : S8x100000x128.ShapeCasts S800000x128
  shapeCasts_S8x100000_S800000 : S8x100000.ShapeCasts S800000
  bcast_S_S100000x128 : S_.BroadcastsInDim S100000x128 (![] : Fin 0 → Fin S100000x128.rank)
  bcast_S800000_S800000x1_0 : S800000.BroadcastsInDim S800000x1 (![0] : Fin 1 → Fin S800000x1.rank)
  bcast_S8_S8x100000_0 : S8.BroadcastsInDim S8x100000 (![0] : Fin 1 → Fin S8x100000.rank)
  bcast_S_S100000x8 : S_.BroadcastsInDim S100000x8 (![] : Fin 0 → Fin S100000x8.rank)
  bcast_S_S800000 : S_.BroadcastsInDim S800000 (![] : Fin 0 → Fin S800000.rank)
  concatenates_S800000x1_S800000x1_S800000x2_d1 : Shape.Concatenates [S800000x1, S800000x1] S800000x2 1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S8x128_S8x128_0_0 : ∀ a, (![0, 0] : Fin 2 → Nat) a + S8x128.size a ≤ S8x128.size a
  h_S8x128 : 0 < S8x128.numel
  shapeCasts_S5000x128_S5000x128 : S5000x128.ShapeCasts S5000x128
  gather_S100000x128_S8x100000x1_S8x100000x128_2_0_n_n_0_2_1128_wf : GatherDims.WF S100000x128 S8x100000x1 S8x100000x128 [2] [0] [] [0] [] 2 ![1, 128]
  dot_S5000x128_S128x128_S5000x128_1_0_0_1_n_n_wf : DotDims.WF S5000x128 S128x128 S5000x128 [1] [0] [0] [1] [] []
  scatter_S100000x128_S800000x1_S800000x128_1_0_0_1_wf : ScatterDims.WF S100000x128 S800000x1 S800000x128 [1] [0] [0] 1
  scatter_S100000x8_S800000x2_S800000_n_01_01_1_wf : ScatterDims.WF S100000x8 S800000x2 S800000 [] [0, 1] [0, 1] 1
  dot_S5000x8_S8x128_S5000x128_1_0_0_1_n_n_wf : DotDims.WF S5000x8 S8x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S8x100000x128.size a
  hwx0_0 : ∀ i : grid0.Coords, EltTy.bits .f32 = 32 ∨ (Rect.block (s := S8x100000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x1.size a ≤ S8x100000x1.size a
  hwx0_2 : ∀ i : grid0.Coords, EltTy.bits .f32 = 32 ∨ (Rect.block (s := S8x100000x1) S1x5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5000x128.size a ≤ S8x100000x128.size a
  hwx0_3 : ∀ i : grid0.Coords, EltTy.bits .f32 = 32 ∨ (Rect.block (s := S8x100000x128) S1x5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S100000x8.size a
  hwx1_2 : ∀ i : grid1.Coords, EltTy.bits .f32 = 32 ∨ (Rect.block (s := S100000x8) S5000x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S8x128.size a
  hwx1_3 : ∀ i : grid1.Coords, EltTy.bits .f32 = 32 ∨ (Rect.block (s := S8x128) S8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5000x128.size a ≤ S8x100000x128.size a
  hwx2_0 : ∀ i : grid2.Coords, EltTy.bits .f32 = 32 ∨ (Rect.block (s := S8x100000x128) S1x5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S8x128x128.size a
  hwx2_1 : ∀ i : grid2.Coords, EltTy.bits .f32 = 32 ∨ (Rect.block (s := S8x128x128) S1x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x5000x1.size a ≤ S8x100000x1.size a
  hwx2_2 : ∀ i : grid2.Coords, EltTy.bits .f32 = 32 ∨ (Rect.block (s := S8x100000x1) S1x5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x5000x128.size a ≤ S8x100000x128.size a
  hwx2_3 : ∀ i : grid2.Coords, EltTy.bits .f32 = 32 ∨ (Rect.block (s := S8x100000x128) S1x5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x8.size a ≤ S100000x8.size a
  hwx3_2 : ∀ i : grid3.Coords, EltTy.bits .f32 = 32 ∨ (Rect.block (s := S100000x8) S5000x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8x128.size a ≤ S8x128.size a
  hwx3_3 : ∀ i : grid3.Coords, EltTy.bits .f32 = 32 ∨ (Rect.block (s := S8x128) S8x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def gather_S100000x128_S8x100000x1_S8x100000x128_2_0_n_n_0_2_1128 : GatherDims S100000x128 S8x100000x1 S8x100000x128 where
  offsetDims := [2]
  collapsedSliceDims := [0]
  operandBatchingDims := []
  startIndicesBatchingDims := []
  startIndexMap := [0]
  indexVectorDim := 2
  sliceSizes := ![1, 128]
  wf := gather_S100000x128_S8x100000x1_S8x100000x128_2_0_n_n_0_2_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000x8_S800000x2_S800000_n_01_01_1 : ScatterDims S100000x8 S800000x2 S800000 where
  updateWindowDims := []
  insertedWindowDims := [0, 1]
  scatterDimsToOperandDims := [0, 1]
  indexVectorDim := 1
  wf := scatter_S100000x8_S800000x2_S800000_n_01_01_1_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf

abbrev win0_0 : Pipeline.Window sig grid0 :=
  Pipeline.Window.ofSpec (Memref.whole main_v10) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S8x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S1x5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S5000x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S8x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S8x2x100000 : Shape := ⟨3, ![8, 2, 100000]⟩
abbrev S8x100000 : Shape := ⟨2, ![8, 100000]⟩
abbrev S8x128x128 : Shape := ⟨3, ![8, 128, 128]⟩
abbrev S128x128 : Shape := ⟨2, ![128, 128]⟩
abbrev S8x128 : Shape := ⟨2, ![8, 128]⟩
abbrev S8x1x100000 : Shape := ⟨3, ![8, 1, 100000]⟩
abbrev S_ : Shape := ⟨0, ![]⟩
abbrev S8x100000x1 : Shape := ⟨3, ![8, 100000, 1]⟩
abbrev S8x100000x128 : Shape := ⟨3, ![8, 100000, 128]⟩
abbrev S800000x128 : Shape := ⟨2, ![800000, 128]⟩
abbrev S800000 : Shape := ⟨1, ![800000]⟩
abbrev S800000x1 : Shape := ⟨2, ![800000, 1]⟩
abbrev S8 : Shape := ⟨1, ![8]⟩
abbrev S8x1 : Shape := ⟨2, ![8, 1]⟩
abbrev S8x100000x2 : Shape := ⟨3, ![8, 100000, 2]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S8x2x100000, .i32⟩
  | .hbm, ⟨2, _⟩ => ⟨S8x100000, .f32⟩
  | .hbm, ⟨3, _⟩ => ⟨S8x128x128, .f32⟩
  | .hbm, ⟨4, _⟩ => ⟨S128x128, .f32⟩
  | .hbm, ⟨5, _⟩ => ⟨S8x128, .f32⟩
  | .hbm, ⟨6, _⟩ => ⟨S8x128x128, .f32⟩
  | .hbm, ⟨7, _⟩ => ⟨S128x128, .f32⟩
  | .hbm, ⟨8, _⟩ => ⟨S8x128, .f32⟩
  | .hbm, ⟨9, _⟩ => ⟨S8x1x100000, .i32⟩
  | .hbm, ⟨10, _⟩ => ⟨S8x100000, .i32⟩
  | .hbm, ⟨11, _⟩ => ⟨S8x1x100000, .i32⟩
  | .hbm, ⟨12, _⟩ => ⟨S8x100000, .i32⟩
  | .hbm, ⟨13, _⟩ => ⟨S_, .i32⟩
  | .hbm, ⟨14, _⟩ => ⟨S8x100000, .i32⟩
  | .hbm, ⟨15, _⟩ => ⟨S8x100000, .i1⟩
  | .hbm, ⟨16, _⟩ => ⟨S_, .i32⟩
  | .hbm, ⟨17, _⟩ => ⟨S8x100000, .i32⟩
  | .hbm, ⟨18, _⟩ => ⟨S8x100000, .i32⟩
  | .hbm, ⟨19, _⟩ => ⟨S8x100000, .i32⟩
  | .hbm, ⟨20, _⟩ => ⟨S8x100000x1, .i32⟩
  | .hbm, ⟨21, _⟩ => ⟨S8x100000x128, .f32⟩
  | .hbm, ⟨22, _⟩ => ⟨S8x100000x128, .f32⟩
  | .hbm, ⟨23, _⟩ => ⟨S8x100000x1, .f32⟩
  | .hbm, ⟨24, _⟩ => ⟨S8x100000x128, .f32⟩
  | .hbm, ⟨25, _⟩ => ⟨S8x100000x128, .f32⟩
  | .hbm, ⟨26, _⟩ => ⟨S800000x128, .f32⟩
  | .hbm, ⟨27, _⟩ => ⟨S800000, .i32⟩
  | .hbm, ⟨28, _⟩ => ⟨S_, .f32⟩
  | .hbm, ⟨29, _⟩ => ⟨S100000x128, .f32⟩
  | .hbm, ⟨30, _⟩ => ⟨S800000x1, .i32⟩
  | .hbm, ⟨31, _⟩ => ⟨S100000x128, .f32⟩
  | .hbm, ⟨32, _⟩ => ⟨S_, .f32⟩
  | .hbm, ⟨33, _⟩ => ⟨S8x100000, .f32⟩
  | .hbm, ⟨34, _⟩ => ⟨S8, .i32⟩
  | .hbm, ⟨35, _⟩ => ⟨S8x1, .i32⟩
  | .hbm, ⟨36, _⟩ => ⟨S_, .i32⟩
  | .hbm, ⟨37, _⟩ => ⟨S8x1, .i32⟩
  | .hbm, ⟨38, _⟩ => ⟨S8x1, .i1⟩
  | .hbm, ⟨39, _⟩ => ⟨S_, .i32⟩
  | .hbm, ⟨40, _⟩ => ⟨S8x1, .i32⟩
  | .hbm, ⟨41, _⟩ => ⟨S8x1, .i32⟩
  | .hbm, ⟨42, _⟩ => ⟨S8x1, .i32⟩
  | .hbm, ⟨43, _⟩ => ⟨S_, .i32⟩
  | .hbm, ⟨44, _⟩ => ⟨S8x100000, .i32⟩
  | .hbm, ⟨45, _⟩ => ⟨S8x100000, .i1⟩
  | .hbm, ⟨46, _⟩ => ⟨S_, .i32⟩
  | .hbm, ⟨47, _⟩ => ⟨S8x100000, .i32⟩
  | .hbm, ⟨48, _⟩ => ⟨S8x100000, .i32⟩
  | .hbm, ⟨49, _⟩ => ⟨S8x100000, .i32⟩
  | .hbm, ⟨50, _⟩ => ⟨S8x100000, .i32⟩
  | .hbm, ⟨51, _⟩ => ⟨S8x100000x1, .i32⟩
  | .hbm, ⟨52, _⟩ => ⟨S8x100000x1, .i32⟩
  | .hbm, ⟨53, _⟩ => ⟨S8x100000x2, .i32⟩
  | .hbm, ⟨54, _⟩ => ⟨S_, .f32⟩
  | .hbm, ⟨55, _⟩ => ⟨S8x100000, .f32⟩
  | .hbm, ⟨56, _⟩ => ⟨S8x100000, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S8x1x100000, .i32⟩
  | .hbm, ⟨65, _⟩ => ⟨S8x100000, .i32⟩
  | .hbm, ⟨66, _⟩ => ⟨S8x1x100000, .i32⟩
  | .hbm, ⟨67, _⟩ => ⟨S8x100000, .i32⟩
  | .hbm, ⟨68, _⟩ => ⟨S_, .i32⟩
  | .hbm, ⟨69, _⟩ => ⟨S8x100000, .i32⟩
  | .hbm, ⟨70, _⟩ => ⟨S8x100000, .i1⟩
  | .hbm, ⟨71, _⟩ => ⟨S_, .i32⟩
  | .hbm, ⟨72, _⟩ => ⟨S8x100000, .i32⟩
  | .hbm, ⟨73, _⟩ => ⟨S8x100000, .i32⟩
  | .hbm, ⟨74, _⟩ => ⟨S8x100000, .i32⟩
  | .hbm, ⟨75, _⟩ => ⟨S8x100000x1, .i32⟩
  | .hbm, ⟨76, _⟩ => ⟨S8x100000x128, .f32⟩
  | .hbm, ⟨77, _⟩ => ⟨S8x100000x128, .f32⟩
  | .hbm, ⟨78, _⟩ => ⟨S8x100000x1, .f32⟩
  | .hbm, ⟨79, _⟩ => ⟨S8x100000x128, .f32⟩
  | .hbm, ⟨80, _⟩ => ⟨S8x100000x128, .f32⟩
  | .hbm, ⟨81, _⟩ => ⟨S800000x128, .f32⟩
  | .hbm, ⟨82, _⟩ => ⟨S800000, .i32⟩
  | .hbm, ⟨83, _⟩ => ⟨S_, .f32⟩
  | .hbm, ⟨84, _⟩ => ⟨S100000x128, .f32⟩
  | .hbm, ⟨85, _⟩ => ⟨S800000x1, .i32⟩
  | .hbm, ⟨86, _⟩ => ⟨S100000x128, .f32⟩
  | .hbm, ⟨87, _⟩ => ⟨S_, .f32⟩
  | .hbm, ⟨88, _⟩ => ⟨S8x100000, .f32⟩
  | .hbm, ⟨89, _⟩ => ⟨S8, .i32⟩
  | .hbm, ⟨90, _⟩ => ⟨S8x1, .i32⟩
  | .hbm, ⟨91, _⟩ => ⟨S_, .i32⟩
  | .hbm, ⟨92, _⟩ => ⟨S8x1, .i32⟩
  | .hbm, ⟨93, _⟩ => ⟨S8x1, .i1⟩
  | .hbm, ⟨94, _⟩ => ⟨S_, .i32⟩
  | .hbm, ⟨95, _⟩ => ⟨S8x1, .i32⟩
  | .hbm, ⟨96, _⟩ => ⟨S8x1, .i32⟩
  | .hbm, ⟨97, _⟩ => ⟨S8x1, .i32⟩
  | .hbm, ⟨98, _⟩ => ⟨S_, .i32⟩
  | .hbm, ⟨99, _⟩ => ⟨S8x100000, .i32⟩
  | .hbm, ⟨100, _⟩ => ⟨S8x100000, .i1⟩
  | .hbm, ⟨101, _⟩ => ⟨S_, .i32⟩
  | .hbm, ⟨102, _⟩ => ⟨S8x100000, .i32⟩
  | .hbm, ⟨103, _⟩ => ⟨S8x100000, .i32⟩
  | .hbm, ⟨104, _⟩ => ⟨S8x100000, .i32⟩
  | .hbm, ⟨105, _⟩ => ⟨S8x100000, .i32⟩
  | .hbm, ⟨106, _⟩ => ⟨S8x100000x1, .i32⟩
  | .hbm, ⟨107, _⟩ => ⟨S8x100000x1, .i32⟩
  | .hbm, ⟨108, _⟩ => ⟨S8x100000x2, .i32⟩
  | .hbm, ⟨109, _⟩ => ⟨S_, .f32⟩
  | .hbm, ⟨110, _⟩ => ⟨S8x100000, .f32⟩
  | .hbm, ⟨111, _⟩ => ⟨S8x100000, .f32⟩
  | .hbm, ⟨112, _⟩ => ⟨S100000x128, .f32⟩
  | .hbm, ⟨113, _⟩ => ⟨S100000x128, .f32⟩
  | .hbm, ⟨114, _⟩ => ⟨S100000x128, .f32⟩
  | .hbm, ⟨115, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_11 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  slices_S8x2x100000_S8x1x100000_0_0_0 : S8x2x100000.Slices ![0, 0, 0] S8x1x100000
  shapeCasts_S8x1x100000_S8x100000 : S8x1x100000.ShapeCasts S8x100000
  slices_S8x2x100000_S8x1x100000_0_1_0 : S8x2x100000.Slices ![0, 1, 0] S8x1x100000
  bcast_S_S8x100000 : S_.BroadcastsInDim S8x100000 (![] : Fin 0 → Fin S8x100000.rank)
  bcast_S8x100000_S8x100000x1_0_1 : S8x100000.BroadcastsInDim S8x100000x1 (![0, 1] : Fin 2 → Fin S8x100000x1.rank)
  bcast_S8x100000x1_S8x100000x128_0_1_2 : S8x100000x1.BroadcastsInDim S8x100000x128 (![0, 1, 2] : Fin 3 → Fin S8x100000x128.rank)
  shapeCasts_S8x100000x128_S800000x128 : S8x100000x128.ShapeCasts S800000x128
  shapeCasts_S8x100000_S800000 : S8x100000.ShapeCasts S800000
  bcast_S_S100000x128 : S_.BroadcastsInDim S100000x128 (![] : Fin 0 → Fin S100000x128.rank)
  bcast_S800000_S800000x1_0 : S800000.BroadcastsInDim S800000x1 (![0] : Fin 1 → Fin S800000x1.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x100000_0_1 : S8x1.BroadcastsInDim S8x100000 (![0, 1] : Fin 2 → Fin S8x100000.rank)
  concatenates_S8x100000x1_S8x100000x1_S8x100000x2_d2 : Shape.Concatenates [S8x100000x1, S8x100000x1] S8x100000x2 2
  gather_S100000x128_S8x100000x1_S8x100000x128_2_0_n_n_0_2_1128_wf : GatherDims.WF S100000x128 S8x100000x1 S8x100000x128 [2] [0] [] [0] [] 2 ![1, 128]
  dot_S8x100000x128_S8x128x128_S8x100000x128_2_1_1_2_0_0_wf : DotDims.WF S8x100000x128 S8x128x128 S8x100000x128 [2] [1] [1] [2] [0] [0]
  scatter_S100000x128_S800000x1_S800000x128_1_0_0_1_wf : ScatterDims.WF S100000x128 S800000x1 S800000x128 [1] [0] [0] 1
  scatter_S8x100000_S8x100000x2_S8x100000_n_01_01_2_wf : ScatterDims.WF S8x100000 S8x100000x2 S8x100000 [] [0, 1] [0, 1] 2
  dot_S8x100000_S8x128_S100000x128_0_0_1_1_n_n_wf : DotDims.WF S8x100000 S8x128 S100000x128 [0] [0] [1] [1] [] []
  dot_S100000x128_S128x128_S100000x128_1_0_0_1_n_n_wf : DotDims.WF S100000x128 S128x128 S100000x128 [1] [0] [0] [1] [] []

variable [Facts₀]

def gather_S100000x128_S8x100000x1_S8x100000x128_2_0_n_n_0_2_1128 : GatherDims S100000x128 S8x100000x1 S8x100000x128 where
  offsetDims := [2]
  collapsedSliceDims := [0]
  operandBatchingDims := []
  startIndicesBatchingDims := []
  startIndexMap := [0]
  indexVectorDim := 2
  sliceSizes := ![1, 128]
  wf := gather_S100000x128_S8x100000x1_S8x100000x128_2_0_n_n_0_2_1128_wf
def dot_S8x100000x128_S8x128x128_S8x100000x128_2_1_1_2_0_0 : DotDims S8x100000x128 S8x128x128 S8x100000x128 where
  lhsContracting := [2]
  rhsContracting := [1]
  lhsNonContracting := [1]
  rhsNonContracting := [2]
  lhsBatch := [0]
  rhsBatch := [0]
  wf := dot_S8x100000x128_S8x128x128_S8x100000x128_2_1_1_2_0_0_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S8x100000_S8x100000x2_S8x100000_n_01_01_2 : ScatterDims S8x100000 S8x100000x2 S8x100000 where
  updateWindowDims := []
  insertedWindowDims := [0, 1]
  scatterDimsToOperandDims := [0, 1]
  indexVectorDim := 2
  wf := scatter_S8x100000_S8x100000x2_S8x100000_n_01_01_2_wf
def dot_S8x100000_S8x128_S100000x128_0_0_1_1_n_n : DotDims S8x100000 S8x128 S100000x128 where
  lhsContracting := [0]
  rhsContracting := [0]
  lhsNonContracting := [1]
  rhsNonContracting := [1]
  lhsBatch := []
  rhsBatch := []
  wf := dot_S8x100000_S8x128_S100000x128_0_0_1_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KerRun.lean ====
/-
  The idealized kernel's run with its RESULT named. @main is four kernel regions among stretches of host
  operations; the buffer contents at each boundary are a fold from the launch memory (host operations applied in
  order; a region's arrays replaced by what its write-backs leave). Every weakly fair execution terminates and the
  final memory holds, at every unscoped buffer, the last boundary's contents: here that reading is kept for the
  result buffer as well as for the nine arguments.
-/
import proofs.«169420_j85890755985724_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer then holds the contents
    of the last boundary of the fold, and every argument array what it held at launch. -/
theorem run : θ_run defs (onTc (τ := τ) (main (F := F))) ⟨m, fun _ => 0, ρ⟩ (fun r => ∀ c : Dev nD,
      r.2.mem ((c.tc : Thread nD τ).loc main_v80) = W11 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v80 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Named

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.KerBody.lean ====
/-
  The two kernel bodies' arithmetic read at an index, over the extended reals.

  The relation kernel's block: a `[1, 5000, 128]` block of gathered rows times the relation's `[1, 128, 128]` weights
  (both rounded to bf16 on the way into the matrix unit, which changes nothing on extended reals), into a zero
  accumulator, each row scaled by its edge weight from the `[1, 5000, 1]` block. The self-loop kernel's block: rows
  times the self weights plus the `[5000, 8]` mask rows times the `[8, 128]` biases.
-/
import proofs.«169420_j85890755985724_1_alg».proof.Proof.Gen.KernelIdeal.Skeleton
import proofs.«169420_j85890755985724_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx
open scoped BigOperators

/-- An array with its element type spelt as the extended reals' (the identity). -/
abbrev asF32 (S : Shape) (v : Vec Ideal S .f32) : Vec Ideal S .f32 := v

/-- A column `[a, 1]` repeated along `b` lanes reads, at `(p, q)`, the column's entry `p`. -/
theorem bcast_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem plain_5000_128_128 : Cert.LibPlainDot.Plain dot_S5000x128_S128x128_S5000x128_1_0_0_1_n_n := ⟨rfl, rfl, rfl, rfl, rfl, rfl⟩
theorem plain_5000_8_128 : Cert.LibPlainDot.Plain dot_S5000x8_S8x128_S5000x128_1_0_0_1_n_n := ⟨rfl, rfl, rfl, rfl, rfl, rfl⟩

/-- The relation kernel's stored block at `(u, p, q)`: row `p` of the gathered block against column `q` of the
    weights, times the row's edge weight. -/
theorem pay_mm (x0 : Vec Ideal S1x5000x128 .f32) (x1 : Vec Ideal S1x128x128 .f32) (x2 : Vec Ideal S1x5000x1 .f32)
    (u : Fin 1) (p : Fin 5000) (q : Fin 128) :
    k0_pay1 x0 x1 x2 (ix3 u p q)
      = (∑ d : Fin 128, x0 (ix3 (0 : Fin 1) p d) * x1 (ix3 (0 : Fin 1) d q)) * x2 (ix3 (0 : Fin 1) p (0 : Fin 1)) := by
  unfold k0_pay1
  refine (shapeCast_ab_1ab_apply _ _ u p q).trans ?_
  refine (mulf_apply _ _ _).trans ?_
  refine congrArg₂ (· * ·) ?_ ?_
  · refine (Cert.LibPlainDot.matmul_zero_apply _ plain_5000_128_128 none _ _ p q).trans ?_
    refine Finset.sum_congr rfl fun d _ => ?_
    refine congrArg₂ (· * ·) ?_ ?_
    · exact shapeCast_1ab_ab_apply x0 _ p d
    · exact shapeCast_1ab_ab_apply x1 _ d q
  · refine (bcast_col_apply _ _ p q).trans ?_
    exact shapeCast_1ab_ab_apply x2 _ p (0 : Fin 1)

/-- The second relation kernel's body is the first's. -/
theorem pay_mm' (x0 : Vec Ideal S1x5000x128 .f32) (x1 : Vec Ideal S1x128x128 .f32) (x2 : Vec Ideal S1x5000x1 .f32) :
    k2_pay1 x0 x1 x2 = k0_pay1 x0 x1 x2 := rfl

/-- The self-loop kernel's stored block at `(p, q)`: row `p` against the self weights' column `q`, plus the mask's row
    `p` against the biases' column `q`. -/
theorem pay_self (x0 : Vec Ideal S5000x128 .f32) (x1 : Vec Ideal S128x128 .f32) (x2 : Vec Ideal S5000x8 .f32)
    (x3 : Vec Ideal S8x128 .f32) (p : Fin 5000) (q : Fin 128) :
    k1_pay1 x0 x1 x2 x3 (ix2 p q)
      = (∑ d : Fin 128, x0 (ix2 p d) * x1 (ix2 d q)) + (∑ r : Fin 8, x2 (ix2 p r) * x3 (ix2 r q)) := by
  unfold k1_pay1
  refine (addf_apply _ _ _).trans ?_
  refine congrArg₂ (· + ·) ?_ ?_
  · exact Cert.LibPlainDot.matmul_zero_apply _ plain_5000_128_128 none _ _ p q
  · refine (Cert.LibPlainDot.matmul_zero_apply _ plain_5000_8_128 none _ _ p q).trans ?_
    refine Finset.sum_congr rfl fun r _ => ?_
    refine congrArg₂ (· * ·) ?_ rfl
    exact congrFun (shapeCast_self x2 _) _

/-- The second self-loop kernel's body adds one identity cast of the rows. -/
theorem pay_self' (x0 : Vec Ideal S5000x128 .f32) (x1 : Vec Ideal S128x128 .f32) (x2 : Vec Ideal S5000x8 .f32)
    (x3 : Vec Ideal S8x128 .f32) (p : Fin 5000) (q : Fin 128) :
    k3_pay1 x0 x1 x2 x3 (ix2 p q)
      = (∑ d : Fin 128, x0 (ix2 p d) * x1 (ix2 d q)) + (∑ r : Fin 8, x2 (ix2 p r) * x3 (ix2 r q)) := by
  unfold k3_pay1
  refine (addf_apply _ _ _).trans ?_
  refine congrArg₂ (· + ·) ?_ ?_
  · refine (Cert.LibPlainDot.matmul_zero_apply _ plain_5000_128_128 none _ _ p q).trans ?_
    refine Finset.sum_congr rfl fun d _ => ?_
    refine congrArg₂ (· * ·) ?_ rfl
    exact congrFun (shapeCast_self x0 _) _
  · refine (Cert.LibPlainDot.matmul_zero_apply _ plain_5000_8_128 none _ _ p q).trans ?_
    refine Finset.sum_congr rfl fun r _ => ?_
    refine congrArg₂ (· * ·) ?_ rfl
    exact congrFun (shapeCast_self x2 _) _

/-- The same at any index of the block. -/
theorem pay_mm_at (x0 : Vec Ideal S1x5000x128 .f32) (x1 : Vec Ideal S1x128x128 .f32) (x2 : Vec Ideal S1x5000x1 .f32)
    (j : S1x5000x128.Idx) :
    k0_pay1 x0 x1 x2 j
      = (∑ d : Fin 128, x0 (ix3 (0 : Fin 1) (j 1) d) * x1 (ix3 (0 : Fin 1) d (j 2))) * x2 (ix3 (0 : Fin 1) (j 1) (0 : Fin 1)) :=
  (congrArg (k0_pay1 x0 x1 x2) (eq_ix3 j)).trans (pay_mm x0 x1 x2 (j 0) (j 1) (j 2))

theorem pay_mm2_at (x0 : Vec Ideal S1x5000x128 .f32) (x1 : Vec Ideal S1x128x128 .f32) (x2 : Vec Ideal S1x5000x1 .f32)
    (j : S1x5000x128.Idx) :
    k2_pay1 x0 x1 x2 j
      = (∑ d : Fin 128, x0 (ix3 (0 : Fin 1) (j 1) d) * x1 (ix3 (0 : Fin 1) d (j 2))) * x2 (ix3 (0 : Fin 1) (j 1) (0 : Fin 1)) :=
  pay_mm_at x0 x1 x2 j

theorem pay_self_at (x0 : Vec Ideal S5000x128 .f32) (x1 : Vec Ideal S128x128 .f32) (x2 : Vec Ideal S5000x8 .f32)
    (x3 : Vec Ideal S8x128 .f32) (j : S5000x128.Idx) :
    k1_pay1 x0 x1 x2 x3 j
      = (∑ d : Fin 128, x0 (ix2 (j 0) d) * x1 (ix2 d (j 1))) + (∑ r : Fin 8, x2 (ix2 (j 0) r) * x3 (ix2 r (j 1))) :=
  (congrArg (k1_pay1 x0 x1 x2 x3) (eq_ix2 j)).trans (pay_self x0 x1 x2 x3 (j 0) (j 1))

theorem pay_self'_at (x0 : Vec Ideal S5000x128 .f32) (x1 : Vec Ideal S128x128 .f32) (x2 : Vec Ideal S5000x8 .f32)
    (x3 : Vec Ideal S8x128 .f32) (j : S5000x128.Idx) :
    k3_pay1 x0 x1 x2 x3 j
      = (∑ d : Fin 128, x0 (ix2 (j 0) d) * x1 (ix2 d (j 1))) + (∑ r : Fin 8, x2 (ix2 (j 0) r) * x3 (ix2 r (j 1))) :=
  (congrArg (k3_pay1 x0 x1 x2 x3) (eq_ix2 j)).trans (pay_self' x0 x1 x2 x3 (j 0) (j 1))

/-! ## The two kernels' results as whole arrays -/

/-- Messages: for relation `r` and edge `e`, the gathered row `(r, e)` times the relation's weights, scaled by the
    edge's weight (held as a `[8, 100000, 1]` column). -/
def msgOf (g : FVec Ideal S8x100000x128 .f32) (w : FVec Ideal S8x128x128 .f32) (e : FVec Ideal S8x100000x1 .f32) :
    FVec Ideal S8x100000x128 .f32 :=
  fun i => (∑ d : Fin 128, g (ix3 (i 0) (i 1) d) * w (ix3 (i 0) d (i 2))) * e (ix3 (i 0) (i 1) (0 : Fin 1))

/-- Self-loop and bias: row `n` times the self weights, plus the node's mask row times the biases. -/
def selfOf (x : FVec Ideal S100000x128 .f32) (w : FVec Ideal S128x128 .f32) (mk : FVec Ideal S100000x8 .f32)
    (b : FVec Ideal S8x128 .f32) : FVec Ideal S100000x128 .f32 :=
  fun i => (∑ d : Fin 128, x (ix2 (i 0) d) * w (ix2 d (i 1))) + (∑ r : Fin 8, mk (ix2 (i 0) r) * b (ix2 r (i 1)))

end Cert.KernelIdeal.Body

end
-- ==== Proof.Reg0.lean ====
/-
  Region 0 (a relation kernel) as ONE function of its operand arrays. The grid is (relation, edge block); the point
  (r, b) reads rows [5000 b, 5000 b + 5000) of relation r's gathered rows and edge weights and all of relation r's
  weights, and writes back the same rows of the messages. The written-back blocks are the blocks of one whole-array
  function, and they tile the array, so the array ends at that function.
-/
import proofs.«169420_j85890755985724_1_alg».proof.Proof.Gen.KernelIdeal.Frame
import proofs.«169420_j85890755985724_1_alg».proof.Proof.KerBody

set_option maxRecDepth 16384

noncomputable section

namespace Cert.KernelIdeal.Reg0

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0, 0] : Fin 3 → Nat) = fun _ => 0 := funext fun a => by fin_cases a <;> rfl

/-- The printed index maps over the grid: the rows' and the edge weights' blocks move with the output's, the
    weights' block follows the relation only, and the output's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (0 : Fin 3) ≤ 7 ∧ win0_3.index t (1 : Fin 3) ≤ 19 ∧ win0_3.index t (2 : Fin 3) = 0 :=
  (by decide +kernel : ∀ t : Fin grid0.N, _)

/-- Every (relation, edge block) is some point's. -/
theorem idx_onto : ∀ (q0 : Fin 8) (q1 : Fin 20), ∃ t : Fin cfg0.N, win0_3.index t = ![q0.val, q1.val, 0] :=
  (by decide +kernel : ∀ (q0 : Fin 8) (q1 : Fin 20), ∃ t : Fin grid0.N, win0_3.index t = ![q0.val, q1.val, 0])

/-- What point `t` writes back is block `t` of the messages of the operand arrays as the region finds them. -/
theorem flushed_eq (c : Dev nD) (t : Fin cfg0.N) :
    (dat0 V c).flushed 3 t
      = ((cfg0.win 3).blk t).view.read (Elt Ideal) (msgOf (V c main_v10) (V c main_arg3) (V c main_v11)) := by
  show (cfg0.win 3).cut (grid0.coords t) ((dat0 V c).after 3 t) = _
  rw [after0_3]
  unfold out0_3
  rw [View.canon_unit_zero hz]
  simp only [View.ld_unit_zero (S := S1x5000x128) hz, View.ld_unit_zero (S := S1x128x128) hz,
    View.ld_unit_zero (S := S1x5000x1) hz]
  obtain ⟨e00, e01, e02, e10, e11, e12, e20, e21, e22, b0, b1, e32⟩ := idx_facts t
  funext j
  refine (pay_mm_at (iblk0 V c 0 t) (iblk0 V c 1 t) (iblk0 V c 2 t) j).trans ?_
  have hj0 : (j 0).val < 1 := (j 0).isLt
  have hj1 : (j 1).val < 5000 := (j 1).isLt
  have hj2 : (j 2).val < 128 := (j 2).isLt
  show (∑ d : Fin 128, asF32 S8x100000x128 (V c main_v10) (((cfg0.win 0).blk t).view.emb (ix3 (0 : Fin 1) (j 1) d))
        * asF32 S8x128x128 (V c main_arg3) (((cfg0.win 1).blk t).view.emb (ix3 (0 : Fin 1) d (j 2))))
      * asF32 S8x100000x1 (V c main_v11) (((cfg0.win 2).blk t).view.emb (ix3 (0 : Fin 1) (j 1) (0 : Fin 1)))
    = (∑ d : Fin 128, asF32 S8x100000x128 (V c main_v10) (ix3 ((((cfg0.win 3).blk t).view.emb j) 0) ((((cfg0.win 3).blk t).view.emb j) 1) d)
        * asF32 S8x128x128 (V c main_arg3) (ix3 ((((cfg0.win 3).blk t).view.emb j) 0) d ((((cfg0.win 3).blk t).view.emb j) 2)))
      * asF32 S8x100000x1 (V c main_v11) (ix3 ((((cfg0.win 3).blk t).view.emb j) 0) ((((cfg0.win 3).blk t).view.emb j) 1) (0 : Fin 1))
  have h2 : ((cfg0.win 2).blk t).view.emb (ix3 (0 : Fin 1) (j 1) (0 : Fin 1))
      = ix3 ((((cfg0.win 3).blk t).view.emb j) 0) ((((cfg0.win 3).blk t).view.emb j) 1) (0 : Fin 1) := by
    funext a; apply Fin.ext
    match a with
    | ⟨0, _⟩ => show win0_2.index t (0 : Fin 3) * 1 + 1 * 0 = win0_3.index t (0 : Fin 3) * 1 + 1 * (j 0).val; omega
    | ⟨1, _⟩ => show win0_2.index t (1 : Fin 3) * 5000 + 1 * (j 1).val = win0_3.index t (1 : Fin 3) * 5000 + 1 * (j 1).val; omega
    | ⟨2, _⟩ => show win0_2.index t (2 : Fin 3) * 1 + 1 * 0 = 0; omega
  rw [h2]
  refine congrArg (· * _) (Finset.sum_congr rfl fun d _ => ?_)
  have hd : d.val < 128 := d.isLt
  have h0 : ((cfg0.win 0).blk t).view.emb (ix3 (0 : Fin 1) (j 1) d)
      = ix3 ((((cfg0.win 3).blk t).view.emb j) 0) ((((cfg0.win 3).blk t).view.emb j) 1) d := by
    funext a; apply Fin.ext
    match a with
    | ⟨0, _⟩ => show win0_0.index t (0 : Fin 3) * 1 + 1 * 0 = win0_3.index t (0 : Fin 3) * 1 + 1 * (j 0).val; omega
    | ⟨1, _⟩ => show win0_0.index t (1 : Fin 3) * 5000 + 1 * (j 1).val = win0_3.index t (1 : Fin 3) * 5000 + 1 * (j 1).val; omega
    | ⟨2, _⟩ => show win0_0.index t (2 : Fin 3) * 128 + 1 * d.val = d.val; omega
  have h1 : ((cfg0.win 1).blk t).view.emb (ix3 (0 : Fin 1) d (j 2))
      = ix3 ((((cfg0.win 3).blk t).view.emb j) 0) d ((((cfg0.win 3).blk t).view.emb j) 2) := by
    funext a; apply Fin.ext
    match a with
    | ⟨0, _⟩ => show win0_1.index t (0 : Fin 3) * 1 + 1 * 0 = win0_3.index t (0 : Fin 3) * 1 + 1 * (j 0).val; omega
    | ⟨1, _⟩ => show win0_1.index t (1 : Fin 3) * 128 + 1 * d.val = d.val; omega
    | ⟨2, _⟩ => show win0_1.index t (2 : Fin 3) * 128 + 1 * (j 2).val = win0_3.index t (2 : Fin 3) * 128 + 1 * (j 2).val; omega
  rw [h0, h1]
  rfl

/-- An index of the array is in point `t`'s block iff each coordinate is in the block's range on its axis. -/
theorem mem_blk (t : Fin cfg0.N) (i : S8x100000x128.Idx) :
    i ∈ ((cfg0.win 3).blk t).view.set ↔ ∀ a : Fin 3, win0_3.index t a * S1x5000x128.size a ≤ (i a).val
      ∧ (i a).val < win0_3.index t a * S1x5000x128.size a + S1x5000x128.size a := by
  show i ∈ ((View.whole main_v12).slice (win0_3.rect t)).set ↔ _
  rw [View.set_slice_whole, Rect.mem_set_unit]
  exact Iff.rfl

/-- The blocks tile the array: row `e` of relation `r` is in the block of the point (r, e / 5000). -/
theorem cover (i : S8x100000x128.Idx) :
    ∃ t : Fin cfg0.N, (cfg0.win 3).flush t = true ∧ i ∈ ((cfg0.win 3).blk t).view.set := by
  have hi0 : (i 0).val < 8 := (i 0).isLt
  have hi1 : (i 1).val < 100000 := (i 1).isLt
  have hi2 : (i 2).val < 128 := (i 2).isLt
  obtain ⟨t, ht⟩ := idx_onto ⟨(i 0).val, hi0⟩ ⟨(i 1).val / 5000, by omega⟩
  have q0 : win0_3.index t (0 : Fin 3) = (i 0).val := congrFun ht 0
  have q1 : win0_3.index t (1 : Fin 3) = (i 1).val / 5000 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 5000 ≤ (i 1).val ∧ (i 1).val < win0_3.index t (1 : Fin 3) * 5000 + 5000; omega
  | ⟨2, _⟩ => show win0_3.index t (2 : Fin 3) * 128 ≤ (i 2).val ∧ (i 2).val < win0_3.index t (2 : Fin 3) * 128 + 128; omega

/-- The messages array after the region: the messages of the operand arrays as the region finds them. -/
theorem final (c : Dev nD) :
    (dat0 V c).arrAt 3 cfg0.N = msgOf (V c main_v10) (V c main_arg3) (V c main_v11) :=
  (dat0 V c).arrAt_eq_of_cover 3 _ (fun t _ => flushed_eq V c t) (cover)

end Cert.KernelIdeal.Reg0

end
-- ==== Proof.Reg1.lean ====
/-
  Region 1 (a self-loop kernel) as ONE function of its operand arrays. The grid is the node block; point b reads
  rows [5000 b, 5000 b + 5000) of the nodes and of the mask, all of the self weights and of the biases, and writes
  back the same rows of the result. The written-back blocks are the blocks of one whole-array function and tile the
  array.
-/
import proofs.«169420_j85890755985724_1_alg».proof.Proof.Gen.KernelIdeal.Frame
import proofs.«169420_j85890755985724_1_alg».proof.Proof.KerBody

set_option maxRecDepth 16384

noncomputable section

namespace Cert.KernelIdeal.Reg1

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the rows' and the mask's blocks move with the output's, the weights and
    the biases are one block each, and the output's block index stays in range. -/
theorem idx_facts : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) ≤ 19 ∧ win1_4.index t (1 : Fin 2) = 0 :=
  (by decide +kernel : ∀ t : Fin grid1.N, _)

/-- Every node block is some point's. -/
theorem idx_onto : ∀ (q0 : Fin 20), ∃ t : Fin cfg1.N, win1_4.index t = ![q0.val, 0] :=
  (by decide +kernel : ∀ (q0 : Fin 20), ∃ t : Fin grid1.N, win1_4.index t = ![q0.val, 0])

/-- What point `t` writes back is block `t` of the self-loop-and-bias array of the operand arrays as the region
    finds them. -/
theorem flushed_eq (c : Dev nD) (t : Fin cfg1.N) :
    (dat1 V c).flushed 4 t
      = ((cfg1.win 4).blk t).view.read (Elt Ideal) (selfOf (V c main_arg0) (V c main_arg4) (V c main_v37) (V c main_arg5)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz,
    View.ld_unit_zero (S := S5000x8) hz, View.ld_unit_zero (S := S8x128) hz]
  obtain ⟨e00, e01, e10, e11, e20, e21, e30, e31, b0, e41⟩ := idx_facts t
  funext j
  refine (pay_self_at (iblk1 V c 0 t) (iblk1 V c 1 t) (iblk1 V c 2 t) (iblk1 V c 3 t) j).trans ?_
  have hj0 : (j 0).val < 5000 := (j 0).isLt
  have hj1 : (j 1).val < 128 := (j 1).isLt
  show (∑ d : Fin 128, asF32 S100000x128 (V c main_arg0) (((cfg1.win 0).blk t).view.emb (ix2 (j 0) d))
        * asF32 S128x128 (V c main_arg4) (((cfg1.win 1).blk t).view.emb (ix2 d (j 1))))
      + (∑ r : Fin 8, asF32 S100000x8 (V c main_v37) (((cfg1.win 2).blk t).view.emb (ix2 (j 0) r))
        * asF32 S8x128 (V c main_arg5) (((cfg1.win 3).blk t).view.emb (ix2 r (j 1))))
    = (∑ d : Fin 128, asF32 S100000x128 (V c main_arg0) (ix2 ((((cfg1.win 4).blk t).view.emb j) 0) d)
        * asF32 S128x128 (V c main_arg4) (ix2 d ((((cfg1.win 4).blk t).view.emb j) 1)))
      + (∑ r : Fin 8, asF32 S100000x8 (V c main_v37) (ix2 ((((cfg1.win 4).blk t).view.emb j) 0) r)
        * asF32 S8x128 (V c main_arg5) (ix2 r ((((cfg1.win 4).blk t).view.emb j) 1)))
  refine congrArg₂ (· + ·) (Finset.sum_congr rfl fun d _ => ?_) (Finset.sum_congr rfl fun r _ => ?_)
  · have hd : d.val < 128 := d.isLt
    have h0 : ((cfg1.win 0).blk t).view.emb (ix2 (j 0) d) = ix2 ((((cfg1.win 4).blk t).view.emb j) 0) d := by
      funext a; apply Fin.ext
      match a with
      | ⟨0, _⟩ => show win1_0.index t (0 : Fin 2) * 5000 + 1 * (j 0).val = win1_4.index t (0 : Fin 2) * 5000 + 1 * (j 0).val; omega
      | ⟨1, _⟩ => show win1_0.index t (1 : Fin 2) * 128 + 1 * d.val = d.val; omega
    have h1 : ((cfg1.win 1).blk t).view.emb (ix2 d (j 1)) = ix2 d ((((cfg1.win 4).blk t).view.emb j) 1) := by
      funext a; apply Fin.ext
      match a with
      | ⟨0, _⟩ => show win1_1.index t (0 : Fin 2) * 128 + 1 * d.val = d.val; omega
      | ⟨1, _⟩ => show win1_1.index t (1 : Fin 2) * 128 + 1 * (j 1).val = win1_4.index t (1 : Fin 2) * 128 + 1 * (j 1).val; omega
    rw [h0, h1]
    rfl
  · have hr : r.val < 8 := r.isLt
    have h2 : ((cfg1.win 2).blk t).view.emb (ix2 (j 0) r) = ix2 ((((cfg1.win 4).blk t).view.emb j) 0) r := by
      funext a; apply Fin.ext
      match a with
      | ⟨0, _⟩ => show win1_2.index t (0 : Fin 2) * 5000 + 1 * (j 0).val = win1_4.index t (0 : Fin 2) * 5000 + 1 * (j 0).val; omega
      | ⟨1, _⟩ => show win1_2.index t (1 : Fin 2) * 8 + 1 * r.val = r.val; omega
    have h3 : ((cfg1.win 3).blk t).view.emb (ix2 r (j 1)) = ix2 r ((((cfg1.win 4).blk t).view.emb j) 1) := by
      funext a; apply Fin.ext
      match a with
      | ⟨0, _⟩ => show win1_3.index t (0 : Fin 2) * 8 + 1 * r.val = r.val; omega
      | ⟨1, _⟩ => show win1_3.index t (1 : Fin 2) * 128 + 1 * (j 1).val = win1_4.index t (1 : Fin 2) * 128 + 1 * (j 1).val; omega
    rw [h2, h3]
    rfl

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v38).slice (win1_4.rect t)).set ↔ _
  rw [View.set_slice_whole, Rect.mem_set_unit]
  exact Iff.rfl

/-- The blocks tile the array: node `n` is in the block of the point n / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array after the region: the self-loop-and-bias array of the operand arrays as the region finds
    them. -/
theorem final (c : Dev nD) :
    (dat1 V c).arrAt 4 cfg1.N = selfOf (V c main_arg0) (V c main_arg4) (V c main_v37) (V c main_arg5) :=
  (dat1 V c).arrAt_eq_of_cover 4 _ (fun t _ => flushed_eq V c t) (cover)

end Cert.KernelIdeal.Reg1

end
-- ==== Proof.Reg2.lean ====
/-
  Region 2 (a relation kernel) as ONE function of its operand arrays. The grid is (relation, edge block); the point
  (r, b) reads rows [5000 b, 5000 b + 5000) of relation r's gathered rows and edge weights and all of relation r's
  weights, and writes back the same rows of the messages. The written-back blocks are the blocks of one whole-array
  function, and they tile the array, so the array ends at that function.
-/
import proofs.«169420_j85890755985724_1_alg».proof.Proof.Gen.KernelIdeal.Frame
import proofs.«169420_j85890755985724_1_alg».proof.Proof.KerBody

set_option maxRecDepth 16384

noncomputable section

namespace Cert.KernelIdeal.Reg2

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0, 0] : Fin 3 → Nat) = fun _ => 0 := funext fun a => by fin_cases a <;> rfl

/-- The printed index maps over the grid: the rows' and the edge weights' blocks move with the output's, the
    weights' block follows the relation only, and the output's block indices stay in range. -/
theorem idx_facts : ∀ t : Fin cfg2.N,
    win2_0.index t (0 : Fin 3) = win2_3.index t (0 : Fin 3) ∧ win2_0.index t (1 : Fin 3) = win2_3.index t (1 : Fin 3)
    ∧ win2_0.index t (2 : Fin 3) = 0
    ∧ win2_1.index t (0 : Fin 3) = win2_3.index t (0 : Fin 3) ∧ win2_1.index t (1 : Fin 3) = 0 ∧ win2_1.index t (2 : Fin 3) = 0
    ∧ win2_2.index t (0 : Fin 3) = win2_3.index t (0 : Fin 3) ∧ win2_2.index t (1 : Fin 3) = win2_3.index t (1 : Fin 3)
    ∧ win2_2.index t (2 : Fin 3) = 0
    ∧ win2_3.index t (0 : Fin 3) ≤ 7 ∧ win2_3.index t (1 : Fin 3) ≤ 19 ∧ win2_3.index t (2 : Fin 3) = 0 :=
  (by decide +kernel : ∀ t : Fin grid2.N, _)

/-- Every (relation, edge block) is some point's. -/
theorem idx_onto : ∀ (q0 : Fin 8) (q1 : Fin 20), ∃ t : Fin cfg2.N, win2_3.index t = ![q0.val, q1.val, 0] :=
  (by decide +kernel : ∀ (q0 : Fin 8) (q1 : Fin 20), ∃ t : Fin grid2.N, win2_3.index t = ![q0.val, q1.val, 0])

set_option maxHeartbeats 4000000 in
/-- What point `t` writes back is block `t` of the messages of the operand arrays as the region finds them. -/
theorem flushed_eq (c : Dev nD) (t : Fin cfg2.N) :
    (dat2 V c).flushed 3 t
      = ((cfg2.win 3).blk t).view.read (Elt Ideal) (msgOf (V c main_v51) (V c main_arg6) (V c main_v52)) := by
  show (cfg2.win 3).cut (grid2.coords t) ((dat2 V c).after 3 t) = _
  rw [after2_3]
  unfold out2_3
  rw [View.canon_unit_zero hz]
  simp only [View.ld_unit_zero (S := S1x5000x128) hz, View.ld_unit_zero (S := S1x128x128) hz,
    View.ld_unit_zero (S := S1x5000x1) hz]
  obtain ⟨e00, e01, e02, e10, e11, e12, e20, e21, e22, b0, b1, e32⟩ := idx_facts t
  funext j
  refine (pay_mm2_at (iblk2 V c 0 t) (iblk2 V c 1 t) (iblk2 V c 2 t) j).trans ?_
  have hj0 : (j 0).val < 1 := (j 0).isLt
  have hj1 : (j 1).val < 5000 := (j 1).isLt
  have hj2 : (j 2).val < 128 := (j 2).isLt
  show (∑ d : Fin 128, asF32 S8x100000x128 (V c main_v51) (((cfg2.win 0).blk t).view.emb (ix3 (0 : Fin 1) (j 1) d))
        * asF32 S8x128x128 (V c main_arg6) (((cfg2.win 1).blk t).view.emb (ix3 (0 : Fin 1) d (j 2))))
      * asF32 S8x100000x1 (V c main_v52) (((cfg2.win 2).blk t).view.emb (ix3 (0 : Fin 1) (j 1) (0 : Fin 1)))
    = (∑ d : Fin 128, asF32 S8x100000x128 (V c main_v51) (ix3 ((((cfg2.win 3).blk t).view.emb j) 0) ((((cfg2.win 3).blk t).view.emb j) 1) d)
        * asF32 S8x128x128 (V c main_arg6) (ix3 ((((cfg2.win 3).blk t).view.emb j) 0) d ((((cfg2.win 3).blk t).view.emb j) 2)))
      * asF32 S8x100000x1 (V c main_v52) (ix3 ((((cfg2.win 3).blk t).view.emb j) 0) ((((cfg2.win 3).blk t).view.emb j) 1) (0 : Fin 1))
  have h2 : ((cfg2.win 2).blk t).view.emb (ix3 (0 : Fin 1) (j 1) (0 : Fin 1))
      = ix3 ((((cfg2.win 3).blk t).view.emb j) 0) ((((cfg2.win 3).blk t).view.emb j) 1) (0 : Fin 1) := by
    funext a; apply Fin.ext
    match a with
    | ⟨0, _⟩ => show win2_2.index t (0 : Fin 3) * 1 + 1 * 0 = win2_3.index t (0 : Fin 3) * 1 + 1 * (j 0).val; omega
    | ⟨1, _⟩ => show win2_2.index t (1 : Fin 3) * 5000 + 1 * (j 1).val = win2_3.index t (1 : Fin 3) * 5000 + 1 * (j 1).val; omega
    | ⟨2, _⟩ => show win2_2.index t (2 : Fin 3) * 1 + 1 * 0 = 0; omega
  rw [h2]
  refine congrArg (· * _) (Finset.sum_congr rfl fun d _ => ?_)
  have hd : d.val < 128 := d.isLt
  have h0 : ((cfg2.win 0).blk t).view.emb (ix3 (0 : Fin 1) (j 1) d)
      = ix3 ((((cfg2.win 3).blk t).view.emb j) 0) ((((cfg2.win 3).blk t).view.emb j) 1) d := by
    funext a; apply Fin.ext
    match a with
    | ⟨0, _⟩ => show win2_0.index t (0 : Fin 3) * 1 + 1 * 0 = win2_3.index t (0 : Fin 3) * 1 + 1 * (j 0).val; omega
    | ⟨1, _⟩ => show win2_0.index t (1 : Fin 3) * 5000 + 1 * (j 1).val = win2_3.index t (1 : Fin 3) * 5000 + 1 * (j 1).val; omega
    | ⟨2, _⟩ => show win2_0.index t (2 : Fin 3) * 128 + 1 * d.val = d.val; omega
  have h1 : ((cfg2.win 1).blk t).view.emb (ix3 (0 : Fin 1) d (j 2))
      = ix3 ((((cfg2.win 3).blk t).view.emb j) 0) d ((((cfg2.win 3).blk t).view.emb j) 2) := by
    funext a; apply Fin.ext
    match a with
    | ⟨0, _⟩ => show win2_1.index t (0 : Fin 3) * 1 + 1 * 0 = win2_3.index t (0 : Fin 3) * 1 + 1 * (j 0).val; omega
    | ⟨1, _⟩ => show win2_1.index t (1 : Fin 3) * 128 + 1 * d.val = d.val; omega
    | ⟨2, _⟩ => show win2_1.index t (2 : Fin 3) * 128 + 1 * (j 2).val = win2_3.index t (2 : Fin 3) * 128 + 1 * (j 2).val; omega
  rw [h0, h1]
  rfl

/-- An index of the array is in point `t`'s block iff each coordinate is in the block's range on its axis. -/
theorem mem_blk (t : Fin cfg2.N) (i : S8x100000x128.Idx) :
    i ∈ ((cfg2.win 3).blk t).view.set ↔ ∀ a : Fin 3, win2_3.index t a * S1x5000x128.size a ≤ (i a).val
      ∧ (i a).val < win2_3.index t a * S1x5000x128.size a + S1x5000x128.size a := by
  show i ∈ ((View.whole main_v53).slice (win2_3.rect t)).set ↔ _
  rw [View.set_slice_whole, Rect.mem_set_unit]
  exact Iff.rfl

/-- The blocks tile the array: row `e` of relation `r` is in the block of the point (r, e / 5000). -/
theorem cover (i : S8x100000x128.Idx) :
    ∃ t : Fin cfg2.N, (cfg2.win 3).flush t = true ∧ i ∈ ((cfg2.win 3).blk t).view.set := by
  have hi0 : (i 0).val < 8 := (i 0).isLt
  have hi1 : (i 1).val < 100000 := (i 1).isLt
  have hi2 : (i 2).val < 128 := (i 2).isLt
  obtain ⟨t, ht⟩ := idx_onto ⟨(i 0).val, hi0⟩ ⟨(i 1).val / 5000, by omega⟩
  have q0 : win2_3.index t (0 : Fin 3) = (i 0).val := congrFun ht 0
  have q1 : win2_3.index t (1 : Fin 3) = (i 1).val / 5000 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 5000 ≤ (i 1).val ∧ (i 1).val < win2_3.index t (1 : Fin 3) * 5000 + 5000; omega
  | ⟨2, _⟩ => show win2_3.index t (2 : Fin 3) * 128 ≤ (i 2).val ∧ (i 2).val < win2_3.index t (2 : Fin 3) * 128 + 128; omega

/-- The messages array after the region: the messages of the operand arrays as the region finds them. -/
theorem final (c : Dev nD) :
    (dat2 V c).arrAt 3 cfg2.N = msgOf (V c main_v51) (V c main_arg6) (V c main_v52) :=
  (dat2 V c).arrAt_eq_of_cover 3 _ (fun t _ => flushed_eq V c t) (cover)

end Cert.KernelIdeal.Reg2

end
-- ==== Proof.Reg3.lean ====
/-
  Region 3 (a self-loop kernel) as ONE function of its operand arrays. The grid is the node block; point b reads
  rows [5000 b, 5000 b + 5000) of the nodes and of the mask, all of the self weights and of the biases, and writes
  back the same rows of the result. The written-back blocks are the blocks of one whole-array function and tile the
  array.
-/
import proofs.«169420_j85890755985724_1_alg».proof.Proof.Gen.KernelIdeal.Frame
import proofs.«169420_j85890755985724_1_alg».proof.Proof.KerBody

set_option maxRecDepth 16384

noncomputable section

namespace Cert.KernelIdeal.Reg3

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the rows' and the mask's blocks move with the output's, the weights and
    the biases are one block each, and the output's block index stays in range. -/
theorem idx_facts : ∀ t : Fin cfg3.N,
    win3_0.index t (0 : Fin 2) = win3_4.index t (0 : Fin 2) ∧ win3_0.index t (1 : Fin 2) = 0
    ∧ win3_1.index t (0 : Fin 2) = 0 ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) ≤ 19 ∧ win3_4.index t (1 : Fin 2) = 0 :=
  (by decide +kernel : ∀ t : Fin grid3.N, _)

/-- Every node block is some point's. -/
theorem idx_onto : ∀ (q0 : Fin 20), ∃ t : Fin cfg3.N, win3_4.index t = ![q0.val, 0] :=
  (by decide +kernel : ∀ (q0 : Fin 20), ∃ t : Fin grid3.N, win3_4.index t = ![q0.val, 0])

set_option maxHeartbeats 4000000 in
/-- What point `t` writes back is block `t` of the self-loop-and-bias array of the operand arrays as the region
    finds them. -/
theorem flushed_eq (c : Dev nD) (t : Fin cfg3.N) :
    (dat3 V c).flushed 4 t
      = ((cfg3.win 4).blk t).view.read (Elt Ideal) (selfOf (V c main_v40) (V c main_arg7) (V c main_v78) (V c main_arg8)) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz,
    View.ld_unit_zero (S := S5000x8) hz, View.ld_unit_zero (S := S8x128) hz]
  obtain ⟨e00, e01, e10, e11, e20, e21, e30, e31, b0, e41⟩ := idx_facts t
  funext j
  refine (pay_self'_at (iblk3 V c 0 t) (iblk3 V c 1 t) (iblk3 V c 2 t) (iblk3 V c 3 t) j).trans ?_
  have hj0 : (j 0).val < 5000 := (j 0).isLt
  have hj1 : (j 1).val < 128 := (j 1).isLt
  show (∑ d : Fin 128, asF32 S100000x128 (V c main_v40) (((cfg3.win 0).blk t).view.emb (ix2 (j 0) d))
        * asF32 S128x128 (V c main_arg7) (((cfg3.win 1).blk t).view.emb (ix2 d (j 1))))
      + (∑ r : Fin 8, asF32 S100000x8 (V c main_v78) (((cfg3.win 2).blk t).view.emb (ix2 (j 0) r))
        * asF32 S8x128 (V c main_arg8) (((cfg3.win 3).blk t).view.emb (ix2 r (j 1))))
    = (∑ d : Fin 128, asF32 S100000x128 (V c main_v40) (ix2 ((((cfg3.win 4).blk t).view.emb j) 0) d)
        * asF32 S128x128 (V c main_arg7) (ix2 d ((((cfg3.win 4).blk t).view.emb j) 1)))
      + (∑ r : Fin 8, asF32 S100000x8 (V c main_v78) (ix2 ((((cfg3.win 4).blk t).view.emb j) 0) r)
        * asF32 S8x128 (V c main_arg8) (ix2 r ((((cfg3.win 4).blk t).view.emb j) 1)))
  refine congrArg₂ (· + ·) (Finset.sum_congr rfl fun d _ => ?_) (Finset.sum_congr rfl fun r _ => ?_)
  · have hd : d.val < 128 := d.isLt
    have h0 : ((cfg3.win 0).blk t).view.emb (ix2 (j 0) d) = ix2 ((((cfg3.win 4).blk t).view.emb j) 0) d := by
      funext a; apply Fin.ext
      match a with
      | ⟨0, _⟩ => show win3_0.index t (0 : Fin 2) * 5000 + 1 * (j 0).val = win3_4.index t (0 : Fin 2) * 5000 + 1 * (j 0).val; omega
      | ⟨1, _⟩ => show win3_0.index t (1 : Fin 2) * 128 + 1 * d.val = d.val; omega
    have h1 : ((cfg3.win 1).blk t).view.emb (ix2 d (j 1)) = ix2 d ((((cfg3.win 4).blk t).view.emb j) 1) := by
      funext a; apply Fin.ext
      match a with
      | ⟨0, _⟩ => show win3_1.index t (0 : Fin 2) * 128 + 1 * d.val = d.val; omega
      | ⟨1, _⟩ => show win3_1.index t (1 : Fin 2) * 128 + 1 * (j 1).val = win3_4.index t (1 : Fin 2) * 128 + 1 * (j 1).val; omega
    rw [h0, h1]
    rfl
  · have hr : r.val < 8 := r.isLt
    have h2 : ((cfg3.win 2).blk t).view.emb (ix2 (j 0) r) = ix2 ((((cfg3.win 4).blk t).view.emb j) 0) r := by
      funext a; apply Fin.ext
      match a with
      | ⟨0, _⟩ => show win3_2.index t (0 : Fin 2) * 5000 + 1 * (j 0).val = win3_4.index t (0 : Fin 2) * 5000 + 1 * (j 0).val; omega
      | ⟨1, _⟩ => show win3_2.index t (1 : Fin 2) * 8 + 1 * r.val = r.val; omega
    have h3 : ((cfg3.win 3).blk t).view.emb (ix2 r (j 1)) = ix2 r ((((cfg3.win 4).blk t).view.emb j) 1) := by
      funext a; apply Fin.ext
      match a with
      | ⟨0, _⟩ => show win3_3.index t (0 : Fin 2) * 8 + 1 * r.val = r.val; omega
      | ⟨1, _⟩ => show win3_3.index t (1 : Fin 2) * 128 + 1 * (j 1).val = win3_4.index t (1 : Fin 2) * 128 + 1 * (j 1).val; omega
    rw [h2, h3]
    rfl

/-- An index of the array is in point `t`'s block iff each coordinate is in the block's range on its axis. -/
theorem mem_blk (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v79).slice (win3_4.rect t)).set ↔ _
  rw [View.set_slice_whole, Rect.mem_set_unit]
  exact Iff.rfl

/-- The blocks tile the array: node `n` is in the block of the point n / 5000. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The result array after the region: the self-loop-and-bias array of the operand arrays as the region finds
    them. -/
theorem final (c : Dev nD) :
    (dat3 V c).arrAt 4 cfg3.N = selfOf (V c main_v40) (V c main_arg7) (V c main_v78) (V c main_arg8) :=
  (dat3 V c).arrAt_eq_of_cover 4 _ (fun t _ => flushed_eq V c t) (cover)

end Cert.KernelIdeal.Reg3

end
-- ==== Proof.KerGlue.lean ====
/-
  The kernel program's host operations around one layer's two kernels, as pure functions, and the layer itself.

  A layer reads the node features `x`, the edge list `ei` (`[relation, source | target, edge]`), the edge weights and
  the layer's three parameter arrays. Source and target words are wrapped NumPy-style (a negative word has the
  extent added). Messages are the relation kernel's result on the gathered source rows; they are summed into their
  target nodes; the self-loop kernel adds `x · selfW` and the mask rows times the biases, the mask holding a one at
  `(node, relation)` wherever some edge of that relation targets the node.
-/
import proofs.«169420_j85890755985724_1_alg».proof.Proof.KerBody

noncomputable section

namespace Cert.KernelIdeal.Glue

open Cert.KernelIdeal Cert.KernelIdeal.Gen Cert.KernelIdeal.Body
open Idealize.ShloMosaic

abbrev I32 (s : Shape) := IVec s 32
abbrev F32 (s : Shape) := FVec Ideal s .f32

/-- The source words, `[8, 100000]`. -/
def srcOf (ei : I32 S8x2x100000) : I32 S8x100000 :=
  shapeCast _ (extractStridedSlice S8x1x100000 ![0, 0, 0] ei slices_S8x2x100000_S8x1x100000_0_0_0) shapeCasts_S8x1x100000_S8x100000

/-- The target words, `[8, 100000]`. -/
def tgtOf (ei : I32 S8x2x100000) : I32 S8x100000 :=
  shapeCast _ (extractStridedSlice S8x1x100000 ![0, 1, 0] ei slices_S8x2x100000_S8x1x100000_0_1_0) shapeCasts_S8x1x100000_S8x100000

/-- A negative word has 100000 added. -/
def wrapN (v : I32 S8x100000) : I32 S8x100000 :=
  select (cmpi .slt v (broadcastInDim S8x100000 ![] bcast_S_S8x100000 (constantI S_ 32 0#32)))
    (addi v (broadcastInDim S8x100000 ![] bcast_S_S8x100000 (constantI S_ 32 100000#32))) v

/-- The rows of `x` at the wrapped source words, `[8, 100000, 128]`. -/
def gatherOf (x : F32 S100000x128) (ei : I32 S8x2x100000) : F32 S8x100000x128 :=
  Host.gather gather_S100000x128_S8x100000x1_S8x100000x128_2_0_n_n_0_2_1128 x
    (broadcastInDim S8x100000x1 ![0, 1] bcast_S8x100000_S8x100000x1_0_1 (wrapN (srcOf ei)))

/-- The edge weights as a `[8, 100000, 1]` column. -/
def ewCol (ew : F32 S8x100000) : F32 S8x100000x1 :=
  broadcastInDim S8x100000x1 ![0, 1] bcast_S8x100000_S8x100000x1_0_1 ew

/-- The target words in edge order, `[800000]`. -/
def tgtFlat (ei : I32 S8x2x100000) : I32 S800000 := shapeCast _ (tgtOf ei) shapeCasts_S8x100000_S800000

/-- Messages summed into their target nodes. -/
def aggOf (ei : I32 S8x2x100000) (msg : F32 S8x100000x128) : F32 S100000x128 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 (tgtFlat ei))
    (shapeCast _ msg shapeCasts_S8x100000x128_S800000x128)

/-- The relation of each edge in edge order, `[800000]`. -/
def relFlat : I32 S800000 :=
  shapeCast _ (broadcastInDim S8x100000 ![0] bcast_S8_S8x100000_0 (iotaInDim S8 32 0)) shapeCasts_S8x100000_S800000

/-- The scatter indices of the mask: row `k` is (wrapped target of edge `k`, wrapped relation of edge `k`). -/
def maskIdx (ei : I32 S8x2x100000) : I32 S800000x2 :=
  concatenate S800000x2 1
    [⟨S800000x1, broadcastInDim S800000x1 ![0] bcast_S800000_S800000x1_0
        (select (cmpi .slt (tgtFlat ei) (broadcastInDim S800000 ![] bcast_S_S800000 (constantI S_ 32 0#32)))
          (addi (tgtFlat ei) (broadcastInDim S800000 ![] bcast_S_S800000 (constantI S_ 32 100000#32))) (tgtFlat ei))⟩,
     ⟨S800000x1, broadcastInDim S800000x1 ![0] bcast_S800000_S800000x1_0
        (select (cmpi .slt relFlat (broadcastInDim S800000 ![] bcast_S_S800000 (constantI S_ 32 0#32)))
          (addi relFlat (broadcastInDim S800000 ![] bcast_S_S800000 (constantI S_ 32 8#32))) relFlat)⟩]
    concatenates_S800000x1_S800000x1_S800000x2_d1

/-- The mask `[100000, 8]`: ones written into zeros at the scatter indices. -/
def maskOf (ei : I32 S8x2x100000) : F32 S100000x8 :=
  Host.scatter scatter_S100000x8_S800000x2_S800000_n_01_01_1 (fun _ b => b)
    (broadcastInDim S100000x8 ![] bcast_S_S100000x8 (constant (F := Ideal) S_ .f32 0x00000000#32))
    (maskIdx ei)
    (broadcastInDim S800000 ![] bcast_S_S800000 (constant (F := Ideal) S_ .f32 0x3F800000#32))

/-- The positive part. -/
def relu (x : F32 S100000x128) : F32 S100000x128 :=
  maximumf x (broadcastInDim S100000x128 ![] bcast_S_S100000x128 (constant (F := Ideal) S_ .f32 0x00000000#32))

/-- One layer as the kernel program computes it. -/
def layer (x : F32 S100000x128) (ei : I32 S8x2x100000) (ew : F32 S8x100000) (relW : F32 S8x128x128)
    (selfW : F32 S128x128) (bias : F32 S8x128) : F32 S100000x128 :=
  addf (aggOf ei (msgOf (gatherOf x ei) relW (ewCol ew))) (selfOf x selfW (maskOf ei) bias)

end Cert.KernelIdeal.Glue

end
-- ==== Proof.KerStages.lean ====
/-
  Each stretch of host operations of the kernel program, read once for ARBITRARY contents `V` before it: every
  buffer the stretch writes, as the operations' function of `V` at the buffers they read, and the buffers it leaves
  alone. The two mask stretches are read through their concatenate column by column.
-/
import proofs.«169420_j85890755985724_1_alg».proof.Proof.Gen.KernelIdeal.Launch
import proofs.«169420_j85890755985724_1_alg».proof.Proof.KerGlue
import Idealize.ShloMosaic.Lib.StableHlo.Run

set_option maxRecDepth 16384

noncomputable section

namespace Cert.KernelIdeal.Stages

open Cert.KernelIdeal Cert.KernelIdeal.Gen Cert.KernelIdeal.Body Cert.KernelIdeal.Glue
open Idealize.ShloMosaic Idealize.ShloMosaic.TcCoe Idealize.ShloMosaic.Tactic Idealize.ShloMosaic.StableHlo
open Idealize.SL Idealize.SL.Sem

variable (V : Valuation τ sig (Elt Ideal))

/-! ## Before the first relation kernel -/

theorem s0_v10 : StableHlo.after hostOps0 V (Proc.devRef .tc main_v10) = gatherOf (V (Proc.devRef .tc main_arg0)) (V (Proc.devRef .tc main_arg1)) := by
  after_results
  rfl
theorem s0_v11 : StableHlo.after hostOps0 V (Proc.devRef .tc main_v11) = ewCol (V (Proc.devRef .tc main_arg2)) := by
  after_results
  rfl
theorem s0_v3 : StableHlo.after hostOps0 V (Proc.devRef .tc main_v3) = tgtOf (V (Proc.devRef .tc main_arg1)) := by
  after_results
  rfl
theorem s0_keep_arg0 : StableHlo.after hostOps0 V (Proc.devRef .tc main_arg0) = V (Proc.devRef .tc main_arg0) := by
  after_results
theorem s0_keep_arg1 : StableHlo.after hostOps0 V (Proc.devRef .tc main_arg1) = V (Proc.devRef .tc main_arg1) := by
  after_results
theorem s0_keep_arg2 : StableHlo.after hostOps0 V (Proc.devRef .tc main_arg2) = V (Proc.devRef .tc main_arg2) := by
  after_results
theorem s0_keep_arg3 : StableHlo.after hostOps0 V (Proc.devRef .tc main_arg3) = V (Proc.devRef .tc main_arg3) := by
  after_results
theorem s0_keep_arg4 : StableHlo.after hostOps0 V (Proc.devRef .tc main_arg4) = V (Proc.devRef .tc main_arg4) := by
  after_results
theorem s0_keep_arg5 : StableHlo.after hostOps0 V (Proc.devRef .tc main_arg5) = V (Proc.devRef .tc main_arg5) := by
  after_results
theorem s0_keep_arg6 : StableHlo.after hostOps0 V (Proc.devRef .tc main_arg6) = V (Proc.devRef .tc main_arg6) := by
  after_results
theorem s0_keep_arg7 : StableHlo.after hostOps0 V (Proc.devRef .tc main_arg7) = V (Proc.devRef .tc main_arg7) := by
  after_results
theorem s0_keep_arg8 : StableHlo.after hostOps0 V (Proc.devRef .tc main_arg8) = V (Proc.devRef .tc main_arg8) := by
  after_results

/-! ## Between the first relation kernel and the first self-loop kernel -/

theorem s1_v17 (ei : I32 S8x2x100000) (msg : F32 S8x100000x128) (ht : V (Proc.devRef .tc main_v3) = tgtOf ei) (hm : V (Proc.devRef .tc main_v12) = msg) :
    StableHlo.after hostOps1 V (Proc.devRef .tc main_v17) = aggOf ei msg := by
  after_results_simp
  simp only [ht, hm]
  rfl
theorem s1_v37 (ei : I32 S8x2x100000) (ht : V (Proc.devRef .tc main_v3) = tgtOf ei) :
    StableHlo.after hostOps1 V (Proc.devRef .tc main_v37) = maskOf ei := by
  after_results_simp
  unfold maskOf maskIdx
  refine congrArg (fun I => Host.scatter scatter_S100000x8_S800000x2_S800000_n_01_01_1 (fun _ b => b)
    (broadcastInDim S100000x8 ![] bcast_S_S100000x8 (constant (F := Ideal) S_ .f32 0x00000000#32)) I
    (broadcastInDim S800000 ![] bcast_S_S800000 (constant (F := Ideal) S_ .f32 0x3F800000#32))) ?_
  refine congrArg₂ (fun a b => concatenate S800000x2 1 [⟨S800000x1, a⟩, ⟨S800000x1, b⟩] concatenates_S800000x1_S800000x1_S800000x2_d1) ?_ ?_
  · after_results_simp
    simp only [ht]
    rfl
  · after_results_simp
    rfl

theorem s1_keep_arg0 : StableHlo.after hostOps1 V (Proc.devRef .tc main_arg0) = V (Proc.devRef .tc main_arg0) := by
  after_results_simp
theorem s1_keep_arg1 : StableHlo.after hostOps1 V (Proc.devRef .tc main_arg1) = V (Proc.devRef .tc main_arg1) := by
  after_results_simp
theorem s1_keep_arg2 : StableHlo.after hostOps1 V (Proc.devRef .tc main_arg2) = V (Proc.devRef .tc main_arg2) := by
  after_results_simp
theorem s1_keep_arg4 : StableHlo.after hostOps1 V (Proc.devRef .tc main_arg4) = V (Proc.devRef .tc main_arg4) := by
  after_results_simp
theorem s1_keep_arg5 : StableHlo.after hostOps1 V (Proc.devRef .tc main_arg5) = V (Proc.devRef .tc main_arg5) := by
  after_results_simp
theorem s1_keep_arg6 : StableHlo.after hostOps1 V (Proc.devRef .tc main_arg6) = V (Proc.devRef .tc main_arg6) := by
  after_results_simp
theorem s1_keep_arg7 : StableHlo.after hostOps1 V (Proc.devRef .tc main_arg7) = V (Proc.devRef .tc main_arg7) := by
  after_results_simp
theorem s1_keep_arg8 : StableHlo.after hostOps1 V (Proc.devRef .tc main_arg8) = V (Proc.devRef .tc main_arg8) := by
  after_results_simp

/-! ## Between the first self-loop kernel and the second relation kernel -/

theorem s2_v39 : StableHlo.after hostOps2 V (Proc.devRef .tc main_v39) = (show F32 S100000x128 from addf (V (Proc.devRef .tc main_v17)) (V (Proc.devRef .tc main_v38))) := by
  after_results
theorem s2_keep_arg1 : StableHlo.after hostOps2 V (Proc.devRef .tc main_arg1) = V (Proc.devRef .tc main_arg1) := by
  after_results
theorem s2_keep_arg2 : StableHlo.after hostOps2 V (Proc.devRef .tc main_arg2) = V (Proc.devRef .tc main_arg2) := by
  after_results
theorem s2_keep_arg6 : StableHlo.after hostOps2 V (Proc.devRef .tc main_arg6) = V (Proc.devRef .tc main_arg6) := by
  after_results
theorem s2_keep_arg7 : StableHlo.after hostOps2 V (Proc.devRef .tc main_arg7) = V (Proc.devRef .tc main_arg7) := by
  after_results
theorem s2_keep_arg8 : StableHlo.after hostOps2 V (Proc.devRef .tc main_arg8) = V (Proc.devRef .tc main_arg8) := by
  after_results

theorem s21_v40 : StableHlo.after hostOps2_1 V (Proc.devRef .tc main_v40) = relu (V (Proc.devRef .tc main_v39)) := by
  after_results
  rfl
theorem s21_keep_arg1 : StableHlo.after hostOps2_1 V (Proc.devRef .tc main_arg1) = V (Proc.devRef .tc main_arg1) := by
  after_results
theorem s21_keep_arg2 : StableHlo.after hostOps2_1 V (Proc.devRef .tc main_arg2) = V (Proc.devRef .tc main_arg2) := by
  after_results
theorem s21_keep_arg6 : StableHlo.after hostOps2_1 V (Proc.devRef .tc main_arg6) = V (Proc.devRef .tc main_arg6) := by
  after_results
theorem s21_keep_arg7 : StableHlo.after hostOps2_1 V (Proc.devRef .tc main_arg7) = V (Proc.devRef .tc main_arg7) := by
  after_results
theorem s21_keep_arg8 : StableHlo.after hostOps2_1 V (Proc.devRef .tc main_arg8) = V (Proc.devRef .tc main_arg8) := by
  after_results

theorem s22_v51 (x : F32 S100000x128) (ei : I32 S8x2x100000) (hx : V (Proc.devRef .tc main_v40) = x) (he : V (Proc.devRef .tc main_arg1) = ei) :
    StableHlo.after hostOps2_2 V (Proc.devRef .tc main_v51) = gatherOf x ei := by
  after_results
  simp only [hx, he]
  rfl
theorem s22_v52 : StableHlo.after hostOps2_2 V (Proc.devRef .tc main_v52) = ewCol (V (Proc.devRef .tc main_arg2)) := by
  after_results
  rfl
theorem s22_v44 : StableHlo.after hostOps2_2 V (Proc.devRef .tc main_v44) = tgtOf (V (Proc.devRef .tc main_arg1)) := by
  after_results
  rfl
theorem s22_keep_v40 : StableHlo.after hostOps2_2 V (Proc.devRef .tc main_v40) = V (Proc.devRef .tc main_v40) := by
  after_results
theorem s22_keep_arg6 : StableHlo.after hostOps2_2 V (Proc.devRef .tc main_arg6) = V (Proc.devRef .tc main_arg6) := by
  after_results
theorem s22_keep_arg7 : StableHlo.after hostOps2_2 V (Proc.devRef .tc main_arg7) = V (Proc.devRef .tc main_arg7) := by
  after_results
theorem s22_keep_arg8 : StableHlo.after hostOps2_2 V (Proc.devRef .tc main_arg8) = V (Proc.devRef .tc main_arg8) := by
  after_results

/-! ## Between the second relation kernel and the second self-loop kernel -/

theorem s3_v58 (ei : I32 S8x2x100000) (msg : F32 S8x100000x128) (ht : V (Proc.devRef .tc main_v44) = tgtOf ei) (hm : V (Proc.devRef .tc main_v53) = msg) :
    StableHlo.after hostOps3 V (Proc.devRef .tc main_v58) = aggOf ei msg := by
  after_results_simp
  simp only [ht, hm]
  rfl
theorem s3_v78 (ei : I32 S8x2x100000) (ht : V (Proc.devRef .tc main_v44) = tgtOf ei) :
    StableHlo.after hostOps3 V (Proc.devRef .tc main_v78) = maskOf ei := by
  after_results_simp
  unfold maskOf maskIdx
  refine congrArg (fun I => Host.scatter scatter_S100000x8_S800000x2_S800000_n_01_01_1 (fun _ b => b)
    (broadcastInDim S100000x8 ![] bcast_S_S100000x8 (constant (F := Ideal) S_ .f32 0x00000000#32)) I
    (broadcastInDim S800000 ![] bcast_S_S800000 (constant (F := Ideal) S_ .f32 0x3F800000#32))) ?_
  refine congrArg₂ (fun a b => concatenate S800000x2 1 [⟨S800000x1, a⟩, ⟨S800000x1, b⟩] concatenates_S800000x1_S800000x1_S800000x2_d1) ?_ ?_
  · after_results_simp
    simp only [ht]
    rfl
  · after_results_simp
    rfl

theorem s3_keep_v40 : StableHlo.after hostOps3 V (Proc.devRef .tc main_v40) = V (Proc.devRef .tc main_v40) := by
  after_results_simp
theorem s3_keep_arg7 : StableHlo.after hostOps3 V (Proc.devRef .tc main_arg7) = V (Proc.devRef .tc main_arg7) := by
  after_results_simp
theorem s3_keep_arg8 : StableHlo.after hostOps3 V (Proc.devRef .tc main_arg8) = V (Proc.devRef .tc main_arg8) := by
  after_results_simp

/-! ## After the second self-loop kernel -/

theorem s4_v80 : StableHlo.after hostOps4 V (Proc.devRef .tc main_v80) = (show F32 S100000x128 from addf (V (Proc.devRef .tc main_v58)) (V (Proc.devRef .tc main_v79))) := by
  after_results

end Cert.KernelIdeal.Stages

end
-- ==== Proof.KerChain.lean ====
/-
  The contents of the kernel program's buffers at each boundary of @main, in closed form: walking the fold back
  from the last boundary to the launch memory. A stretch of host operations gives each buffer it writes as the
  operations' function of what came before and leaves the others alone; a region replaces its output array by
  its one whole-array function of the operand arrays as it finds them and leaves every other buffer alone. The
  result buffer ends at the layer applied twice with the positive part between.
-/
import proofs.«169420_j85890755985724_1_alg».proof.Proof.Gen.KernelIdeal.Frame
import proofs.«169420_j85890755985724_1_alg».proof.Proof.Reg0
import proofs.«169420_j85890755985724_1_alg».proof.Proof.Reg1
import proofs.«169420_j85890755985724_1_alg».proof.Proof.Reg2
import proofs.«169420_j85890755985724_1_alg».proof.Proof.Reg3
import proofs.«169420_j85890755985724_1_alg».proof.Proof.KerGlue
import proofs.«169420_j85890755985724_1_alg».proof.Proof.KerStages

set_option maxRecDepth 16384

noncomputable section

namespace Cert.KernelIdeal.Chain

open Cert.KernelIdeal Cert.KernelIdeal.Gen Cert.KernelIdeal.Body Cert.KernelIdeal.Glue Cert.KernelIdeal.Stages
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## Before the first relation kernel -/

theorem w1_v10 : W1 m ρ c (Proc.devRef .tc main_v10) = gatherOf (m ((c : Thread nD τ).loc main_arg0)) (m ((c : Thread nD τ).loc main_arg1)) := s0_v10 (W0 m ρ c)
theorem w1_v11 : W1 m ρ c (Proc.devRef .tc main_v11) = ewCol (m ((c : Thread nD τ).loc main_arg2)) := s0_v11 (W0 m ρ c)
theorem w1_v3 : W1 m ρ c (Proc.devRef .tc main_v3) = tgtOf (m ((c : Thread nD τ).loc main_arg1)) := s0_v3 (W0 m ρ c)
theorem w1_arg0 : W1 m ρ c (Proc.devRef .tc main_arg0) = (m ((c : Thread nD τ).loc main_arg0)) := s0_keep_arg0 (W0 m ρ c)
theorem w1_arg1 : W1 m ρ c (Proc.devRef .tc main_arg1) = (m ((c : Thread nD τ).loc main_arg1)) := s0_keep_arg1 (W0 m ρ c)
theorem w1_arg2 : W1 m ρ c (Proc.devRef .tc main_arg2) = (m ((c : Thread nD τ).loc main_arg2)) := s0_keep_arg2 (W0 m ρ c)
theorem w1_arg3 : W1 m ρ c (Proc.devRef .tc main_arg3) = (m ((c : Thread nD τ).loc main_arg3)) := s0_keep_arg3 (W0 m ρ c)
theorem w1_arg4 : W1 m ρ c (Proc.devRef .tc main_arg4) = (m ((c : Thread nD τ).loc main_arg4)) := s0_keep_arg4 (W0 m ρ c)
theorem w1_arg5 : W1 m ρ c (Proc.devRef .tc main_arg5) = (m ((c : Thread nD τ).loc main_arg5)) := s0_keep_arg5 (W0 m ρ c)
theorem w1_arg6 : W1 m ρ c (Proc.devRef .tc main_arg6) = (m ((c : Thread nD τ).loc main_arg6)) := s0_keep_arg6 (W0 m ρ c)
theorem w1_arg7 : W1 m ρ c (Proc.devRef .tc main_arg7) = (m ((c : Thread nD τ).loc main_arg7)) := s0_keep_arg7 (W0 m ρ c)
theorem w1_arg8 : W1 m ρ c (Proc.devRef .tc main_arg8) = (m ((c : Thread nD τ).loc main_arg8)) := s0_keep_arg8 (W0 m ρ c)

/-! ## After the first relation kernel -/

theorem w2_v12 : W2 m ρ c (Proc.devRef .tc main_v12) = (msgOf (gatherOf (m ((c : Thread nD τ).loc main_arg0)) (m ((c : Thread nD τ).loc main_arg1))) (m ((c : Thread nD τ).loc main_arg3)) (ewCol (m ((c : Thread nD τ).loc main_arg2)))) :=
  (W2_arr m ρ c 3).trans ((Reg0.final (V1 m ρ) c).trans
    (congr (congr (congrArg msgOf (w1_v10 m ρ c)) (w1_arg3 m ρ c)) (w1_v11 m ρ c)))
theorem w2_v3 : W2 m ρ c (Proc.devRef .tc main_v3) = tgtOf (m ((c : Thread nD τ).loc main_arg1)) := (W2_of_ne m ρ c main_v3 (by decide)).trans (w1_v3 m ρ c)
theorem w2_arg0 : W2 m ρ c (Proc.devRef .tc main_arg0) = (m ((c : Thread nD τ).loc main_arg0)) := (W2_of_ne m ρ c main_arg0 (by decide)).trans (w1_arg0 m ρ c)
theorem w2_arg1 : W2 m ρ c (Proc.devRef .tc main_arg1) = (m ((c : Thread nD τ).loc main_arg1)) := (W2_of_ne m ρ c main_arg1 (by decide)).trans (w1_arg1 m ρ c)
theorem w2_arg2 : W2 m ρ c (Proc.devRef .tc main_arg2) = (m ((c : Thread nD τ).loc main_arg2)) := (W2_of_ne m ρ c main_arg2 (by decide)).trans (w1_arg2 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)

/-! ## Before the first self-loop kernel -/

theorem w3_v17 : W3 m ρ c (Proc.devRef .tc main_v17) = aggOf (m ((c : Thread nD τ).loc main_arg1)) (msgOf (gatherOf (m ((c : Thread nD τ).loc main_arg0)) (m ((c : Thread nD τ).loc main_arg1))) (m ((c : Thread nD τ).loc main_arg3)) (ewCol (m ((c : Thread nD τ).loc main_arg2)))) :=
  s1_v17 (W2 m ρ c) _ _ (w2_v3 m ρ c) (w2_v12 m ρ c)
theorem w3_v37 : W3 m ρ c (Proc.devRef .tc main_v37) = maskOf (m ((c : Thread nD τ).loc main_arg1)) := s1_v37 (W2 m ρ c) _ (w2_v3 m ρ c)
theorem w3_arg0 : W3 m ρ c (Proc.devRef .tc main_arg0) = (m ((c : Thread nD τ).loc main_arg0)) := (s1_keep_arg0 (W2 m ρ c)).trans (w2_arg0 m ρ c)
theorem w3_arg1 : W3 m ρ c (Proc.devRef .tc main_arg1) = (m ((c : Thread nD τ).loc main_arg1)) := (s1_keep_arg1 (W2 m ρ c)).trans (w2_arg1 m ρ c)
theorem w3_arg2 : W3 m ρ c (Proc.devRef .tc main_arg2) = (m ((c : Thread nD τ).loc main_arg2)) := (s1_keep_arg2 (W2 m ρ c)).trans (w2_arg2 m ρ c)
theorem w3_arg4 : W3 m ρ c (Proc.devRef .tc main_arg4) = (m ((c : Thread nD τ).loc main_arg4)) := (s1_keep_arg4 (W2 m ρ c)).trans (w2_arg4 m ρ c)
theorem w3_arg5 : W3 m ρ c (Proc.devRef .tc main_arg5) = (m ((c : Thread nD τ).loc main_arg5)) := (s1_keep_arg5 (W2 m ρ c)).trans (w2_arg5 m ρ c)
theorem w3_arg6 : W3 m ρ c (Proc.devRef .tc main_arg6) = (m ((c : Thread nD τ).loc main_arg6)) := (s1_keep_arg6 (W2 m ρ c)).trans (w2_arg6 m ρ c)
theorem w3_arg7 : W3 m ρ c (Proc.devRef .tc main_arg7) = (m ((c : Thread nD τ).loc main_arg7)) := (s1_keep_arg7 (W2 m ρ c)).trans (w2_arg7 m ρ c)
theorem w3_arg8 : W3 m ρ c (Proc.devRef .tc main_arg8) = (m ((c : Thread nD τ).loc main_arg8)) := (s1_keep_arg8 (W2 m ρ c)).trans (w2_arg8 m ρ c)

/-! ## After the first self-loop kernel -/

theorem w4_v38 : W4 m ρ c (Proc.devRef .tc main_v38) = selfOf (m ((c : Thread nD τ).loc main_arg0)) (m ((c : Thread nD τ).loc main_arg4)) (maskOf (m ((c : Thread nD τ).loc main_arg1))) (m ((c : Thread nD τ).loc main_arg5)) :=
  (W4_arr m ρ c 4).trans ((Reg1.final (V3 m ρ) c).trans
    (congr (congr (congr (congrArg selfOf (w3_arg0 m ρ c)) (w3_arg4 m ρ c)) (w3_v37 m ρ c)) (w3_arg5 m ρ c)))
theorem w4_v17 : W4 m ρ c (Proc.devRef .tc main_v17) = aggOf (m ((c : Thread nD τ).loc main_arg1)) (msgOf (gatherOf (m ((c : Thread nD τ).loc main_arg0)) (m ((c : Thread nD τ).loc main_arg1))) (m ((c : Thread nD τ).loc main_arg3)) (ewCol (m ((c : Thread nD τ).loc main_arg2)))) :=
  (W4_of_ne m ρ c main_v17 (by decide)).trans (w3_v17 m ρ c)
theorem w4_arg1 : W4 m ρ c (Proc.devRef .tc main_arg1) = (m ((c : Thread nD τ).loc main_arg1)) := (W4_of_ne m ρ c main_arg1 (by decide)).trans (w3_arg1 m ρ c)
theorem w4_arg2 : W4 m ρ c (Proc.devRef .tc main_arg2) = (m ((c : Thread nD τ).loc main_arg2)) := (W4_of_ne m ρ c main_arg2 (by decide)).trans (w3_arg2 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)

/-! ## The first layer's result, its positive part, and the second layer's operands -/

theorem w5_v39 : W5 m ρ c (Proc.devRef .tc main_v39) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (s2_v39 (W4 m ρ c)).trans (congr (congrArg addf (w4_v17 m ρ c)) (w4_v38 m ρ c))
theorem w5_arg1 : W5 m ρ c (Proc.devRef .tc main_arg1) = (m ((c : Thread nD τ).loc main_arg1)) := (s2_keep_arg1 (W4 m ρ c)).trans (w4_arg1 m ρ c)
theorem w5_arg2 : W5 m ρ c (Proc.devRef .tc main_arg2) = (m ((c : Thread nD τ).loc main_arg2)) := (s2_keep_arg2 (W4 m ρ c)).trans (w4_arg2 m ρ c)
theorem w5_arg6 : W5 m ρ c (Proc.devRef .tc main_arg6) = (m ((c : Thread nD τ).loc main_arg6)) := (s2_keep_arg6 (W4 m ρ c)).trans (w4_arg6 m ρ c)
theorem w5_arg7 : W5 m ρ c (Proc.devRef .tc main_arg7) = (m ((c : Thread nD τ).loc main_arg7)) := (s2_keep_arg7 (W4 m ρ c)).trans (w4_arg7 m ρ c)
theorem w5_arg8 : W5 m ρ c (Proc.devRef .tc main_arg8) = (m ((c : Thread nD τ).loc main_arg8)) := (s2_keep_arg8 (W4 m ρ c)).trans (w4_arg8 m ρ c)
theorem w6_v40 : W6 m ρ c (Proc.devRef .tc main_v40) = (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) := (s21_v40 (W5 m ρ c)).trans (congrArg relu (w5_v39 m ρ c))
theorem w6_arg1 : W6 m ρ c (Proc.devRef .tc main_arg1) = (m ((c : Thread nD τ).loc main_arg1)) := (s21_keep_arg1 (W5 m ρ c)).trans (w5_arg1 m ρ c)
theorem w6_arg2 : W6 m ρ c (Proc.devRef .tc main_arg2) = (m ((c : Thread nD τ).loc main_arg2)) := (s21_keep_arg2 (W5 m ρ c)).trans (w5_arg2 m ρ c)
theorem w6_arg6 : W6 m ρ c (Proc.devRef .tc main_arg6) = (m ((c : Thread nD τ).loc main_arg6)) := (s21_keep_arg6 (W5 m ρ c)).trans (w5_arg6 m ρ c)
theorem w6_arg7 : W6 m ρ c (Proc.devRef .tc main_arg7) = (m ((c : Thread nD τ).loc main_arg7)) := (s21_keep_arg7 (W5 m ρ c)).trans (w5_arg7 m ρ c)
theorem w6_arg8 : W6 m ρ c (Proc.devRef .tc main_arg8) = (m ((c : Thread nD τ).loc main_arg8)) := (s21_keep_arg8 (W5 m ρ c)).trans (w5_arg8 m ρ c)
theorem w7_v51 : W7 m ρ c (Proc.devRef .tc main_v51) = gatherOf (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg1)) := s22_v51 (W6 m ρ c) _ _ (w6_v40 m ρ c) (w6_arg1 m ρ c)
theorem w7_v52 : W7 m ρ c (Proc.devRef .tc main_v52) = ewCol (m ((c : Thread nD τ).loc main_arg2)) := (s22_v52 (W6 m ρ c)).trans (congrArg ewCol (w6_arg2 m ρ c))
theorem w7_v44 : W7 m ρ c (Proc.devRef .tc main_v44) = tgtOf (m ((c : Thread nD τ).loc main_arg1)) := (s22_v44 (W6 m ρ c)).trans (congrArg tgtOf (w6_arg1 m ρ c))
theorem w7_v40 : W7 m ρ c (Proc.devRef .tc main_v40) = (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) := (s22_keep_v40 (W6 m ρ c)).trans (w6_v40 m ρ c)
theorem w7_arg6 : W7 m ρ c (Proc.devRef .tc main_arg6) = (m ((c : Thread nD τ).loc main_arg6)) := (s22_keep_arg6 (W6 m ρ c)).trans (w6_arg6 m ρ c)
theorem w7_arg7 : W7 m ρ c (Proc.devRef .tc main_arg7) = (m ((c : Thread nD τ).loc main_arg7)) := (s22_keep_arg7 (W6 m ρ c)).trans (w6_arg7 m ρ c)
theorem w7_arg8 : W7 m ρ c (Proc.devRef .tc main_arg8) = (m ((c : Thread nD τ).loc main_arg8)) := (s22_keep_arg8 (W6 m ρ c)).trans (w6_arg8 m ρ c)

/-! ## After the second relation kernel -/

theorem w8_v53 : W8 m ρ c (Proc.devRef .tc main_v53) = (msgOf (gatherOf (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg1))) (m ((c : Thread nD τ).loc main_arg6)) (ewCol (m ((c : Thread nD τ).loc main_arg2)))) :=
  (W8_arr m ρ c 3).trans ((Reg2.final (V7 m ρ) c).trans
    (congr (congr (congrArg msgOf (w7_v51 m ρ c)) (w7_arg6 m ρ c)) (w7_v52 m ρ c)))
theorem w8_v44 : W8 m ρ c (Proc.devRef .tc main_v44) = tgtOf (m ((c : Thread nD τ).loc main_arg1)) := (W8_of_ne m ρ c main_v44 (by decide)).trans (w7_v44 m ρ c)
theorem w8_v40 : W8 m ρ c (Proc.devRef .tc main_v40) = (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) := (W8_of_ne m ρ c main_v40 (by decide)).trans (w7_v40 m ρ c)
theorem w8_arg7 : W8 m ρ c (Proc.devRef .tc main_arg7) = (m ((c : Thread nD τ).loc main_arg7)) := (W8_of_ne m ρ c main_arg7 (by decide)).trans (w7_arg7 m ρ c)
theorem w8_arg8 : W8 m ρ c (Proc.devRef .tc main_arg8) = (m ((c : Thread nD τ).loc main_arg8)) := (W8_of_ne m ρ c main_arg8 (by decide)).trans (w7_arg8 m ρ c)

/-! ## Before the second self-loop kernel -/

theorem w9_v58 : W9 m ρ c (Proc.devRef .tc main_v58) = aggOf (m ((c : Thread nD τ).loc main_arg1)) (msgOf (gatherOf (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg1))) (m ((c : Thread nD τ).loc main_arg6)) (ewCol (m ((c : Thread nD τ).loc main_arg2)))) :=
  s3_v58 (W8 m ρ c) _ _ (w8_v44 m ρ c) (w8_v53 m ρ c)
theorem w9_v78 : W9 m ρ c (Proc.devRef .tc main_v78) = maskOf (m ((c : Thread nD τ).loc main_arg1)) := s3_v78 (W8 m ρ c) _ (w8_v44 m ρ c)
theorem w9_v40 : W9 m ρ c (Proc.devRef .tc main_v40) = (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) := (s3_keep_v40 (W8 m ρ c)).trans (w8_v40 m ρ c)
theorem w9_arg7 : W9 m ρ c (Proc.devRef .tc main_arg7) = (m ((c : Thread nD τ).loc main_arg7)) := (s3_keep_arg7 (W8 m ρ c)).trans (w8_arg7 m ρ c)
theorem w9_arg8 : W9 m ρ c (Proc.devRef .tc main_arg8) = (m ((c : Thread nD τ).loc main_arg8)) := (s3_keep_arg8 (W8 m ρ c)).trans (w8_arg8 m ρ c)

/-! ## After the second self-loop kernel, and the result -/

theorem w10_v79 : W10 m ρ c (Proc.devRef .tc main_v79) = selfOf (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg7)) (maskOf (m ((c : Thread nD τ).loc main_arg1))) (m ((c : Thread nD τ).loc main_arg8)) :=
  (W10_arr m ρ c 4).trans ((Reg3.final (V9 m ρ) c).trans
    (congr (congr (congr (congrArg selfOf (w9_v40 m ρ c)) (w9_arg7 m ρ c)) (w9_v78 m ρ c)) (w9_arg8 m ρ c)))
theorem w10_v58 : W10 m ρ c (Proc.devRef .tc main_v58) = aggOf (m ((c : Thread nD τ).loc main_arg1)) (msgOf (gatherOf (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg1))) (m ((c : Thread nD τ).loc main_arg6)) (ewCol (m ((c : Thread nD τ).loc main_arg2)))) :=
  (W10_of_ne m ρ c main_v58 (by decide)).trans (w9_v58 m ρ c)

/-- The result buffer at the last boundary: the layer applied to the positive part of the layer. -/
theorem result : W11 m ρ c (Proc.devRef .tc main_v80) = layer (relu (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg1)) (m ((c : Thread nD τ).loc main_arg2)) (m ((c : Thread nD τ).loc main_arg6)) (m ((c : Thread nD τ).loc main_arg7)) (m ((c : Thread nD τ).loc main_arg8)) :=
  (s4_v80 (W10 m ρ c)).trans (congr (congrArg addf (w10_v58 m ρ c)) (w10_v79 m ρ c))

end Cert.KernelIdeal.Chain

end
-- ==== Proof.RefGlue.lean ====
/-
  The reference program's operations for one layer as pure functions, and the layer: messages are the batched
  product of the gathered source rows with the relations' weights, times the edge weights; they are summed into their
  target nodes; the bias term is the `[8, 100000]` mask contracted with the biases over the relation axis, the mask
  holding a one at `(relation, node)` wherever some edge of that relation targets the node; the self-loop term is
  `x · selfW`. The reference's run ends at the layer applied twice with the positive part between.
-/
import proofs.«169420_j85890755985724_1_alg».proof.Proof.Gen.ReferenceIdeal.Run
import Idealize.ShloMosaic.PureOps.Ideal

noncomputable section

namespace Cert.ReferenceIdeal.Glue

open Cert.ReferenceIdeal Cert.ReferenceIdeal.Gen
open Idealize.ShloMosaic Idealize.ShloMosaic.TcCoe Idealize.SL.Sem

abbrev I32 (s : Shape) := IVec s 32
abbrev F32 (s : Shape) := FVec Ideal s .f32

/-- The source words, `[8, 100000]`. -/
def srcOf (ei : I32 S8x2x100000) : I32 S8x100000 :=
  shapeCast _ (extractStridedSlice S8x1x100000 ![0, 0, 0] ei slices_S8x2x100000_S8x1x100000_0_0_0) shapeCasts_S8x1x100000_S8x100000

/-- The target words, `[8, 100000]`. -/
def tgtOf (ei : I32 S8x2x100000) : I32 S8x100000 :=
  shapeCast _ (extractStridedSlice S8x1x100000 ![0, 1, 0] ei slices_S8x2x100000_S8x1x100000_0_1_0) shapeCasts_S8x1x100000_S8x100000

/-- A negative word has 100000 added. -/
def wrapN (v : I32 S8x100000) : I32 S8x100000 :=
  select (cmpi .slt v (broadcastInDim S8x100000 ![] bcast_S_S8x100000 (constantI S_ 32 0#32)))
    (addi v (broadcastInDim S8x100000 ![] bcast_S_S8x100000 (constantI S_ 32 100000#32))) v

/-- The rows of `x` at the wrapped source words, `[8, 100000, 128]`. -/
def gatherOf (x : F32 S100000x128) (ei : I32 S8x2x100000) : F32 S8x100000x128 :=
  Host.gather gather_S100000x128_S8x100000x1_S8x100000x128_2_0_n_n_0_2_1128 x
    (broadcastInDim S8x100000x1 ![0, 1] bcast_S8x100000_S8x100000x1_0_1 (wrapN (srcOf ei)))

/-- Messages: the batched product with the relations' weights, scaled by the edge weights. -/
def msgOf (g : F32 S8x100000x128) (relW : F32 S8x128x128) (ew : F32 S8x100000) : F32 S8x100000x128 :=
  mulf (Host.dotGeneral (F := Ideal) dot_S8x100000x128_S8x128x128_S8x100000x128_2_1_1_2_0_0 none g relW)
    (broadcastInDim S8x100000x128 ![0, 1, 2] bcast_S8x100000x1_S8x100000x128_0_1_2
      (broadcastInDim S8x100000x1 ![0, 1] bcast_S8x100000_S8x100000x1_0_1 ew))

/-- Messages summed into their target nodes. -/
def aggOf (ei : I32 S8x2x100000) (msg : F32 S8x100000x128) : F32 S100000x128 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 (shapeCast _ (tgtOf ei) shapeCasts_S8x100000_S800000))
    (shapeCast _ msg shapeCasts_S8x100000x128_S800000x128)

/-- The relation numbers as a wrapped `[8, 1]` column. -/
def relCol : I32 S8x1 :=
  select (cmpi .slt (broadcastInDim S8x1 ![0] bcast_S8_S8x1_0 (iotaInDim S8 32 0)) (broadcastInDim S8x1 ![] bcast_S_S8x1 (constantI S_ 32 0#32)))
    (addi (broadcastInDim S8x1 ![0] bcast_S8_S8x1_0 (iotaInDim S8 32 0)) (broadcastInDim S8x1 ![] bcast_S_S8x1 (constantI S_ 32 8#32)))
    (broadcastInDim S8x1 ![0] bcast_S8_S8x1_0 (iotaInDim S8 32 0))

/-- The scatter indices of the mask: at `(r, e)` the pair (wrapped relation `r`, wrapped target of edge `(r, e)`). -/
def maskIdx (ei : I32 S8x2x100000) : I32 S8x100000x2 :=
  concatenate S8x100000x2 2
    [⟨S8x100000x1, (broadcastInDim S8x100000x1 ![0, 1] bcast_S8x100000_S8x100000x1_0_1
        (broadcastInDim S8x100000 ![0, 1] bcast_S8x1_S8x100000_0_1 relCol))⟩,
     ⟨S8x100000x1, (broadcastInDim S8x100000x1 ![0, 1] bcast_S8x100000_S8x100000x1_0_1 (wrapN (tgtOf ei)))⟩]
    concatenates_S8x100000x1_S8x100000x1_S8x100000x2_d2

/-- The mask `[8, 100000]`: ones written into zeros at the scatter indices. -/
def maskOf (ei : I32 S8x2x100000) : F32 S8x100000 :=
  Host.scatter scatter_S8x100000_S8x100000x2_S8x100000_n_01_01_2 (fun _ b => b)
    (broadcastInDim S8x100000 ![] bcast_S_S8x100000 (constant (F := Ideal) S_ .f32 0x00000000#32))
    (maskIdx ei)
    (broadcastInDim S8x100000 ![] bcast_S_S8x100000 (constant (F := Ideal) S_ .f32 0x3F800000#32))

/-- The positive part. -/
def relu (x : F32 S100000x128) : F32 S100000x128 :=
  maximumf x (broadcastInDim S100000x128 ![] bcast_S_S100000x128 (constant (F := Ideal) S_ .f32 0x00000000#32))

/-- One layer as the reference computes it. -/
def layer (x : F32 S100000x128) (ei : I32 S8x2x100000) (ew : F32 S8x100000) (relW : F32 S8x128x128)
    (selfW : F32 S128x128) (bias : F32 S8x128) : F32 S100000x128 :=
  addf (addf (aggOf ei (msgOf (gatherOf x ei) relW ew))
      (Host.dotGeneral (F := Ideal) dot_S8x100000_S8x128_S100000x128_0_0_1_1_n_n none (maskOf ei) bias))
    (Host.dotGeneral (F := Ideal) dot_S100000x128_S128x128_S100000x128_1_0_0_1_n_n none x selfW)

/-- The reference's result is the layer applied twice, the positive part between. -/
theorem res_eq (m : (ℓ : Loc nD τ sig) → Buf (Elt Ideal) ℓ) (c : Dev nD) :
    Cert.ReferenceIdeal.Value.res_main_v86 m c
      = layer (relu (layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))))
          (m ((c.tc : Thread nD τ).loc main_arg1)) (m ((c.tc : Thread nD τ).loc main_arg2))
          (m ((c.tc : Thread nD τ).loc main_arg6)) (m ((c.tc : Thread nD τ).loc main_arg7))
          (m ((c.tc : Thread nD τ).loc main_arg8)) := by
  unfold Cert.ReferenceIdeal.Value.res_main_v86
  rfl

end Cert.ReferenceIdeal.Glue

end
-- ==== Proof.LibScatterSet.lean ====
import Idealize.ShloMosaic.PureOps
import Idealize.ShloMosaic.Lib.ValueIdx

namespace Cert.Lib

open Idealize.ShloMosaic Idealize.ShloMosaic.ValueIdx

/-! ## A left fold of pointwise overwrites, read at one position -/

/-- A left fold whose every step leaves position `i` alone leaves the accumulator's value at `i`. -/
theorem foldl_apply_of_keep {β ι γ : Type} (step : (ι → γ) → β → (ι → γ)) (i : ι) (l : List β)
    (h : ∀ n ∈ l, ∀ r, step r n i = r i) (r : ι → γ) : l.foldl step r i = r i := by
  induction l generalizing r with
  | nil => rfl
  | cons n l ih =>
    rw [List.foldl_cons, ih (fun m hm => h m (List.mem_cons_of_mem _ hm)), h n List.mem_cons_self]

section General
variable {s si u : Shape} {α : Type} {w : Nat}

/-- An update index lands on `i` exactly when, on every axis, its start plus its window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro e a
      have h1 := congrArg (fun f => (f a).val) e
      have h2 := h a
      simp only at h1
      omega
    · intro e
      funext a
      apply Fin.ext
      have h1 := e a
      have h2 := h a
      simp only
      omega
  · next h =>
    constructor
    · intro e; cases e
    · intro e
      exact absurd (fun a => by have h1 := e a; have h2 := (i a).isLt; omega) h

/-- A position no update index lands on keeps the operand's value. -/
theorem scatter_set_miss (d : ScatterDims s si u) (x : s.Idx → α) (idx : IVec si w) (upd : u.Idx → α)
    (i : s.Idx) (hmiss : ∀ j, d.resultIdx? j idx ≠ some i) : Host.scatter d (fun _ b => b) x idx upd i = x i := by
  unfold Host.scatter
  refine foldl_apply_of_keep _ i _ (fun n _ r => ?_) x
  generalize ho : d.resultIdx? (u.rowMajor.symm n) idx = o
  cases o with
  | none => rfl
  | some i0 => exact if_neg (fun e => hmiss _ (e ▸ ho))

/-- When the body returns the update and exactly one update index lands on a position, the result there is that
    update's value. -/
theorem scatter_set_hit (d : ScatterDims s si u) (x : s.Idx → α) (idx : IVec si w) (upd : u.Idx → α)
    (i : s.Idx) (j₀ : u.Idx) (h₀ : d.resultIdx? j₀ idx = some i) (huniq : ∀ j, d.resultIdx? j idx = some i → j = j₀) :
    Host.scatter d (fun _ b => b) x idx upd i = upd j₀ := by
  unfold Host.scatter
  have hmem : u.rowMajor j₀ ∈ List.finRange u.numel := List.mem_finRange _
  have hnd := List.nodup_finRange u.numel
  generalize List.finRange u.numel = l at hmem hnd
  induction l generalizing x with
  | nil => cases hmem
  | cons n l ih =>
    rw [List.foldl_cons]
    rw [List.nodup_cons] at hnd
    by_cases hn : n = u.rowMajor j₀
    · subst hn
      rw [foldl_apply_of_keep _ i l (fun m hm r => ?_)]
      · simp only [Equiv.symm_apply_apply, h₀, if_true]
      · generalize ho : d.resultIdx? (u.rowMajor.symm m) idx = o
        cases o with
        | none => rfl
        | some i0 =>
          refine if_neg (fun e => ?_)
          subst e
          have := huniq _ ho
          exact hnd.1 (by rw [← this, Equiv.apply_symm_apply]; exact hm)
    · rcases List.mem_cons.1 hmem with e | hm
      · exact absurd e.symm hn
      · exact ih _ hm hnd.2

end General

/-! ## A block of channels written into `[16, 64, 256, 256]` at a run-time first channel -/

section Channels

/-- The dimension numbers of writing a `[16, C, 256, 256]` block into a `[16, 64, 256, 256]` array at one scatter
    index that names the first channel: every update axis is a window axis, nothing is inserted, and the one
    component of the start index goes to axis 1. -/
abbrev chanDims (C : Nat)
    (wf : ScatterDims.WF ⟨4, ![16, 64, 256, 256]⟩ ⟨1, ![1]⟩ ⟨4, ![16, C, 256, 256]⟩ [0, 1, 2, 3] [] [1] 0) :
    ScatterDims ⟨4, ![16, 64, 256, 256]⟩ ⟨1, ![1]⟩ ⟨4, ![16, C, 256, 256]⟩ :=
  ⟨[0, 1, 2, 3], [], [1], 0, wf⟩

/-- The window coordinate on every axis is the update index's own coordinate. -/
theorem chanDims_window (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) (a : Fin 4) : (chanDims C wf).window j a = (j a).val := by
  have hk : ∀ a : Fin 4, a ∈ Shape.kept ⟨4, ![16, 64, 256, 256]⟩ [] := by decide
  unfold ScatterDims.window
  rw [dif_pos (show a ∈ (chanDims C wf).sKept from hk a)]
  match a with
  | ⟨0, _⟩ => rfl
  | ⟨1, _⟩ => rfl
  | ⟨2, _⟩ => rfl
  | ⟨3, _⟩ => rfl

/-- The window starts at the scatter index's value on the channel axis and at `0` on the others. -/
theorem chanDims_start (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) {w : Nat} (idx : IVec ⟨1, ![1]⟩ w) (a : Fin 4) :
    (chanDims C wf).start j idx a = if a = 1 then (idx (ix1 0)).toInt else 0 := by
  unfold ScatterDims.start
  by_cases ha : a = 1
  · subst ha
    rw [dif_pos (show (1 : Fin 4) ∈ (chanDims C wf).scatterDimsToOperandDims from List.mem_singleton.mpr rfl),
      if_pos rfl]
    have hsi : (chanDims C wf).siIdx j ⟨List.idxOf (1 : Fin 4) (chanDims C wf).scatterDimsToOperandDims,
        List.idxOf_lt_length_iff.2 (List.mem_singleton.mpr rfl)⟩ = ix1 0 := by
      funext b; refine Fin.ext ?_
      match b with
      | ⟨0, _⟩ => rfl
    rw [hsi]
  · rw [dif_neg (show a ∉ (chanDims C wf).scatterDimsToOperandDims from fun h => ha (List.mem_singleton.mp h)),
      if_neg ha]

/-- An update index lands on `(n, ch, h, w)` exactly when its coordinates are `n`, `ch - k`, `h`, `w`, `k` the first
    channel the scatter index names. -/
theorem chanDims_resultIdx?_iff (C : Nat)
    (wf : ScatterDims.WF ⟨4, ![16, 64, 256, 256]⟩ ⟨1, ![1]⟩ ⟨4, ![16, C, 256, 256]⟩ [0, 1, 2, 3] [] [1] 0)
    {v : Nat} (idx : IVec ⟨1, ![1]⟩ v) (k : Nat) (hidx : (idx (ix1 0)).toInt = (k : Int))
    (j : (⟨4, ![16, C, 256, 256]⟩ : Shape).Idx) (n : Fin 16) (ch : Fin 64) (h : Fin 256) (w : Fin 256) :
    (chanDims C wf).resultIdx? j idx = some (ix4 n ch h w) ↔
      (j 0).val = n.val ∧ k + (j 1).val = ch.val ∧ (j 2).val = h.val ∧ (j 3).val = w.val := by
  rw [resultIdx?_eq_some_iff]
  have key : ∀ a : Fin 4, (chanDims C wf).start j idx a + ((chanDims C wf).window j a : Int)
      = (if a = 1 then (k : Int) else 0) + ((j a).val : Int) := by
    intro a; rw [chanDims_start, chanDims_window, hidx]
  constructor
  · intro e
    have e0 : (0 : Int) + ((j 0).val : Int) = (n.val : Int) := (key 0).symm.trans (e (0 : Fin 4))
    have e1 : (k : Int) + ((j 1).val : Int) = (ch.val : Int) := (key 1).symm.trans (e (1 : Fin 4))
    have e2 : (0 : Int) + ((j 2).val : Int) = (h.val : Int) := (key 2).symm.trans (e (2 : Fin 4))
    have e3 : (0 : Int) + ((j 3).val : Int) = (w.val : Int) := (key 3).symm.trans (e (3 : Fin 4))
    omega
  · rintro ⟨e0, e1, e2, e3⟩ a
    refine (key a).trans ?_
    match a with
    | ⟨0, _⟩ => show (0 : Int) + ((j 0).val : Int) = (n.val : Int); omega
    | ⟨1, _⟩ => show (k : Int) + ((j 1).val : Int) = (ch.val : Int); omega
    | ⟨2, _⟩ => show (0 : Int) + ((j 2).val : Int) = (h.val : Int); omega
    | ⟨3, _⟩ => show (0 : Int) + ((j 3).val : Int) = (w.val : Int); omega

/-- THE SCATTER READ AT `(n, ch, h, w)`: inside the written block of channels `[k, k + C)` it is the update at
    channel `ch - k`, outside it the operand. -/
theorem scatter_channels_apply {α : Type} (C : Nat)
    (wf : ScatterDims.WF ⟨4, ![16, 64, 256, 256]⟩ ⟨1, ![1]⟩ ⟨4, ![16, C, 256, 256]⟩ [0, 1, 2, 3] [] [1] 0)
    (x : (⟨4, ![16, 64, 256, 256]⟩ : Shape).Idx → α) (idx : IVec ⟨1, ![1]⟩ 32) (k : Nat)
    (hidx : (idx (ix1 0)).toInt = (k : Int)) (hk : k + C ≤ 64)
    (upd : (⟨4, ![16, C, 256, 256]⟩ : Shape).Idx → α) (n : Fin 16) (ch : Fin 64) (h : Fin 256) (w : Fin 256) :
    Host.scatter (⟨[0, 1, 2, 3], [], [1], 0, wf⟩ : ScatterDims ⟨4, ![16, 64, 256, 256]⟩ ⟨1, ![1]⟩ ⟨4, ![16, C, 256, 256]⟩)
        (fun _ b => b) x idx upd (ix4 n ch h w)
      = if hc : k ≤ ch.val ∧ ch.val < k + C then upd (ix4 n ⟨ch.val - k, by omega⟩ h w) else x (ix4 n ch h w) := by
  have hiff := fun j => chanDims_resultIdx?_iff C wf idx k hidx j n ch h w
  split
  · next hc =>
    refine scatter_set_hit (chanDims C wf) x idx upd _ _ ((hiff _).2 ⟨rfl, ?_, rfl, rfl⟩) (fun j hj => ?_)
    · show k + (ch.val - k) = ch.val
      omega
    · obtain ⟨e0, e1, e2, e3⟩ := (hiff j).1 hj
      funext a
      refine Fin.ext ?_
      match a with
      | ⟨0, _⟩ => exact e0
      | ⟨1, _⟩ => show (j 1).val = ch.val - k; omega
      | ⟨2, _⟩ => exact e2
      | ⟨3, _⟩ => exact e3
  · next hc =>
    refine scatter_set_miss (chanDims C wf) x idx upd _ (fun j hj => hc ?_)
    obtain ⟨e0, e1, e2, e3⟩ := (hiff j).1 hj
    have hj1 : (j 1).val < C := (j 1).isLt
    omega

end Channels

end Cert.Lib
-- ==== Proof.LibScatterConst.lean ====
import proofs.«169420_j85890755985724_1_alg».proof.Proof.LibScatterSet

/-!
# A scatter of one repeated value

`Host.scatter` with the body that returns the update is a left fold of overwrites, in row-major order of the update
indices. When every update carries the SAME value `c`, the order and the repeats do not matter: a position some
update index lands on ends at `c`, and a position none lands on keeps the operand's value
(`Cert.Lib.scatter_set_miss`). Then two records that write scalars into a two-axis operand, both axes inserted and
both named by the index vector: one whose index vectors are the rows of an `[E, 2]` array, one whose index vectors are
the last axis of an `[R, E, 2]` array. For each, an update index lands on `(a, b)` exactly when its two index words, read
signed, are `a` and `b`.
-/

namespace Cert.Lib

open Idealize.ShloMosaic Idealize.ShloMosaic.ValueIdx

section General
variable {s si u : Shape} {α : Type} {w : Nat}

/-- A left fold of overwrites by the one value `c`, read at `i`: once some step of the list lands on `i`, the value
    there is `c` whatever came before and whatever comes after. -/
theorem foldl_const_of_hit (d : ScatterDims s si u) (idx : IVec si w) (c : α) (i : s.Idx) (l : List (Fin u.numel))
    (h : ∃ n ∈ l, d.resultIdx? (u.rowMajor.symm n) idx = some i) (r : s.Idx → α) :
    l.foldl (fun r n =>
      match d.resultIdx? (u.rowMajor.symm n) idx with
      | some i0 => fun i' => if i' = i0 then (fun _ b => b) (r i0) ((fun _ => c) (u.rowMajor.symm n)) else r i'
      | none => r) r i = c := by
  induction l generalizing r with
  | nil => obtain ⟨n, hn, _⟩ := h; cases hn
  | cons n l ih =>
    rw [List.foldl_cons]
    by_cases hl : ∃ n' ∈ l, d.resultIdx? (u.rowMajor.symm n') idx = some i
    · exact ih hl _
    · obtain ⟨n', hn', hhit⟩ := h
      rcases List.mem_cons.1 hn' with e | hm
      · subst e
        rw [foldl_apply_of_keep _ i l (fun m hm r => ?_)]
        · simp only [hhit, if_true]
        · generalize ho : d.resultIdx? (u.rowMajor.symm m) idx = o
          cases o with
          | none => rfl
          | some i0 =>
            refine if_neg (fun e => hl ⟨m, hm, ?_⟩)
            rw [ho, e]
      · exact absurd ⟨n', hm, hhit⟩ hl

/-- A position some update index lands on ends at the repeated value. -/
theorem scatter_const_hit (d : ScatterDims s si u) (x : s.Idx → α) (idx : IVec si w) (c : α) (i : s.Idx)
    (h : ∃ j, d.resultIdx? j idx = some i) : Host.scatter d (fun _ b => b) x idx (fun _ => c) i = c := by
  unfold Host.scatter
  obtain ⟨j, hj⟩ := h
  exact foldl_const_of_hit d idx c i _ ⟨u.rowMajor j, List.mem_finRange _, by rw [Equiv.symm_apply_apply]; exact hj⟩ x

end General

/-! ## Scalars written at index vectors that are the rows of an `[E, 2]` array -/

section Rows
variable (A B E : Nat)

/-- Scalars into `[A, B]`, both axes inserted, the index vector along axis 1 of `[E, 2]`. -/
abbrev rowsDims (wf : ScatterDims.WF ⟨2, ![A, B]⟩ ⟨2, ![E, 2]⟩ ⟨1, ![E]⟩ [] [0, 1] [0, 1] 1) :
    ScatterDims ⟨2, ![A, B]⟩ ⟨2, ![E, 2]⟩ ⟨1, ![E]⟩ := ⟨[], [0, 1], [0, 1], 1, wf⟩

theorem rowsDims_window (wf : ScatterDims.WF ⟨2, ![A, B]⟩ ⟨2, ![E, 2]⟩ ⟨1, ![E]⟩ [] [0, 1] [0, 1] 1)
    (j : (⟨1, ![E]⟩ : Shape).Idx) (a : Fin 2) : (rowsDims A B E wf).window j a = 0 := by
  have hk : ∀ a : Fin 2, a ∉ Shape.kept ⟨2, ![A, B]⟩ [0, 1] := fun a => by
    show a ∉ (List.finRange 2).filter (fun x => x ∉ ([0, 1] : List (Fin 2)))
    revert a; decide
  unfold ScatterDims.window
  rw [dif_neg (hk a)]

theorem rowsDims_start (wf : ScatterDims.WF ⟨2, ![A, B]⟩ ⟨2, ![E, 2]⟩ ⟨1, ![E]⟩ [] [0, 1] [0, 1] 1)
    (j : (⟨1, ![E]⟩ : Shape).Idx) {w : Nat} (idx : IVec ⟨2, ![E, 2]⟩ w) (a : Fin 2) :
    (rowsDims A B E wf).start j idx a = (idx (ix2 (j 0) a)).toInt := by
  unfold ScatterDims.start
  have hm : ∀ a : Fin 2, a ∈ ([0, 1] : List (Fin 2)) := by decide
  rw [dif_pos (hm a)]
  refine congrArg (fun k => (idx k).toInt) (funext fun b => Fin.ext ?_)
  match a, b with
  | ⟨0, _⟩, ⟨0, _⟩ => rfl
  | ⟨0, _⟩, ⟨1, _⟩ => rfl
  | ⟨1, _⟩, ⟨0, _⟩ => rfl
  | ⟨1, _⟩, ⟨1, _⟩ => rfl

/-- Update `e` lands on `(a, b)` exactly when row `e` of the index array, read signed, is `(a, b)`. -/
theorem rowsDims_resultIdx?_iff (wf : ScatterDims.WF ⟨2, ![A, B]⟩ ⟨2, ![E, 2]⟩ ⟨1, ![E]⟩ [] [0, 1] [0, 1] 1)
    {w : Nat} (idx : IVec ⟨2, ![E, 2]⟩ w) (j : (⟨1, ![E]⟩ : Shape).Idx) (a : Fin A) (b : Fin B) :
    (rowsDims A B E wf).resultIdx? j idx = some (ix2 a b) ↔
      (idx (ix2 (j 0) 0)).toInt = (a.val : Int) ∧ (idx (ix2 (j 0) 1)).toInt = (b.val : Int) := by
  rw [resultIdx?_eq_some_iff]
  have key : ∀ k : Fin 2, (rowsDims A B E wf).start j idx k + ((rowsDims A B E wf).window j k : Int)
      = (idx (ix2 (j 0) k)).toInt := by
    intro k; rw [rowsDims_start, rowsDims_window]; simp
  constructor
  · intro e
    exact ⟨(key 0).symm.trans (e (0 : Fin 2)), (key 1).symm.trans (e (1 : Fin 2))⟩
  · rintro ⟨e0, e1⟩ k
    refine (key k).trans ?_
    match k with
    | ⟨0, _⟩ => exact e0
    | ⟨1, _⟩ => exact e1

end Rows

/-! ## Scalars written at index vectors along the last axis of an `[R, E, 2]` array -/

section Grid
variable (A B R E : Nat)

/-- Scalars into `[A, B]`, both axes inserted, the index vector along axis 2 of `[R, E, 2]`. -/
abbrev gridDims (wf : ScatterDims.WF ⟨2, ![A, B]⟩ ⟨3, ![R, E, 2]⟩ ⟨2, ![R, E]⟩ [] [0, 1] [0, 1] 2) :
    ScatterDims ⟨2, ![A, B]⟩ ⟨3, ![R, E, 2]⟩ ⟨2, ![R, E]⟩ := ⟨[], [0, 1], [0, 1], 2, wf⟩

theorem gridDims_window (wf : ScatterDims.WF ⟨2, ![A, B]⟩ ⟨3, ![R, E, 2]⟩ ⟨2, ![R, E]⟩ [] [0, 1] [0, 1] 2)
    (j : (⟨2, ![R, E]⟩ : Shape).Idx) (a : Fin 2) : (gridDims A B R E wf).window j a = 0 := by
  have hk : ∀ a : Fin 2, a ∉ Shape.kept ⟨2, ![A, B]⟩ [0, 1] := fun a => by
    show a ∉ (List.finRange 2).filter (fun x => x ∉ ([0, 1] : List (Fin 2)))
    revert a; decide
  unfold ScatterDims.window
  rw [dif_neg (hk a)]

theorem gridDims_start (wf : ScatterDims.WF ⟨2, ![A, B]⟩ ⟨3, ![R, E, 2]⟩ ⟨2, ![R, E]⟩ [] [0, 1] [0, 1] 2)
    (j : (⟨2, ![R, E]⟩ : Shape).Idx) {w : Nat} (idx : IVec ⟨3, ![R, E, 2]⟩ w) (a : Fin 2) :
    (gridDims A B R E wf).start j idx a = (idx (ix3 (j 0) (j 1) a)).toInt := by
  unfold ScatterDims.start
  have hm : ∀ a : Fin 2, a ∈ ([0, 1] : List (Fin 2)) := by decide
  rw [dif_pos (hm a)]
  refine congrArg (fun k => (idx k).toInt) (funext fun b => Fin.ext ?_)
  match a, b with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl

/-- Update `(r, e)` lands on `(a, b)` exactly when the index vector at `(r, e)`, read signed, is `(a, b)`. -/
theorem gridDims_resultIdx?_iff (wf : ScatterDims.WF ⟨2, ![A, B]⟩ ⟨3, ![R, E, 2]⟩ ⟨2, ![R, E]⟩ [] [0, 1] [0, 1] 2)
    {w : Nat} (idx : IVec ⟨3, ![R, E, 2]⟩ w) (j : (⟨2, ![R, E]⟩ : Shape).Idx) (a : Fin A) (b : Fin B) :
    (gridDims A B R E wf).resultIdx? j idx = some (ix2 a b) ↔
      (idx (ix3 (j 0) (j 1) 0)).toInt = (a.val : Int) ∧ (idx (ix3 (j 0) (j 1) 1)).toInt = (b.val : Int) := by
  rw [resultIdx?_eq_some_iff]
  have key : ∀ k : Fin 2, (gridDims A B R E wf).start j idx k + ((gridDims A B R E wf).window j k : Int)
      = (idx (ix3 (j 0) (j 1) k)).toInt := by
    intro k; rw [gridDims_start, gridDims_window]; simp
  constructor
  · intro e
    exact ⟨(key 0).symm.trans (e (0 : Fin 2)), (key 1).symm.trans (e (1 : Fin 2))⟩
  · rintro ⟨e0, e1⟩ k
    refine (key k).trans ?_
    match k with
    | ⟨0, _⟩ => exact e0
    | ⟨1, _⟩ => exact e1

end Grid

end Cert.Lib
-- ==== Proof.Mask.lean ====
/-
  The two masks are transposes of each other.

  The kernel program writes ones into a `[100000, 8]` array of zeros at the pairs (wrapped target, wrapped relation)
  listed edge by edge in an `[800000, 2]` array; the reference writes ones into an `[8, 100000]` array of zeros at the
  pairs (wrapped relation, wrapped target) listed in an `[8, 100000, 2]` array. Edge `k = r · 100000 + e` of the first
  list is edge `(r, e)` of the second with the pair swapped. Every update carries the same value, so a position ends
  at one exactly when some listed pair lands on it, at zero otherwise — whatever the repeats among the targets. Hence
  the first mask at `(n, r)` is the second at `(r, n)`.
-/
import proofs.«169420_j85890755985724_1_alg».proof.Proof.KerGlue
import proofs.«169420_j85890755985724_1_alg».proof.Proof.RefGlue
import proofs.«169420_j85890755985724_1_alg».proof.Proof.LibScatterConst
import Idealize.ShloMosaic.Lib.Pipeline.Value
import Idealize.ShloMosaic.Lib.ValueIdx

set_option maxRecDepth 16384

noncomputable section

namespace Cert.Mask

open Idealize.ShloMosaic Idealize.ShloMosaic.ValueIdx

/-- The value written: the float one. -/
abbrev one : EReal := Ideal.ofBits .f32 0x3F800000#32
/-- The value the masks start from: the float zero. -/
abbrev zero : EReal := Ideal.ofBits .f32 0x00000000#32

/-! ## Layout operations of the two index arrays read at an index -/

section Layout
variable {α : Type}

theorem catK_left (a b : Cert.KernelIdeal.S800000x1.Idx → α)
    (h : Shape.Concatenates [Cert.KernelIdeal.S800000x1, Cert.KernelIdeal.S800000x1] Cert.KernelIdeal.S800000x2 1) (k : Fin 800000) :
    concatenate Cert.KernelIdeal.S800000x2 1 [⟨Cert.KernelIdeal.S800000x1, a⟩, ⟨Cert.KernelIdeal.S800000x1, b⟩] h (ix2 k (0 : Fin 2))
      = a (ix2 k (0 : Fin 1)) :=
  concatenate_pair_apply_left 1 a b h (ix2 k (0 : Fin 2)) rfl (ix2 k (0 : Fin 1))
    (fun c => match c with | ⟨0, _⟩ => rfl | ⟨1, _⟩ => rfl)

theorem catK_right (a b : Cert.KernelIdeal.S800000x1.Idx → α)
    (h : Shape.Concatenates [Cert.KernelIdeal.S800000x1, Cert.KernelIdeal.S800000x1] Cert.KernelIdeal.S800000x2 1) (k : Fin 800000) :
    concatenate Cert.KernelIdeal.S800000x2 1 [⟨Cert.KernelIdeal.S800000x1, a⟩, ⟨Cert.KernelIdeal.S800000x1, b⟩] h (ix2 k (1 : Fin 2))
      = b (ix2 k (0 : Fin 1)) :=
  concatenate_pair_apply_right 1 a b h (ix2 k (1 : Fin 2)) rfl rfl (ix2 k (0 : Fin 1))
    (fun c hc => match c, hc with | ⟨0, _⟩, _ => rfl | ⟨1, _⟩, hc => absurd rfl hc) rfl

theorem catR_left (a b : Cert.ReferenceIdeal.S8x100000x1.Idx → α)
    (h : Shape.Concatenates [Cert.ReferenceIdeal.S8x100000x1, Cert.ReferenceIdeal.S8x100000x1] Cert.ReferenceIdeal.S8x100000x2 2)
    (r : Fin 8) (e : Fin 100000) :
    concatenate Cert.ReferenceIdeal.S8x100000x2 2 [⟨Cert.ReferenceIdeal.S8x100000x1, a⟩, ⟨Cert.ReferenceIdeal.S8x100000x1, b⟩] h (ix3 r e (0 : Fin 2))
      = a (ix3 r e (0 : Fin 1)) :=
  concatenate_pair_apply_left 2 a b h (ix3 r e (0 : Fin 2)) rfl (ix3 r e (0 : Fin 1))
    (fun c => match c with | ⟨0, _⟩ => rfl | ⟨1, _⟩ => rfl | ⟨2, _⟩ => rfl)

theorem catR_right (a b : Cert.ReferenceIdeal.S8x100000x1.Idx → α)
    (h : Shape.Concatenates [Cert.ReferenceIdeal.S8x100000x1, Cert.ReferenceIdeal.S8x100000x1] Cert.ReferenceIdeal.S8x100000x2 2)
    (r : Fin 8) (e : Fin 100000) :
    concatenate Cert.ReferenceIdeal.S8x100000x2 2 [⟨Cert.ReferenceIdeal.S8x100000x1, a⟩, ⟨Cert.ReferenceIdeal.S8x100000x1, b⟩] h (ix3 r e (1 : Fin 2))
      = b (ix3 r e (0 : Fin 1)) :=
  concatenate_pair_apply_right 2 a b h (ix3 r e (1 : Fin 2)) rfl rfl (ix3 r e (0 : Fin 1))
    (fun c hc => match c, hc with | ⟨0, _⟩, _ => rfl | ⟨1, _⟩, _ => rfl | ⟨2, _⟩, hc => absurd rfl hc) rfl

/-- A vector `[E]` stood up as a column `[E, 1]`. -/
theorem colK (v : Cert.KernelIdeal.S800000.Idx → α)
    (h : Cert.KernelIdeal.S800000.BroadcastsInDim Cert.KernelIdeal.S800000x1 ![0]) (k : Fin 800000) :
    broadcastInDim Cert.KernelIdeal.S800000x1 ![0] h v (ix2 k (0 : Fin 1)) = v (ix1 k) :=
  broadcastInDim_apply ![0] h v _ (ix1 k) fun a => match a with
    | ⟨0, _⟩ => by show k.val = if (800000 : ℕ) = 1 then 0 else k.val; rw [if_neg (by decide)]

/-- The `[8, 100000]` words in edge order: entry `r · 100000 + e` is the word at `(r, e)`. -/
theorem flatK (v : Cert.KernelIdeal.S8x100000.Idx → α) (h : Cert.KernelIdeal.S8x100000.ShapeCasts Cert.KernelIdeal.S800000)
    (r : Fin 8) (e : Fin 100000) (k : Fin 800000) (hk : k.val = r.val * 100000 + e.val) :
    shapeCast Cert.KernelIdeal.S800000 v h (ix1 k) = v (ix2 r e) :=
  shapeCast_apply v h (ix1 k) (ix2 r e) (by
    rw [Shape.rowMajor_val_two, Shape.rowMajor_val_one]
    show r.val * 100000 + e.val = k.val
    omega)

/-- The relation numbers `[8]` repeated along the edges. -/
theorem rowsK (v : Cert.KernelIdeal.S8.Idx → α) (h : Cert.KernelIdeal.S8.BroadcastsInDim Cert.KernelIdeal.S8x100000 ![0])
    (r : Fin 8) (e : Fin 100000) :
    broadcastInDim Cert.KernelIdeal.S8x100000 ![0] h v (ix2 r e) = v (ix1 r) :=
  broadcastInDim_apply ![0] h v _ (ix1 r) fun a => match a with
    | ⟨0, _⟩ => by show r.val = if (8 : ℕ) = 1 then 0 else r.val; rw [if_neg (by decide)]

/-- An `[8, 100000]` array with a trailing unit axis added. -/
theorem colR (v : Cert.ReferenceIdeal.S8x100000.Idx → α)
    (h : Cert.ReferenceIdeal.S8x100000.BroadcastsInDim Cert.ReferenceIdeal.S8x100000x1 ![0, 1]) (r : Fin 8) (e : Fin 100000) :
    broadcastInDim Cert.ReferenceIdeal.S8x100000x1 ![0, 1] h v (ix3 r e (0 : Fin 1)) = v (ix2 r e) :=
  broadcastInDim_apply ![0, 1] h v _ (ix2 r e) fun a => match a with
    | ⟨0, _⟩ => by show r.val = if (8 : ℕ) = 1 then 0 else r.val; rw [if_neg (by decide)]
    | ⟨1, _⟩ => by show e.val = if (100000 : ℕ) = 1 then 0 else e.val; rw [if_neg (by decide)]

/-- An `[8, 1]` column repeated along the edges. -/
theorem alongR (v : Cert.ReferenceIdeal.S8x1.Idx → α)
    (h : Cert.ReferenceIdeal.S8x1.BroadcastsInDim Cert.ReferenceIdeal.S8x100000 ![0, 1]) (r : Fin 8) (e : Fin 100000) :
    broadcastInDim Cert.ReferenceIdeal.S8x100000 ![0, 1] h v (ix2 r e) = v (ix2 r (0 : Fin 1)) :=
  broadcastInDim_apply ![0, 1] h v _ (ix2 r (0 : Fin 1)) fun a => match a with
    | ⟨0, _⟩ => by show r.val = if (8 : ℕ) = 1 then 0 else r.val; rw [if_neg (by decide)]
    | ⟨1, _⟩ => by show (0 : ℕ) = if (1 : ℕ) = 1 then 0 else e.val; rw [if_pos rfl]

/-- The relation numbers `[8]` stood up as an `[8, 1]` column. -/
theorem standR (v : Cert.ReferenceIdeal.S8.Idx → α) (h : Cert.ReferenceIdeal.S8.BroadcastsInDim Cert.ReferenceIdeal.S8x1 ![0])
    (r : Fin 8) :
    broadcastInDim Cert.ReferenceIdeal.S8x1 ![0] h v (ix2 r (0 : Fin 1)) = v (ix1 r) :=
  broadcastInDim_apply ![0] h v _ (ix1 r) fun a => match a with
    | ⟨0, _⟩ => by show r.val = if (8 : ℕ) = 1 then 0 else r.val; rw [if_neg (by decide)]

end Layout

/-! ## The two lists name the same pairs -/

open Cert.KernelIdeal.Glue in
/-- The first component of the kernel program's pair for edge `k = r · 100000 + e` is the second component of the
    reference's pair for `(r, e)`: the wrapped target. -/
theorem pair_target (ei : Cert.KernelIdeal.Glue.I32 Cert.KernelIdeal.S8x2x100000) (r : Fin 8) (e : Fin 100000) (k : Fin 800000)
    (hk : k.val = r.val * 100000 + e.val) :
    Cert.KernelIdeal.Glue.maskIdx ei (ix2 k (0 : Fin 2)) = Cert.ReferenceIdeal.Glue.maskIdx ei (ix3 r e (1 : Fin 2)) := by
  unfold Cert.KernelIdeal.Glue.maskIdx Cert.ReferenceIdeal.Glue.maskIdx
  rw [catK_left, catR_right, colK, colR]
  have ht : Cert.KernelIdeal.Glue.tgtFlat ei (ix1 k) = Cert.ReferenceIdeal.Glue.tgtOf ei (ix2 r e) :=
    flatK _ _ r e k hk
  show Scalar.select (IntOp.cmpi .slt (Cert.KernelIdeal.Glue.tgtFlat ei (ix1 k)) (0#32))
      (IntOp.addi (Cert.KernelIdeal.Glue.tgtFlat ei (ix1 k)) (100000#32)) (Cert.KernelIdeal.Glue.tgtFlat ei (ix1 k))
    = Scalar.select (IntOp.cmpi .slt (Cert.ReferenceIdeal.Glue.tgtOf ei (ix2 r e)) (0#32))
      (IntOp.addi (Cert.ReferenceIdeal.Glue.tgtOf ei (ix2 r e)) (100000#32)) (Cert.ReferenceIdeal.Glue.tgtOf ei (ix2 r e))
  rw [ht]

/-- The second component of the kernel program's pair for edge `k = r · 100000 + e` is the first component of the
    reference's pair for `(r, e)`: the wrapped relation number. -/
theorem pair_relation (ei : Cert.KernelIdeal.Glue.I32 Cert.KernelIdeal.S8x2x100000) (r : Fin 8) (e : Fin 100000) (k : Fin 800000)
    (hk : k.val = r.val * 100000 + e.val) :
    Cert.KernelIdeal.Glue.maskIdx ei (ix2 k (1 : Fin 2)) = Cert.ReferenceIdeal.Glue.maskIdx ei (ix3 r e (0 : Fin 2)) := by
  unfold Cert.KernelIdeal.Glue.maskIdx Cert.ReferenceIdeal.Glue.maskIdx
  rw [catK_right, catR_left, colK, colR, alongR]
  have hrel : Cert.KernelIdeal.Glue.relFlat (ix1 k) = (BitVec.ofNat 32 r.val : BitVec 32) := by
    unfold Cert.KernelIdeal.Glue.relFlat
    rw [flatK _ _ r e k hk, rowsK]
    rfl
  have hcol : broadcastInDim Cert.ReferenceIdeal.S8x1 ![0] Cert.ReferenceIdeal.Gen.bcast_S8_S8x1_0 (iotaInDim Cert.ReferenceIdeal.S8 32 0) (ix2 r (0 : Fin 1))
      = (BitVec.ofNat 32 r.val : BitVec 32) := by
    rw [standR]
    rfl
  show Scalar.select (IntOp.cmpi .slt (Cert.KernelIdeal.Glue.relFlat (ix1 k)) (0#32))
      (IntOp.addi (Cert.KernelIdeal.Glue.relFlat (ix1 k)) (8#32)) (Cert.KernelIdeal.Glue.relFlat (ix1 k))
    = Scalar.select (IntOp.cmpi .slt (broadcastInDim Cert.ReferenceIdeal.S8x1 ![0] Cert.ReferenceIdeal.Gen.bcast_S8_S8x1_0 (iotaInDim Cert.ReferenceIdeal.S8 32 0) (ix2 r (0 : Fin 1))) (0#32))
      (IntOp.addi (broadcastInDim Cert.ReferenceIdeal.S8x1 ![0] Cert.ReferenceIdeal.Gen.bcast_S8_S8x1_0 (iotaInDim Cert.ReferenceIdeal.S8 32 0) (ix2 r (0 : Fin 1))) (8#32))
      (broadcastInDim Cert.ReferenceIdeal.S8x1 ![0] Cert.ReferenceIdeal.Gen.bcast_S8_S8x1_0 (iotaInDim Cert.ReferenceIdeal.S8 32 0) (ix2 r (0 : Fin 1)))
  rw [hrel, hcol]

/-! ## Each mask at a position: one when some pair lands there, zero otherwise -/

theorem maskK_hit (ei : Cert.KernelIdeal.Glue.I32 Cert.KernelIdeal.S8x2x100000) (n : Fin 100000) (r : Fin 8)
    (h : ∃ k : Fin 800000, (Cert.KernelIdeal.Glue.maskIdx ei (ix2 k (0 : Fin 2))).toInt = (n.val : Int)
      ∧ (Cert.KernelIdeal.Glue.maskIdx ei (ix2 k (1 : Fin 2))).toInt = (r.val : Int)) :
    Cert.KernelIdeal.Glue.maskOf ei (ix2 n r) = one := by
  obtain ⟨k, h0, h1⟩ := h
  exact Cert.Lib.scatter_const_hit
    (Cert.Lib.rowsDims 100000 8 800000 Cert.KernelIdeal.scatter_S100000x8_S800000x2_S800000_n_01_01_1.wf) _
    (Cert.KernelIdeal.Glue.maskIdx ei) one (ix2 n r)
    ⟨ix1 k, (Cert.Lib.rowsDims_resultIdx?_iff 100000 8 800000 _ (Cert.KernelIdeal.Glue.maskIdx ei) (ix1 k) n r).2 ⟨h0, h1⟩⟩

theorem maskK_miss (ei : Cert.KernelIdeal.Glue.I32 Cert.KernelIdeal.S8x2x100000) (n : Fin 100000) (r : Fin 8)
    (h : ¬ ∃ k : Fin 800000, (Cert.KernelIdeal.Glue.maskIdx ei (ix2 k (0 : Fin 2))).toInt = (n.val : Int)
      ∧ (Cert.KernelIdeal.Glue.maskIdx ei (ix2 k (1 : Fin 2))).toInt = (r.val : Int)) :
    Cert.KernelIdeal.Glue.maskOf ei (ix2 n r) = zero :=
  Cert.Lib.scatter_set_miss
    (Cert.Lib.rowsDims 100000 8 800000 Cert.KernelIdeal.scatter_S100000x8_S800000x2_S800000_n_01_01_1.wf) _
    (Cert.KernelIdeal.Glue.maskIdx ei) _ (ix2 n r)
    (fun j hj => h ⟨j 0, (Cert.Lib.rowsDims_resultIdx?_iff 100000 8 800000 _ (Cert.KernelIdeal.Glue.maskIdx ei) j n r).1 hj⟩)

theorem maskR_hit (ei : Cert.ReferenceIdeal.Glue.I32 Cert.ReferenceIdeal.S8x2x100000) (n : Fin 100000) (r : Fin 8)
    (h : ∃ (r' : Fin 8) (e : Fin 100000), (Cert.ReferenceIdeal.Glue.maskIdx ei (ix3 r' e (0 : Fin 2))).toInt = (r.val : Int)
      ∧ (Cert.ReferenceIdeal.Glue.maskIdx ei (ix3 r' e (1 : Fin 2))).toInt = (n.val : Int)) :
    Cert.ReferenceIdeal.Glue.maskOf ei (ix2 r n) = one := by
  obtain ⟨r', e, h0, h1⟩ := h
  exact Cert.Lib.scatter_const_hit
    (Cert.Lib.gridDims 8 100000 8 100000 Cert.ReferenceIdeal.scatter_S8x100000_S8x100000x2_S8x100000_n_01_01_2.wf) _
    (Cert.ReferenceIdeal.Glue.maskIdx ei) one (ix2 r n)
    ⟨ix2 r' e, (Cert.Lib.gridDims_resultIdx?_iff 8 100000 8 100000 _ (Cert.ReferenceIdeal.Glue.maskIdx ei) (ix2 r' e) r n).2 ⟨h0, h1⟩⟩

theorem maskR_miss (ei : Cert.ReferenceIdeal.Glue.I32 Cert.ReferenceIdeal.S8x2x100000) (n : Fin 100000) (r : Fin 8)
    (h : ¬ ∃ (r' : Fin 8) (e : Fin 100000), (Cert.ReferenceIdeal.Glue.maskIdx ei (ix3 r' e (0 : Fin 2))).toInt = (r.val : Int)
      ∧ (Cert.ReferenceIdeal.Glue.maskIdx ei (ix3 r' e (1 : Fin 2))).toInt = (n.val : Int)) :
    Cert.ReferenceIdeal.Glue.maskOf ei (ix2 r n) = zero :=
  Cert.Lib.scatter_set_miss
    (Cert.Lib.gridDims 8 100000 8 100000 Cert.ReferenceIdeal.scatter_S8x100000_S8x100000x2_S8x100000_n_01_01_2.wf) _
    (Cert.ReferenceIdeal.Glue.maskIdx ei) _ (ix2 r n)
    (fun j hj => h ⟨j 0, j 1, (Cert.Lib.gridDims_resultIdx?_iff 8 100000 8 100000 _ (Cert.ReferenceIdeal.Glue.maskIdx ei) j r n).1 hj⟩)

/-- THE TRANSPOSE: the kernel program's mask at `(n, r)` is the reference's at `(r, n)`. -/
theorem mask_transpose (ei : Cert.KernelIdeal.Glue.I32 Cert.KernelIdeal.S8x2x100000) (n : Fin 100000) (r : Fin 8) :
    Cert.KernelIdeal.Glue.maskOf ei (ix2 n r) = Cert.ReferenceIdeal.Glue.maskOf ei (ix2 r n) := by
  by_cases H : ∃ k : Fin 800000, (Cert.KernelIdeal.Glue.maskIdx ei (ix2 k (0 : Fin 2))).toInt = (n.val : Int)
      ∧ (Cert.KernelIdeal.Glue.maskIdx ei (ix2 k (1 : Fin 2))).toInt = (r.val : Int)
  · rw [maskK_hit ei n r H]
    obtain ⟨k, h0, h1⟩ := H
    have hk : k.val < 800000 := k.isLt
    have hkk : k.val = (⟨k.val / 100000, by omega⟩ : Fin 8).val * 100000 + (⟨k.val % 100000, by omega⟩ : Fin 100000).val := by
      show k.val = k.val / 100000 * 100000 + k.val % 100000
      omega
    refine (maskR_hit ei n r ⟨⟨k.val / 100000, by omega⟩, ⟨k.val % 100000, by omega⟩, ?_, ?_⟩).symm
    · rw [← pair_relation ei _ _ k hkk]; exact h1
    · rw [← pair_target ei _ _ k hkk]; exact h0
  · rw [maskK_miss ei n r H]
    refine (maskR_miss ei n r (fun HR => H ?_)).symm
    obtain ⟨r', e, h0, h1⟩ := HR
    have hr : r'.val < 8 := r'.isLt
    have he : e.val < 100000 := e.isLt
    refine ⟨⟨r'.val * 100000 + e.val, by omega⟩, ?_, ?_⟩
    · rw [pair_target ei r' e _ rfl]; exact h1
    · rw [pair_relation ei r' e _ rfl]; exact h0

end Cert.Mask

end
-- ==== Proof.LibDotCols.lean ====
import Idealize.ShloMosaic.Lib.ValueIdx
import Idealize.ShloMosaic.PureOps.Ideal.Laws

/-!
# A columns-with-columns product read at an index

For dimension numbers that contract the FIRST axis of both operands and have no batch axis (einsum `km,kn->mn`),
the product `[K, M] × [K, N] → [M, N]` at the index `(p, q)` is the plain sum `∑ k < K, l (k, p) · r (k, q)` over the
extended reals, for the host's `dot_general` and for the matrix unit's product into a zero accumulator, whatever
`M`, `K`, `N` are. It is the rows-by-columns product of the left operand's transpose.
-/

noncomputable section

namespace Cert.LibDotCols

open Idealize.ShloMosaic Idealize.ShloMosaic.ValueIdx
open scoped BigOperators

/-- The dimension numbers of a columns-with-columns product: axis 0 of both operands contracted, the remaining
    axes kept in order, no batch axis. -/
structure ColsCols {M K N : Nat} (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section Literal

variable {M K N : Nat}
  (wf : DotDims.WF (⟨2, ![K, M]⟩ : Shape) (⟨2, ![K, N]⟩ : Shape) (⟨2, ![M, N]⟩ : Shape) [0] [0] [1] [1] [] [])

/-- The record with the lists spelt out. -/
abbrev lit : DotDims ⟨2, ![K, M]⟩ ⟨2, ![K, N]⟩ ⟨2, ![M, N]⟩ := ⟨[0], [0], [1], [1], [], [], wf⟩

/-- The left operand's column is the result's row. -/
theorem lit_lhs1 (j : (⟨2, ![M, N]⟩ : Shape).Idx) (k : (lit wf).contr.Idx) : ((lit wf).lhsIdx j k 1).val = (j 0).val := by
  unfold DotDims.lhsIdx
  rw [dif_neg (show ¬ (1 : Fin 2) ∈ (lit wf).lhsBatch from List.not_mem_nil),
    dif_pos (show (1 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![K, M]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 k p) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 k p := funext fun a => Fin.ext (by
    match a with
    | ⟨0, _⟩ => exact ((lit wf).lhsIdx_val_of_single rfl _ _).trans hk
    | ⟨1, _⟩ => exact lit_lhs1 wf _ _)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a columns-with-columns product is the sum over `k < K` of the left
    operand at `(k, p)` times the right operand at `(k, q)`. -/
theorem sum_contr {M K N : Nat} (d : DotDims ⟨2, ![K, M]⟩ ⟨2, ![K, N]⟩ ⟨2, ![M, N]⟩) (h : ColsCols d)
    (l : (⟨2, ![K, M]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 k p) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The host's `dot_general` at an index: the plain sum, whatever the schedule key. -/
theorem dotGeneral_apply {M K N : Nat} {φ₁ φ₂ : FTy} (d : DotDims ⟨2, ![K, M]⟩ ⟨2, ![K, N]⟩ ⟨2, ![M, N]⟩) (h : ColsCols d)
    (prec : Option ContractPrecision) (sched : HostSchedule) (lhs : FVec Ideal ⟨2, ![K, M]⟩ φ₁) (rhs : FVec Ideal ⟨2, ![K, N]⟩ φ₂)
    (p : Fin M) (q : Fin N) :
    FloatOps.dotGeneral d prec sched lhs rhs (ix2 p q) = ∑ k : Fin K, lhs (ix2 k p) * rhs (ix2 k q) :=
  (Ideal.dotGeneral_apply d prec sched lhs rhs (ix2 p q)).trans (sum_contr d h lhs rhs p q)

/-- The matrix unit's product into a zero accumulator, at an index: the same sum. -/
theorem matmul_zero_apply {M K N : Nat} {φ₁ φ₂ : FTy} (d : DotDims ⟨2, ![K, M]⟩ ⟨2, ![K, N]⟩ ⟨2, ![M, N]⟩) (h : ColsCols d)
    (prec : Option ContractPrecision) (lhs : FVec Ideal ⟨2, ![K, M]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 k p) * rhs (ix2 k q) :=
  (Ideal.matmul_constant_zero_apply d prec lhs rhs (ix2 p q)).trans (sum_contr d h lhs rhs p q)

end Cert.LibDotCols

end
-- ==== Proof.LibDot3.lean ====
import Idealize.ShloMosaic.Lib.ValueIdx
import Idealize.ShloMosaic.PureOps.Ideal.Laws

/-!
# Products of rank-three arrays, read at an index

Three contractions of a rank-three left operand, each with its six lists of dimension numbers written out, whatever
the extents `A`, `B`, `C`, `K`, `N` are. In each the sum over the record's contraction index, at the result index
written by its coordinates, is the plain sum over `k < K` of a product of two entries:

* `[A, B, K] × [K, N] → [A, B, N]`, no batch axis (a dense layer applied to every row of every batch):
  `∑ k, l (a, b, k) · r (k, n)` — `litFlat_sum`;
* `[A, B, K] × [A, C, K] → [A, B, C]`, the first axes a batch, the last axes contracted (inner products of rows with
  rows, batch by batch): `∑ k, l (a, b, k) · r (a, c, k)` — `litBT_sum`;
* `[A, B, K] × [A, K, N] → [A, B, N]`, the first axes a batch, the left operand's last axis against the right
  operand's middle one (a matrix product batch by batch): `∑ k, l (a, b, k) · r (a, k, n)` — `litBN_sum`.

With the library's reading of a `dot_general` or of a matrix product into a zero accumulator as the sum over the
contraction index (`Ideal.dotGeneral_apply`, `Ideal.matmul_constant_zero_apply`), these give the product's entries as
finite sums over the extended reals.
-/

noncomputable section

namespace Cert.LibDot3

open Idealize.ShloMosaic Idealize.ShloMosaic.ValueIdx
open scoped BigOperators

section Products

variable {A B C K N : Nat}

/-- Dimension numbers of `[A, B, K] × [K, N] → [A, B, N]`: the left operand's last axis against the right operand's
    first, no batch axis. -/
abbrev litFlat (wf : DotDims.WF (⟨3, ![A, B, K]⟩ : Shape) (⟨2, ![K, N]⟩ : Shape) (⟨3, ![A, B, N]⟩ : Shape) [2] [0] [0, 1] [1] [] []) :
    DotDims ⟨3, ![A, B, K]⟩ ⟨2, ![K, N]⟩ ⟨3, ![A, B, N]⟩ := ⟨[2], [0], [0, 1], [1], [], [], wf⟩

/-- The left operand's first axis is the result's first. -/
theorem litFlat_lhs0 (wf : DotDims.WF (⟨3, ![A, B, K]⟩ : Shape) (⟨2, ![K, N]⟩ : Shape) (⟨3, ![A, B, N]⟩ : Shape) [2] [0] [0, 1] [1] [] [])
    (j : (⟨3, ![A, B, N]⟩ : Shape).Idx) (k : (litFlat wf).contr.Idx) : ((litFlat wf).lhsIdx j k 0).val = (j 0).val := by
  unfold DotDims.lhsIdx
  rw [dif_neg (show ¬ (0 : Fin 3) ∈ (litFlat wf).lhsBatch from List.not_mem_nil),
    dif_pos (show (0 : Fin 3) ∈ (litFlat wf).lhsNonContracting from (by decide : (0 : Fin 3) ∈ ([0, 1] : List (Fin 3))))]
  rfl

/-- The left operand's second axis is the result's second. -/
theorem litFlat_lhs1 (wf : DotDims.WF (⟨3, ![A, B, K]⟩ : Shape) (⟨2, ![K, N]⟩ : Shape) (⟨3, ![A, B, N]⟩ : Shape) [2] [0] [0, 1] [1] [] [])
    (j : (⟨3, ![A, B, N]⟩ : Shape).Idx) (k : (litFlat wf).contr.Idx) : ((litFlat wf).lhsIdx j k 1).val = (j 1).val := by
  unfold DotDims.lhsIdx
  rw [dif_neg (show ¬ (1 : Fin 3) ∈ (litFlat wf).lhsBatch from List.not_mem_nil),
    dif_pos (show (1 : Fin 3) ∈ (litFlat wf).lhsNonContracting from (by decide : (1 : Fin 3) ∈ ([0, 1] : List (Fin 3))))]
  rfl

/-- The right operand's column is the result's last axis. -/
theorem litFlat_rhs1 (wf : DotDims.WF (⟨3, ![A, B, K]⟩ : Shape) (⟨2, ![K, N]⟩ : Shape) (⟨3, ![A, B, N]⟩ : Shape) [2] [0] [0, 1] [1] [] [])
    (j : (⟨3, ![A, B, N]⟩ : Shape).Idx) (k : (litFlat wf).contr.Idx) : ((litFlat wf).rhsIdx j k 1).val = (j 2).val := by
  unfold DotDims.rhsIdx
  rw [dif_neg (show ¬ (1 : Fin 2) ∈ (litFlat wf).rhsBatch from List.not_mem_nil),
    dif_pos (show (1 : Fin 2) ∈ (litFlat wf).rhsNonContracting from List.mem_singleton.mpr rfl)]
  rfl

/-- The product at `(a, b, n)` is the sum over the contracted axis of the left operand at `(a, b, k)` times the right
    operand at `(k, n)`. -/
theorem litFlat_sum (wf : DotDims.WF (⟨3, ![A, B, K]⟩ : Shape) (⟨2, ![K, N]⟩ : Shape) (⟨3, ![A, B, N]⟩ : Shape) [2] [0] [0, 1] [1] [] [])
    (l : (⟨3, ![A, B, K]⟩ : Shape).Idx → EReal) (r : (⟨2, ![K, N]⟩ : Shape).Idx → EReal) (a : Fin A) (b : Fin B) (n : Fin N) :
    ∑ k : (litFlat wf).contr.Idx, l ((litFlat wf).lhsIdx (ix3 a b n) k) * r ((litFlat wf).rhsIdx (ix3 a b n) k)
      = ∑ k : Fin K, l (ix3 a b k) * r (ix2 k n) := by
  rw [← Equiv.sum_comp (contrEquiv1 (litFlat wf) K rfl rfl).symm]
  refine Finset.sum_congr rfl fun k _ => ?_
  have hk := contrEquiv1_symm_val (litFlat wf) K rfl rfl k
  have el : (litFlat wf).lhsIdx (ix3 a b n) ((contrEquiv1 (litFlat wf) K rfl rfl).symm k) = ix3 a b k := funext fun c => Fin.ext (by
    match c with
    | ⟨0, _⟩ => exact litFlat_lhs0 wf _ _
    | ⟨1, _⟩ => exact litFlat_lhs1 wf _ _
    | ⟨2, _⟩ => exact ((litFlat wf).lhsIdx_val_of_single rfl _ _).trans hk)
  have er : (litFlat wf).rhsIdx (ix3 a b n) ((contrEquiv1 (litFlat wf) K rfl rfl).symm k) = ix2 k n := funext fun c => Fin.ext (by
    match c with
    | ⟨0, _⟩ => exact ((litFlat wf).rhsIdx_val_of_single rfl _ _).trans hk
    | ⟨1, _⟩ => exact litFlat_rhs1 wf _ _)
  rw [el, er]

/-- Dimension numbers of `[A, B, K] × [A, C, K] → [A, B, C]`: the first axes a batch, the last axes contracted. -/
abbrev litBT (wf : DotDims.WF (⟨3, ![A, B, K]⟩ : Shape) (⟨3, ![A, C, K]⟩ : Shape) (⟨3, ![A, B, C]⟩ : Shape) [2] [2] [1] [1] [0] [0]) :
    DotDims ⟨3, ![A, B, K]⟩ ⟨3, ![A, C, K]⟩ ⟨3, ![A, B, C]⟩ := ⟨[2], [2], [1], [1], [0], [0], wf⟩

/-- The left operand's batch axis is the result's first. -/
theorem litBT_lhs0 (wf : DotDims.WF (⟨3, ![A, B, K]⟩ : Shape) (⟨3, ![A, C, K]⟩ : Shape) (⟨3, ![A, B, C]⟩ : Shape) [2] [2] [1] [1] [0] [0])
    (j : (⟨3, ![A, B, C]⟩ : Shape).Idx) (k : (litBT wf).contr.Idx) : ((litBT wf).lhsIdx j k 0).val = (j 0).val := by
  unfold DotDims.lhsIdx
  rw [dif_pos (show (0 : Fin 3) ∈ (litBT wf).lhsBatch from List.mem_singleton.mpr rfl)]
  rfl

/-- The left operand's kept axis is the result's second. -/
theorem litBT_lhs1 (wf : DotDims.WF (⟨3, ![A, B, K]⟩ : Shape) (⟨3, ![A, C, K]⟩ : Shape) (⟨3, ![A, B, C]⟩ : Shape) [2] [2] [1] [1] [0] [0])
    (j : (⟨3, ![A, B, C]⟩ : Shape).Idx) (k : (litBT wf).contr.Idx) : ((litBT wf).lhsIdx j k 1).val = (j 1).val := by
  unfold DotDims.lhsIdx
  rw [dif_neg (show ¬ (1 : Fin 3) ∈ (litBT wf).lhsBatch from (by decide : ¬ (1 : Fin 3) ∈ ([0] : List (Fin 3)))),
    dif_pos (show (1 : Fin 3) ∈ (litBT wf).lhsNonContracting from List.mem_singleton.mpr rfl)]
  rfl

/-- The right operand's batch axis is the result's first. -/
theorem litBT_rhs0 (wf : DotDims.WF (⟨3, ![A, B, K]⟩ : Shape) (⟨3, ![A, C, K]⟩ : Shape) (⟨3, ![A, B, C]⟩ : Shape) [2] [2] [1] [1] [0] [0])
    (j : (⟨3, ![A, B, C]⟩ : Shape).Idx) (k : (litBT wf).contr.Idx) : ((litBT wf).rhsIdx j k 0).val = (j 0).val := by
  unfold DotDims.rhsIdx
  rw [dif_pos (show (0 : Fin 3) ∈ (litBT wf).rhsBatch from List.mem_singleton.mpr rfl)]
  rfl

/-- The right operand's kept axis is the result's last. -/
theorem litBT_rhs1 (wf : DotDims.WF (⟨3, ![A, B, K]⟩ : Shape) (⟨3, ![A, C, K]⟩ : Shape) (⟨3, ![A, B, C]⟩ : Shape) [2] [2] [1] [1] [0] [0])
    (j : (⟨3, ![A, B, C]⟩ : Shape).Idx) (k : (litBT wf).contr.Idx) : ((litBT wf).rhsIdx j k 1).val = (j 2).val := by
  unfold DotDims.rhsIdx
  rw [dif_neg (show ¬ (1 : Fin 3) ∈ (litBT wf).rhsBatch from (by decide : ¬ (1 : Fin 3) ∈ ([0] : List (Fin 3)))),
    dif_pos (show (1 : Fin 3) ∈ (litBT wf).rhsNonContracting from List.mem_singleton.mpr rfl)]
  rfl

/-- The product at `(a, b, c)` is the sum over the contracted axis of the left operand at `(a, b, k)` times the right
    operand at `(a, c, k)`. -/
theorem litBT_sum (wf : DotDims.WF (⟨3, ![A, B, K]⟩ : Shape) (⟨3, ![A, C, K]⟩ : Shape) (⟨3, ![A, B, C]⟩ : Shape) [2] [2] [1] [1] [0] [0])
    (l : (⟨3, ![A, B, K]⟩ : Shape).Idx → EReal) (r : (⟨3, ![A, C, K]⟩ : Shape).Idx → EReal) (a : Fin A) (b : Fin B) (c : Fin C) :
    ∑ k : (litBT wf).contr.Idx, l ((litBT wf).lhsIdx (ix3 a b c) k) * r ((litBT wf).rhsIdx (ix3 a b c) k)
      = ∑ k : Fin K, l (ix3 a b k) * r (ix3 a c k) := by
  rw [← Equiv.sum_comp (contrEquiv1 (litBT wf) K rfl rfl).symm]
  refine Finset.sum_congr rfl fun k _ => ?_
  have hk := contrEquiv1_symm_val (litBT wf) K rfl rfl k
  have el : (litBT wf).lhsIdx (ix3 a b c) ((contrEquiv1 (litBT wf) K rfl rfl).symm k) = ix3 a b k := funext fun e => Fin.ext (by
    match e with
    | ⟨0, _⟩ => exact litBT_lhs0 wf _ _
    | ⟨1, _⟩ => exact litBT_lhs1 wf _ _
    | ⟨2, _⟩ => exact ((litBT wf).lhsIdx_val_of_single rfl _ _).trans hk)
  have er : (litBT wf).rhsIdx (ix3 a b c) ((contrEquiv1 (litBT wf) K rfl rfl).symm k) = ix3 a c k := funext fun e => Fin.ext (by
    match e with
    | ⟨0, _⟩ => exact litBT_rhs0 wf _ _
    | ⟨1, _⟩ => exact litBT_rhs1 wf _ _
    | ⟨2, _⟩ => exact ((litBT wf).rhsIdx_val_of_single rfl _ _).trans hk)
  rw [el, er]

/-- Dimension numbers of `[A, B, K] × [A, K, N] → [A, B, N]`: the first axes a batch, the left operand's last axis
    against the right operand's middle one. -/
abbrev litBN (wf : DotDims.WF (⟨3, ![A, B, K]⟩ : Shape) (⟨3, ![A, K, N]⟩ : Shape) (⟨3, ![A, B, N]⟩ : Shape) [2] [1] [1] [2] [0] [0]) :
    DotDims ⟨3, ![A, B, K]⟩ ⟨3, ![A, K, N]⟩ ⟨3, ![A, B, N]⟩ := ⟨[2], [1], [1], [2], [0], [0], wf⟩

/-- The left operand's batch axis is the result's first. -/
theorem litBN_lhs0 (wf : DotDims.WF (⟨3, ![A, B, K]⟩ : Shape) (⟨3, ![A, K, N]⟩ : Shape) (⟨3, ![A, B, N]⟩ : Shape) [2] [1] [1] [2] [0] [0])
    (j : (⟨3, ![A, B, N]⟩ : Shape).Idx) (k : (litBN wf).contr.Idx) : ((litBN wf).lhsIdx j k 0).val = (j 0).val := by
  unfold DotDims.lhsIdx
  rw [dif_pos (show (0 : Fin 3) ∈ (litBN wf).lhsBatch from List.mem_singleton.mpr rfl)]
  rfl

/-- The left operand's kept axis is the result's second. -/
theorem litBN_lhs1 (wf : DotDims.WF (⟨3, ![A, B, K]⟩ : Shape) (⟨3, ![A, K, N]⟩ : Shape) (⟨3, ![A, B, N]⟩ : Shape) [2] [1] [1] [2] [0] [0])
    (j : (⟨3, ![A, B, N]⟩ : Shape).Idx) (k : (litBN wf).contr.Idx) : ((litBN wf).lhsIdx j k 1).val = (j 1).val := by
  unfold DotDims.lhsIdx
  rw [dif_neg (show ¬ (1 : Fin 3) ∈ (litBN wf).lhsBatch from (by decide : ¬ (1 : Fin 3) ∈ ([0] : List (Fin 3)))),
    dif_pos (show (1 : Fin 3) ∈ (litBN wf).lhsNonContracting from List.mem_singleton.mpr rfl)]
  rfl

/-- The right operand's batch axis is the result's first. -/
theorem litBN_rhs0 (wf : DotDims.WF (⟨3, ![A, B, K]⟩ : Shape) (⟨3, ![A, K, N]⟩ : Shape) (⟨3, ![A, B, N]⟩ : Shape) [2] [1] [1] [2] [0] [0])
    (j : (⟨3, ![A, B, N]⟩ : Shape).Idx) (k : (litBN wf).contr.Idx) : ((litBN wf).rhsIdx j k 0).val = (j 0).val := by
  unfold DotDims.rhsIdx
  rw [dif_pos (show (0 : Fin 3) ∈ (litBN wf).rhsBatch from List.mem_singleton.mpr rfl)]
  rfl

/-- The right operand's kept axis is the result's last. -/
theorem litBN_rhs2 (wf : DotDims.WF (⟨3, ![A, B, K]⟩ : Shape) (⟨3, ![A, K, N]⟩ : Shape) (⟨3, ![A, B, N]⟩ : Shape) [2] [1] [1] [2] [0] [0])
    (j : (⟨3, ![A, B, N]⟩ : Shape).Idx) (k : (litBN wf).contr.Idx) : ((litBN wf).rhsIdx j k 2).val = (j 2).val := by
  unfold DotDims.rhsIdx
  rw [dif_neg (show ¬ (2 : Fin 3) ∈ (litBN wf).rhsBatch from (by decide : ¬ (2 : Fin 3) ∈ ([0] : List (Fin 3)))),
    dif_pos (show (2 : Fin 3) ∈ (litBN wf).rhsNonContracting from List.mem_singleton.mpr rfl)]
  rfl

/-- The product at `(a, b, n)` is the sum over the contracted axis of the left operand at `(a, b, k)` times the right
    operand at `(a, k, n)`. -/
theorem litBN_sum (wf : DotDims.WF (⟨3, ![A, B, K]⟩ : Shape) (⟨3, ![A, K, N]⟩ : Shape) (⟨3, ![A, B, N]⟩ : Shape) [2] [1] [1] [2] [0] [0])
    (l : (⟨3, ![A, B, K]⟩ : Shape).Idx → EReal) (r : (⟨3, ![A, K, N]⟩ : Shape).Idx → EReal) (a : Fin A) (b : Fin B) (n : Fin N) :
    ∑ k : (litBN wf).contr.Idx, l ((litBN wf).lhsIdx (ix3 a b n) k) * r ((litBN wf).rhsIdx (ix3 a b n) k)
      = ∑ k : Fin K, l (ix3 a b k) * r (ix3 a k n) := by
  rw [← Equiv.sum_comp (contrEquiv1 (litBN wf) K rfl rfl).symm]
  refine Finset.sum_congr rfl fun k _ => ?_
  have hk := contrEquiv1_symm_val (litBN wf) K rfl rfl k
  have el : (litBN wf).lhsIdx (ix3 a b n) ((contrEquiv1 (litBN wf) K rfl rfl).symm k) = ix3 a b k := funext fun e => Fin.ext (by
    match e with
    | ⟨0, _⟩ => exact litBN_lhs0 wf _ _
    | ⟨1, _⟩ => exact litBN_lhs1 wf _ _
    | ⟨2, _⟩ => exact ((litBN wf).lhsIdx_val_of_single rfl _ _).trans hk)
  have er : (litBN wf).rhsIdx (ix3 a b n) ((contrEquiv1 (litBN wf) K rfl rfl).symm k) = ix3 a k n := funext fun e => Fin.ext (by
    match e with
    | ⟨0, _⟩ => exact litBN_rhs0 wf _ _
    | ⟨1, _⟩ => exact ((litBN wf).rhsIdx_val_of_single rfl _ _).trans hk
    | ⟨2, _⟩ => exact litBN_rhs2 wf _ _)
  rw [el, er]

end Products

end Cert.LibDot3

end
-- ==== Proof.Bridge.lean ====
/-
  The kernel program's layer and the reference's layer are ONE function of their six arguments, entry by entry over
  the extended reals.

  Both gather the same rows and sum messages into target nodes by the same operation, so it is enough that the
  messages agree: the relation kernel's `(∑ d, g(r,e,d) · W(r,d,o)) · ew(r,e)` is the batched product times the edge
  weight repeated along the lanes. The self-loop kernel's second product `∑ r, mask(n,r) · b(r,o)` is the reference's
  contraction `∑ r, mask'(r,n) · b(r,o)` over the relation axis because the two masks are transposes, and the two
  programs add the three terms in a different order, which on the extended reals (a commutative monoid under +)
  changes nothing. No finiteness of any input is used.
-/
import proofs.«169420_j85890755985724_1_alg».proof.Proof.KerGlue
import proofs.«169420_j85890755985724_1_alg».proof.Proof.RefGlue
import proofs.«169420_j85890755985724_1_alg».proof.Proof.Mask
import proofs.«169420_j85890755985724_1_alg».proof.Proof.LibPlainDot
import proofs.«169420_j85890755985724_1_alg».proof.Proof.LibDotCols
import proofs.«169420_j85890755985724_1_alg».proof.Proof.LibDot3
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open scoped BigOperators

section Layout
variable {α : Type}

/-- An `[8, 100000]` array with a trailing unit axis added reads, at `(r, e, 0)`, the entry `(r, e)`. -/
theorem col_apply (v : (⟨2, ![8, 100000]⟩ : Shape).Idx → α)
    (h : (⟨2, ![8, 100000]⟩ : Shape).BroadcastsInDim ⟨3, ![8, 100000, 1]⟩ ![0, 1]) (r : Fin 8) (e : Fin 100000) :
    broadcastInDim ⟨3, ![8, 100000, 1]⟩ ![0, 1] h v (ix3 r e (0 : Fin 1)) = v (ix2 r e) :=
  broadcastInDim_apply ![0, 1] h v _ (ix2 r e) fun a => match a with
    | ⟨0, _⟩ => by show r.val = if (8 : ℕ) = 1 then 0 else r.val; rw [if_neg (by decide)]
    | ⟨1, _⟩ => by show e.val = if (100000 : ℕ) = 1 then 0 else e.val; rw [if_neg (by decide)]

/-- An `[8, 100000, 1]` column repeated along 128 lanes reads, at `(r, e, o)`, the entry `(r, e, 0)`. -/
theorem lanes_apply (v : (⟨3, ![8, 100000, 1]⟩ : Shape).Idx → α)
    (h : (⟨3, ![8, 100000, 1]⟩ : Shape).BroadcastsInDim ⟨3, ![8, 100000, 128]⟩ ![0, 1, 2]) (r : Fin 8) (e : Fin 100000) (o : Fin 128) :
    broadcastInDim ⟨3, ![8, 100000, 128]⟩ ![0, 1, 2] h v (ix3 r e o) = v (ix3 r e (0 : Fin 1)) :=
  broadcastInDim_apply ![0, 1, 2] h v _ (ix3 r e (0 : Fin 1)) fun a => match a with
    | ⟨0, _⟩ => by show r.val = if (8 : ℕ) = 1 then 0 else r.val; rw [if_neg (by decide)]
    | ⟨1, _⟩ => by show e.val = if (100000 : ℕ) = 1 then 0 else e.val; rw [if_neg (by decide)]
    | ⟨2, _⟩ => by show (0 : ℕ) = if (1 : ℕ) = 1 then 0 else o.val; rw [if_pos rfl]

end Layout

/-- The two programs gather the same rows. -/
theorem gather_eq (x : Cert.KernelIdeal.Glue.F32 Cert.KernelIdeal.S100000x128) (ei : Cert.KernelIdeal.Glue.I32 Cert.KernelIdeal.S8x2x100000) :
    Cert.KernelIdeal.Glue.gatherOf x ei = Cert.ReferenceIdeal.Glue.gatherOf x ei := rfl

/-- The two programs sum messages into target nodes by the same operation. -/
theorem agg_eq (ei : Cert.KernelIdeal.Glue.I32 Cert.KernelIdeal.S8x2x100000) (msg : Cert.KernelIdeal.Glue.F32 Cert.KernelIdeal.S8x100000x128) :
    Cert.KernelIdeal.Glue.aggOf ei msg = Cert.ReferenceIdeal.Glue.aggOf ei msg := rfl

/-- The two programs take the same positive part. -/
theorem relu_eq (x : Cert.KernelIdeal.Glue.F32 Cert.KernelIdeal.S100000x128) :
    Cert.KernelIdeal.Glue.relu x = Cert.ReferenceIdeal.Glue.relu x := rfl

/-- The batched product at `(r, e, o)`: row `(r, e)` against column `o` of relation `r`'s weights. -/
theorem batched_apply (g : Cert.ReferenceIdeal.Glue.F32 Cert.ReferenceIdeal.S8x100000x128)
    (w : Cert.ReferenceIdeal.Glue.F32 Cert.ReferenceIdeal.S8x128x128) (r : Fin 8) (e : Fin 100000) (o : Fin 128) :
    Host.dotGeneral (F := Ideal) Cert.ReferenceIdeal.dot_S8x100000x128_S8x128x128_S8x100000x128_2_1_1_2_0_0 none g w (ix3 r e o)
      = ∑ d : Fin 128, g (ix3 r e d) * w (ix3 r d o) := by
  simp only [Host.dotGeneral]
  refine (Ideal.dotGeneral_apply _ _ _ g w (ix3 r e o)).trans ?_
  exact Cert.LibDot3.litBN_sum Cert.ReferenceIdeal.dot_S8x100000x128_S8x128x128_S8x100000x128_2_1_1_2_0_0.wf g w r e o

/-- The messages of the two programs agree entry by entry. -/
theorem msg_eq (g : Cert.KernelIdeal.Glue.F32 Cert.KernelIdeal.S8x100000x128) (w : Cert.KernelIdeal.Glue.F32 Cert.KernelIdeal.S8x128x128)
    (ew : Cert.KernelIdeal.Glue.F32 Cert.KernelIdeal.S8x100000) :
    Cert.KernelIdeal.Body.msgOf g w (Cert.KernelIdeal.Glue.ewCol ew) = Cert.ReferenceIdeal.Glue.msgOf g w ew := by
  funext j
  obtain ⟨r, e, o, rfl⟩ : ∃ (r : Fin 8) (e : Fin 100000) (o : Fin 128), j = ix3 r e o := ⟨j 0, j 1, j 2, eq_ix3 j⟩
  show (∑ d : Fin 128, g (ix3 r e d) * w (ix3 r d o)) * Cert.KernelIdeal.Glue.ewCol ew (ix3 r e (0 : Fin 1))
    = Host.dotGeneral (F := Ideal) Cert.ReferenceIdeal.dot_S8x100000x128_S8x128x128_S8x100000x128_2_1_1_2_0_0 none g w (ix3 r e o)
      * broadcastInDim Cert.ReferenceIdeal.S8x100000x128 ![0, 1, 2] Cert.ReferenceIdeal.Gen.bcast_S8x100000x1_S8x100000x128_0_1_2
          (broadcastInDim Cert.ReferenceIdeal.S8x100000x1 ![0, 1] Cert.ReferenceIdeal.Gen.bcast_S8x100000_S8x100000x1_0_1 ew) (ix3 r e o)
  rw [batched_apply g w r e o]
  refine congrArg (_ * ·) ?_
  refine (col_apply ew _ r e).trans ?_
  refine ((lanes_apply _ _ r e o).trans (col_apply ew _ r e)).symm

/-- The reference's bias product at `(n, o)`: the mask's column `n` against the biases' column `o`. -/
theorem bias_apply (mk : Cert.ReferenceIdeal.Glue.F32 Cert.ReferenceIdeal.S8x100000) (b : Cert.ReferenceIdeal.Glue.F32 Cert.ReferenceIdeal.S8x128)
    (n : Fin 100000) (o : Fin 128) :
    Host.dotGeneral (F := Ideal) Cert.ReferenceIdeal.dot_S8x100000_S8x128_S100000x128_0_0_1_1_n_n none mk b (ix2 n o)
      = ∑ r : Fin 8, mk (ix2 r n) * b (ix2 r o) := by
  simp only [Host.dotGeneral]
  exact Cert.LibDotCols.dotGeneral_apply _ ⟨rfl, rfl, rfl, rfl, rfl, rfl⟩ none _ mk b n o

/-- The reference's self-loop product at `(n, o)`. -/
theorem self_apply (x : Cert.ReferenceIdeal.Glue.F32 Cert.ReferenceIdeal.S100000x128) (w : Cert.ReferenceIdeal.Glue.F32 Cert.ReferenceIdeal.S128x128)
    (n : Fin 100000) (o : Fin 128) :
    Host.dotGeneral (F := Ideal) Cert.ReferenceIdeal.dot_S100000x128_S128x128_S100000x128_1_0_0_1_n_n none x w (ix2 n o)
      = ∑ d : Fin 128, x (ix2 n d) * w (ix2 d o) := by
  simp only [Host.dotGeneral]
  exact Cert.LibPlainDot.dotGeneral_apply _ ⟨rfl, rfl, rfl, rfl, rfl, rfl⟩ none _ x w n o

/-- Summed messages of the two programs: the same operation on equal messages of the same gathered rows. -/
theorem agg_msg_eq (x : Cert.KernelIdeal.Glue.F32 Cert.KernelIdeal.S100000x128) (ei : Cert.KernelIdeal.Glue.I32 Cert.KernelIdeal.S8x2x100000)
    (ew : Cert.KernelIdeal.Glue.F32 Cert.KernelIdeal.S8x100000) (relW : Cert.KernelIdeal.Glue.F32 Cert.KernelIdeal.S8x128x128)
    (selfW : Cert.KernelIdeal.Glue.F32 Cert.KernelIdeal.S128x128) (bias : Cert.KernelIdeal.Glue.F32 Cert.KernelIdeal.S8x128) :
    Cert.KernelIdeal.Glue.aggOf ei (Cert.KernelIdeal.Body.msgOf (Cert.KernelIdeal.Glue.gatherOf x ei) relW (Cert.KernelIdeal.Glue.ewCol ew))
      = Cert.ReferenceIdeal.Glue.aggOf ei (Cert.ReferenceIdeal.Glue.msgOf (Cert.ReferenceIdeal.Glue.gatherOf x ei) relW ew) := by
  rw [msg_eq]; rfl

/-- The self-loop kernel's array at `(n, o)`. -/
theorem selfOf_apply (x : Cert.KernelIdeal.Glue.F32 Cert.KernelIdeal.S100000x128) (w : Cert.KernelIdeal.Glue.F32 Cert.KernelIdeal.S128x128)
    (mk : Cert.KernelIdeal.Glue.F32 Cert.KernelIdeal.S100000x8) (b : Cert.KernelIdeal.Glue.F32 Cert.KernelIdeal.S8x128)
    (n : Fin 100000) (o : Fin 128) :
    Cert.KernelIdeal.Body.selfOf x w mk b (ix2 n o)
      = (∑ d : Fin 128, x (ix2 n d) * w (ix2 d o)) + (∑ r : Fin 8, mk (ix2 n r) * b (ix2 r o)) := rfl

/-- A sum of three arrays, grouped to the left, at an index. -/
theorem add3_apply {s : Shape} (a b c : FVec Ideal s .f32) (i : s.Idx) : addf (addf a b) c i = (a i + b i) + c i := rfl

/-- THE LAYERS ARE ONE FUNCTION. -/
theorem layer_eq (x : Cert.KernelIdeal.Glue.F32 Cert.KernelIdeal.S100000x128) (ei : Cert.KernelIdeal.Glue.I32 Cert.KernelIdeal.S8x2x100000)
    (ew : Cert.KernelIdeal.Glue.F32 Cert.KernelIdeal.S8x100000) (relW : Cert.KernelIdeal.Glue.F32 Cert.KernelIdeal.S8x128x128)
    (selfW : Cert.KernelIdeal.Glue.F32 Cert.KernelIdeal.S128x128) (bias : Cert.KernelIdeal.Glue.F32 Cert.KernelIdeal.S8x128) :
    Cert.KernelIdeal.Glue.layer x ei ew relW selfW bias = Cert.ReferenceIdeal.Glue.layer x ei ew relW selfW bias := by
  funext i
  obtain ⟨n, o, rfl⟩ : ∃ (n : Fin 100000) (o : Fin 128), i = ix2 n o := ⟨i 0, i 1, eq_ix2 i⟩
  unfold Cert.KernelIdeal.Glue.layer Cert.ReferenceIdeal.Glue.layer
  rw [add3_apply, addf_apply]
  rw [agg_msg_eq x ei ew relW selfW bias, selfOf_apply, bias_apply, self_apply]
  have hM : (∑ r : Fin 8, Cert.KernelIdeal.Glue.maskOf ei (ix2 n r) * bias (ix2 r o))
      = ∑ r : Fin 8, Cert.ReferenceIdeal.Glue.maskOf ei (ix2 r n) * bias (ix2 r o) :=
    Finset.sum_congr rfl fun r _ => by rw [Cert.Mask.mask_transpose ei n r]
  rw [hM, add_comm (∑ d : Fin 128, x (ix2 n d) * selfW (ix2 d o)), ← add_assoc]

/-- The two programs' results: the layer twice, the positive part between. -/
theorem twice_eq (x : Cert.KernelIdeal.Glue.F32 Cert.KernelIdeal.S100000x128) (ei : Cert.KernelIdeal.Glue.I32 Cert.KernelIdeal.S8x2x100000)
    (ew : Cert.KernelIdeal.Glue.F32 Cert.KernelIdeal.S8x100000)
    (w1 : Cert.KernelIdeal.Glue.F32 Cert.KernelIdeal.S8x128x128) (s1 : Cert.KernelIdeal.Glue.F32 Cert.KernelIdeal.S128x128)
    (b1 : Cert.KernelIdeal.Glue.F32 Cert.KernelIdeal.S8x128)
    (w2 : Cert.KernelIdeal.Glue.F32 Cert.KernelIdeal.S8x128x128) (s2 : Cert.KernelIdeal.Glue.F32 Cert.KernelIdeal.S128x128)
    (b2 : Cert.KernelIdeal.Glue.F32 Cert.KernelIdeal.S8x128) :
    Cert.KernelIdeal.Glue.layer (Cert.KernelIdeal.Glue.relu (Cert.KernelIdeal.Glue.layer x ei ew w1 s1 b1)) ei ew w2 s2 b2
      = Cert.ReferenceIdeal.Glue.layer (Cert.ReferenceIdeal.Glue.relu (Cert.ReferenceIdeal.Glue.layer x ei ew w1 s1 b1)) ei ew w2 s2 b2 := by
  rw [layer_eq, layer_eq, relu_eq]

end Cert.Bridge

end
-- ==== Proof.lean ====
/-
  A two-layer relational graph convolution: per layer, the rows of the node features at each edge's source are
  multiplied by the edge's relation weights and scaled by the edge weight, the messages are summed into their
  target nodes, and a self-loop term `x · selfW` and a bias term (bias `r` once for every node that some edge of
  relation `r` targets) are added; the positive part is taken between the layers.

  The kernel program computes the messages and the self-loop-plus-bias term in two tiled kernels per layer (the bias
  term as a `[node, relation]` mask times the biases); the reference computes them by whole-array products (the bias
  term as a `[relation, node]` mask contracted with the biases over the relation axis). Over the extended reals a tile
  of a product holds the same entries as the whole product, the two masks are transposes, and the three terms are
  added in a different order only: the two programs end with the same array, for every input.
-/
import proofs.«169420_j85890755985724_1_alg».proof.Defs
import proofs.«169420_j85890755985724_1_alg».proof.Proof.Gen.Kernel
import proofs.«169420_j85890755985724_1_alg».proof.Proof.Gen.Kernel.Skeleton
import proofs.«169420_j85890755985724_1_alg».proof.Proof.Gen.Kernel.Launch
import proofs.«169420_j85890755985724_1_alg».proof.Proof.Gen.Kernel.Points
import proofs.«169420_j85890755985724_1_alg».proof.Proof.Gen.Kernel.Frame
import proofs.«169420_j85890755985724_1_alg».proof.Proof.Gen.KernelIdeal
import proofs.«169420_j85890755985724_1_alg».proof.Proof.Gen.KernelIdeal.Skeleton
import proofs.«169420_j85890755985724_1_alg».proof.Proof.Gen.KernelIdeal.Launch
import proofs.«169420_j85890755985724_1_alg».proof.Proof.Gen.KernelIdeal.Points
import proofs.«169420_j85890755985724_1_alg».proof.Proof.Gen.KernelIdeal.Frame
import proofs.«169420_j85890755985724_1_alg».proof.Proof.Gen.ReferenceIdeal
import proofs.«169420_j85890755985724_1_alg».proof.Proof.Gen.ReferenceIdeal.Run
import proofs.«169420_j85890755985724_1_alg».proof.Proof.Gen.Pre_finite_inputs
import proofs.«169420_j85890755985724_1_alg».proof.Proof.KerRun
import proofs.«169420_j85890755985724_1_alg».proof.Proof.KerChain
import proofs.«169420_j85890755985724_1_alg».proof.Proof.RefGlue
import proofs.«169420_j85890755985724_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program is the kernel program's own text read over the extended reals. -/
theorem preserves : Cert.preserves_Kernel_KernelIdeal := trivial

/-- Both programs end at the layer applied twice (the positive part between) to the same arguments, and the two
    spellings of the layer are one function. -/
theorem algebraic : Cert.algebraic_KernelIdeal_ReferenceIdeal := by
  intro m ρ m' ρ' _ hagree
  refine ⟨fun c => Cert.KernelIdeal.Glue.layer
      (Cert.KernelIdeal.Glue.relu (Cert.KernelIdeal.Glue.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩) (Cert.KernelIdeal.Named.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Glue.res_eq m' c]
    obtain ⟨e0, e1, e2, e3, e4, e5, e6, e7, e8⟩ := hagree c
    rw [e0, e1, e2, e3, e4, e5, e6, e7, e8]
    exact (Cert.Bridge.twice_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
